-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v110)) (v1 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_v112) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg20 : FVec F S128 .f32) (main_arg21 : FVec F S128x64 .f32) (main_arg22 : FVec F S64 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg16 : FVec F S128x128 .f32) (main_arg17 : FVec F S128 .f32) (main_arg18 : FVec F S128x128 .f32) (main_arg19 : FVec F S128x128 .f32) (main_arg20 : FVec F S128 .f32) (main_arg21 : FVec F S128x64 .f32) (main_arg22 : FVec F S64 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S128x128 .f32) (main_arg20 : FVec F S128 .f32) (main_arg21 : FVec F S128x64 .f32) (main_arg22 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S128x128 .f32) (main_arg20 : FVec F S128 .f32) (main_arg21 : FVec F S128x64 .f32) (main_arg22 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S128x128 .f32) (main_arg20 : FVec F S128 .f32) (main_arg21 : FVec F S128x64 .f32) (main_arg22 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x800000 32) (main_arg2 : IVec S2x800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128 .f32) (main_arg18 : FVec F S128x128 .f32) (main_arg19 : FVec F S128x128 .f32) (main_arg20 : FVec F S128 .f32) (main_arg21 : FVec F S128x64 .f32) (main_arg22 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S10000 : Shape := ⟨1, ![10000]⟩
abbrev S50000x1 : Shape := ⟨2, ![50000, 1]⟩
abbrev S10000x1 : Shape := ⟨2, ![10000, 1]⟩
abbrev S5000x128 : Shape := ⟨2, ![5000, 128]⟩
abbrev S800000x128 : Shape := ⟨2, ![800000, 128]⟩
abbrev S10000x128 : Shape := ⟨2, ![10000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 167
  | .vmem => 50
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x64, .f32⟩
  | 22 => ⟨S64, .f32⟩
  | 23 => ⟨S1x800000, .i32⟩
  | 24 => ⟨S800000, .i32⟩
  | 25 => ⟨S1x800000, .i32⟩
  | 26 => ⟨S800000, .i32⟩
  | 27 => ⟨S1x800000, .i32⟩
  | 28 => ⟨S800000, .i32⟩
  | 29 => ⟨S1x800000, .i32⟩
  | 30 => ⟨S800000, .i32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S10000, .f32⟩
  | 39 => ⟨S800000x1, .i32⟩
  | 40 => ⟨S10000, .f32⟩
  | 41 => ⟨S_, .f32⟩
  | 42 => ⟨S50000, .f32⟩
  | 43 => ⟨S50000, .i1⟩
  | 44 => ⟨S_, .f32⟩
  | 45 => ⟨S50000, .f32⟩
  | 46 => ⟨S50000, .f32⟩
  | 47 => ⟨S_, .f32⟩
  | 48 => ⟨S_, .f32⟩
  | 49 => ⟨S50000, .f32⟩
  | 50 => ⟨S50000, .f32⟩
  | 51 => ⟨S50000x1, .f32⟩
  | 52 => ⟨S_, .f32⟩
  | 53 => ⟨S10000, .f32⟩
  | 54 => ⟨S10000, .i1⟩
  | 55 => ⟨S_, .f32⟩
  | 56 => ⟨S10000, .f32⟩
  | 57 => ⟨S10000, .f32⟩
  | 58 => ⟨S_, .f32⟩
  | 59 => ⟨S_, .f32⟩
  | 60 => ⟨S10000, .f32⟩
  | 61 => ⟨S10000, .f32⟩
  | 62 => ⟨S10000x1, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S10000x128, .f32⟩
  | 75 => ⟨S800000x1, .i32⟩
  | 76 => ⟨S10000x128, .f32⟩
  | 77 => ⟨S10000x128, .f32⟩
  | 78 => ⟨S10000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x128, .f32⟩
  | 93 => ⟨S50000x128, .f32⟩
  | 94 => ⟨S128, .f32⟩
  | 95 => ⟨S1x128, .f32⟩
  | 96 => ⟨S50000x128, .f32⟩
  | 97 => ⟨S50000x128, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S10000x128, .f32⟩
  | 109 => ⟨S800000x1, .i32⟩
  | 110 => ⟨S10000x128, .f32⟩
  | 111 => ⟨S10000x128, .f32⟩
  | 112 => ⟨S10000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S_, .f32⟩
  | 13 => ⟨S50000x128, .f32⟩
  | 14 => ⟨S800000x1, .i32⟩
  | 15 => ⟨S50000x128, .f32⟩
  | 16 => ⟨S128x128, .f32⟩
  | 17 => ⟨S128, .f32⟩
  | 18 => ⟨S1x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S128x128, .f32⟩
  | 34 => ⟨S128, .f32⟩
  | 35 => ⟨S1x128, .f32⟩
  | 36 => ⟨S50000x128, .f32⟩
  | 37 => ⟨S1x64, .f32⟩
  | 38 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v19 : Ref sig .tc := ⟨.hbm, 50, rfl⟩
abbrev main_v20 : Ref sig .tc := ⟨.hbm, 51, rfl⟩
abbrev main_cst_5 : Ref sig .tc := ⟨.hbm, 52, rfl⟩
abbrev main_v21 : Ref sig .tc := ⟨.hbm, 53, rfl⟩
abbrev main_v22 : Ref sig .tc := ⟨.hbm, 54, rfl⟩
abbrev main_cst_6 : Ref sig .tc := ⟨.hbm, 55, rfl⟩
abbrev main_v23 : Ref sig .tc := ⟨.hbm, 56, rfl⟩
abbrev main_v24 : Ref sig .tc := ⟨.hbm, 57, rfl⟩
abbrev main_cst_7 : Ref sig .tc := ⟨.hbm, 58, rfl⟩
abbrev main_call1_v0 : Ref sig .tc := ⟨.hbm, 59, rfl⟩
abbrev main_call1_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c : Ref sig .tc := ⟨.hbm, 64, rfl⟩
abbrev main_v28 : Ref sig .tc := ⟨.hbm, 65, rfl⟩
abbrev main_v29 : Ref sig .tc := ⟨.hbm, 66, rfl⟩
abbrev main_c_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_c_10 : Ref sig .tc := ⟨.hbm, 79, rfl⟩
abbrev main_v40 : Ref sig .tc := ⟨.hbm, 80, rfl⟩
abbrev main_v41 : Ref sig .tc := ⟨.hbm, 81, rfl⟩
abbrev main_c_11 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_12 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_13 : Ref sig .tc := ⟨.hbm, 98, rfl⟩
abbrev main_v56 : Ref sig .tc := ⟨.hbm, 99, rfl⟩
abbrev main_v57 : Ref sig .tc := ⟨.hbm, 100, rfl⟩
abbrev main_c_14 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_15 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_16 : Ref sig .tc := ⟨.hbm, 113, rfl⟩
abbrev main_v68 : Ref sig .tc := ⟨.hbm, 114, rfl⟩
abbrev main_v69 : Ref sig .tc := ⟨.hbm, 115, rfl⟩
abbrev main_c_17 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_18 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_19 : Ref sig .tc := ⟨.hbm, 131, rfl⟩
abbrev main_v83 : Ref sig .tc := ⟨.hbm, 132, rfl⟩
abbrev main_v84 : Ref sig .tc := ⟨.hbm, 133, rfl⟩
abbrev main_c_20 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_21 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_22 : Ref sig .tc := ⟨.hbm, 148, rfl⟩
abbrev main_v97 : Ref sig .tc := ⟨.hbm, 149, rfl⟩
abbrev main_v98 : Ref sig .tc := ⟨.hbm, 150, rfl⟩
abbrev main_c_23 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_24 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg5_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem5_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S10000 : S_.BroadcastsInDim S10000 (![] : Fin 0 → Fin S10000.rank)
  bcast_S50000_S50000x1_0 : S50000.BroadcastsInDim S50000x1 (![0] : Fin 1 → Fin S50000x1.rank)
  bcast_S10000_S10000x1_0 : S10000.BroadcastsInDim S10000x1 (![0] : Fin 1 → Fin S10000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S10000x128_S800000x1_S800000x128_1_0_0_1_wf : ScatterDims.WF S10000x128 S800000x1 S800000x128 [1] [0] [0] 1
  gather_S10000x128_S800000x1_S800000x128_1_0_n_n_0_1_1128_wf : GatherDims.WF S10000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v106) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v107) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v110) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v110) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S10000 : Shape := ⟨1, ![10000]⟩
abbrev S800000x128 : Shape := ⟨2, ![800000, 128]⟩
abbrev S10000x128 : Shape := ⟨2, ![10000, 128]⟩
abbrev S10000x1 : Shape := ⟨2, ![10000, 1]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 261
  | .vmem => 0
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128x128, .f32⟩
  | 20 => ⟨S128, .f32⟩
  | 21 => ⟨S128x64, .f32⟩
  | 22 => ⟨S64, .f32⟩
  | 23 => ⟨S1x800000, .i32⟩
  | 24 => ⟨S800000, .i32⟩
  | 25 => ⟨S1x800000, .i32⟩
  | 26 => ⟨S800000, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S10000, .f32⟩
  | 36 => ⟨S800000x1, .i32⟩
  | 37 => ⟨S10000, .f32⟩
  | 38 => ⟨S_, .f32⟩
  | 39 => ⟨S50000, .f32⟩
  | 40 => ⟨S50000, .i1⟩
  | 41 => ⟨S_, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .f32⟩
  | 49 => ⟨S10000, .f32⟩
  | 50 => ⟨S10000, .i1⟩
  | 51 => ⟨S_, .f32⟩
  | 52 => ⟨S10000, .f32⟩
  | 53 => ⟨S10000, .f32⟩
  | 54 => ⟨S_, .f32⟩
  | 55 => ⟨S_, .f32⟩
  | 56 => ⟨S10000, .f32⟩
  | 57 => ⟨S10000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S10000x128, .f32⟩
  | 69 => ⟨S800000x1, .i32⟩
  | 70 => ⟨S10000x128, .f32⟩
  | 71 => ⟨S10000x1, .f32⟩
  | 72 => ⟨S10000x128, .f32⟩
  | 73 => ⟨S10000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x1, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S50000x128, .f32⟩
  | 100 => ⟨S50000x128, .i1⟩
  | 101 => ⟨S_, .f32⟩
  | 102 => ⟨S50000x128, .f32⟩
  | 103 => ⟨S50000x128, .f32⟩
  | 104 => ⟨S50000x128, .f32⟩
  | 105 => ⟨S1x800000, .i32⟩
  | 106 => ⟨S800000, .i32⟩
  | 107 => ⟨S1x800000, .i32⟩
  | 108 => ⟨S800000, .i32⟩
  | 109 => ⟨S50000x128, .f32⟩
  | 110 => ⟨S_, .f32⟩
  | 111 => ⟨S800000, .f32⟩
  | 112 => ⟨S_, .f32⟩
  | 113 => ⟨S50000, .f32⟩
  | 114 => ⟨S800000x1, .i32⟩
  | 115 => ⟨S50000, .f32⟩
  | 116 => ⟨S_, .f32⟩
  | 117 => ⟨S10000, .f32⟩
  | 118 => ⟨S800000x1, .i32⟩
  | 119 => ⟨S10000, .f32⟩
  | 120 => ⟨S_, .f32⟩
  | 121 => ⟨S50000, .f32⟩
  | 122 => ⟨S50000, .i1⟩
  | 123 => ⟨S_, .f32⟩
  | 124 => ⟨S50000, .f32⟩
  | 125 => ⟨S50000, .f32⟩
  | 126 => ⟨S_, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S_, .f32⟩
  | 3 => ⟨S10000, .f32⟩
  | 4 => ⟨S10000, .i1⟩
  | 5 => ⟨S_, .f32⟩
  | 6 => ⟨S10000, .f32⟩
  | 7 => ⟨S10000, .f32⟩
  | 8 => ⟨S_, .f32⟩
  | 9 => ⟨S_, .f32⟩
  | 10 => ⟨S10000, .f32⟩
  | 11 => ⟨S10000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S_, .f32⟩
  | 22 => ⟨S10000x128, .f32⟩
  | 23 => ⟨S800000x1, .i32⟩
  | 24 => ⟨S10000x128, .f32⟩
  | 25 => ⟨S10000x1, .f32⟩
  | 26 => ⟨S10000x128, .f32⟩
  | 27 => ⟨S10000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000x1, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .i1⟩
  | 55 => ⟨S_, .f32⟩
  | 56 => ⟨S50000x128, .f32⟩
  | 57 => ⟨S50000x128, .f32⟩
  | 58 => ⟨S50000x128, .f32⟩
  | 59 => ⟨S1x800000, .i32⟩
  | 60 => ⟨S800000, .i32⟩
  | 61 => ⟨S1x800000, .i32⟩
  | 62 => ⟨S800000, .i32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .i1⟩
  | 90 => ⟨S_, .f32⟩
  | 91 => ⟨S50000x128, .f32⟩
  | 92 => ⟨S50000x128, .f32⟩
  | 93 => ⟨S50000x128, .f32⟩
  | 94 => ⟨S1x800000, .i32⟩
  | 95 => ⟨S800000, .i32⟩
  | 96 => ⟨S1x800000, .i32⟩
  | 97 => ⟨S800000, .i32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S50000x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S50000x128, .i1⟩
  | 125 => ⟨S_, .f32⟩
  | 126 => ⟨S50000x128, .f32⟩
  | 127 => ⟨S50000x128, .f32⟩
  | _ => ⟨S50000x128, .f32⟩

abbrev hbmTy0_2 (i : Nat) : BufTy := match i % 128 with
  | 0 => ⟨S50000x128, .f32⟩
  | 1 => ⟨S50000x64, .f32⟩
  | 2 => ⟨S1x64, .f32⟩
  | 3 => ⟨S50000x64, .f32⟩
  | 4 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v16 : Ref sig .tc := ⟨.hbm, 47, rfl⟩
abbrev main_cst_5 : Ref sig .tc := ⟨.hbm, 48, rfl⟩
abbrev main_v17 : Ref sig .tc := ⟨.hbm, 49, rfl⟩
abbrev main_v18 : Ref sig .tc := ⟨.hbm, 50, rfl⟩
abbrev main_cst_6 : Ref sig .tc := ⟨.hbm, 51, rfl⟩
abbrev main_v19 : Ref sig .tc := ⟨.hbm, 52, rfl⟩
abbrev main_v20 : Ref sig .tc := ⟨.hbm, 53, rfl⟩
abbrev main_cst_7 : Ref sig .tc := ⟨.hbm, 54, rfl⟩
abbrev main_call1_v0 : Ref sig .tc := ⟨.hbm, 55, rfl⟩
abbrev main_call1_v1 : Ref sig .tc := ⟨.hbm, 56, rfl⟩
abbrev main_v21 : Ref sig .tc := ⟨.hbm, 57, rfl⟩
abbrev main_c : Ref sig .tc := ⟨.hbm, 58, rfl⟩
abbrev main_v22 : Ref sig .tc := ⟨.hbm, 59, rfl⟩
abbrev main_v23 : Ref sig .tc := ⟨.hbm, 60, rfl⟩
abbrev main_c_8 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_9 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_10 : Ref sig .tc := ⟨.hbm, 74, rfl⟩
abbrev main_v35 : Ref sig .tc := ⟨.hbm, 75, rfl⟩
abbrev main_v36 : Ref sig .tc := ⟨.hbm, 76, rfl⟩
abbrev main_c_11 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_12 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_13 : Ref sig .tc := ⟨.hbm, 98, rfl⟩
abbrev main_v56 : Ref sig .tc := ⟨.hbm, 99, rfl⟩
abbrev main_v57 : Ref sig .tc := ⟨.hbm, 100, rfl⟩
abbrev main_cst_14 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_15 : Ref sig .tc := ⟨.hbm, 110, rfl⟩
abbrev main_v66 : Ref sig .tc := ⟨.hbm, 111, rfl⟩
abbrev main_cst_16 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_17 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_18 : Ref sig .tc := ⟨.hbm, 120, rfl⟩
abbrev main_v73 : Ref sig .tc := ⟨.hbm, 121, rfl⟩
abbrev main_v74 : Ref sig .tc := ⟨.hbm, 122, rfl⟩
abbrev main_cst_19 : Ref sig .tc := ⟨.hbm, 123, rfl⟩
abbrev main_v75 : Ref sig .tc := ⟨.hbm, 124, rfl⟩
abbrev main_v76 : Ref sig .tc := ⟨.hbm, 125, rfl⟩
abbrev main_cst_20 : Ref sig .tc := ⟨.hbm, 126, rfl⟩
abbrev main_call3_v0 : Ref sig .tc := ⟨.hbm, 127, rfl⟩
abbrev main_call3_v1 : Ref sig .tc := ⟨.hbm, 128, rfl⟩
abbrev main_v77 : Ref sig .tc := ⟨.hbm, 129, rfl⟩
abbrev main_cst_21 : Ref sig .tc := ⟨.hbm, 130, rfl⟩
abbrev main_v78 : Ref sig .tc := ⟨.hbm, 131, rfl⟩
abbrev main_v79 : Ref sig .tc := ⟨.hbm, 132, rfl⟩
abbrev main_cst_22 : Ref sig .tc := ⟨.hbm, 133, rfl⟩
abbrev main_v80 : Ref sig .tc := ⟨.hbm, 134, rfl⟩
abbrev main_v81 : Ref sig .tc := ⟨.hbm, 135, rfl⟩
abbrev main_cst_23 : Ref sig .tc := ⟨.hbm, 136, rfl⟩
abbrev main_call4_v0 : Ref sig .tc := ⟨.hbm, 137, rfl⟩
abbrev main_call4_v1 : Ref sig .tc := ⟨.hbm, 138, rfl⟩
abbrev main_v82 : Ref sig .tc := ⟨.hbm, 139, rfl⟩
abbrev main_c_24 : Ref sig .tc := ⟨.hbm, 140, rfl⟩
abbrev main_v83 : Ref sig .tc := ⟨.hbm, 141, rfl⟩
abbrev main_v84 : Ref sig .tc := ⟨.hbm, 142, rfl⟩
abbrev main_c_25 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_26 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_27 : Ref sig .tc := ⟨.hbm, 156, rfl⟩
abbrev main_v96 : Ref sig .tc := ⟨.hbm, 157, rfl⟩
abbrev main_v97 : Ref sig .tc := ⟨.hbm, 158, rfl⟩
abbrev main_c_28 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_cst_29 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_30 : Ref sig .tc := ⟨.hbm, 180, rfl⟩
abbrev main_v117 : Ref sig .tc := ⟨.hbm, 181, rfl⟩
abbrev main_v118 : Ref sig .tc := ⟨.hbm, 182, rfl⟩
abbrev main_cst_31 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_c_32 : Ref sig .tc := ⟨.hbm, 191, rfl⟩
abbrev main_v126 : Ref sig .tc := ⟨.hbm, 192, rfl⟩
abbrev main_v127 : Ref sig .tc := ⟨.hbm, 193, rfl⟩
abbrev main_c_33 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_34 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_35 : Ref sig .tc := ⟨.hbm, 215, rfl⟩
abbrev main_v147 : Ref sig .tc := ⟨.hbm, 216, rfl⟩
abbrev main_v148 : Ref sig .tc := ⟨.hbm, 217, rfl⟩
abbrev main_cst_36 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_c_37 : Ref sig .tc := ⟨.hbm, 226, rfl⟩
abbrev main_v156 : Ref sig .tc := ⟨.hbm, 227, rfl⟩
abbrev main_v157 : Ref sig .tc := ⟨.hbm, 228, rfl⟩
abbrev main_c_38 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_39 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_cst_40 : Ref sig .tc := ⟨.hbm, 250, rfl⟩
abbrev main_v177 : Ref sig .tc := ⟨.hbm, 251, rfl⟩
abbrev main_v178 : Ref sig .tc := ⟨.hbm, 252, rfl⟩
abbrev main_cst_41 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S10000 : S_.BroadcastsInDim S10000 (![] : Fin 0 → Fin S10000.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  gather_S50000x128_S800000x1_S800000x128_1_0_n_n_0_1_1128_wf : GatherDims.WF S50000x128 S800000x1 S800000x128 [1] [0] [] [0] [] 1 ![1, 128]
  scatter_S10000x128_S800000x1_S800000x128_1_0_0_1_wf : ScatterDims.WF S10000x128 S800000x1 S800000x128 [1] [0] [0] 1
  gather_S10000x128_S800000x1_S800000x128_1_0_n_n_0_1_1128_wf : GatherDims.WF S10000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S10000x128_S800000x1_S800000x128_1_0_0_1 : ScatterDims S10000x128 S800000x1 S800000x128 where
  updateWindowDims := [1]
  insertedWindowDims := [0]
  scatterDimsToOperandDims := [0]
  indexVectorDim := 1
  wf := scatter_S10000x128_S800000x1_S800000x128_1_0_0_1_wf
def gather_S10000x128_S800000x1_S800000x128_1_0_n_n_0_1_1128 : GatherDims S10000x128 S800000x1 S800000x128 where
  offsetDims := [1]
  collapsedSliceDims := [0]
  operandBatchingDims := []
  startIndicesBatchingDims := []
  startIndexMap := [0]
  indexVectorDim := 1
  sliceSizes := ![1, 128]
  wf := gather_S10000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RunValues.lean ====
/-
  The kernel's whole run with its two results named. The program is seven dense regions among
  stretches of host operations; the buffer contents at each boundary are a fold from the launch
  memory (a stretch applies its operations, a region replaces its arrays by what its write-backs
  leave). Every weakly fair execution terminates, nothing faulting, with EVERY unscoped buffer at
  the fold's last stage; read at the two result buffers this gives their final contents, and at
  the arguments the launch contents.
-/
import proofs.«147182_j79147657330978_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- Every weakly fair execution of the kernel's program terminates, nothing faulting, with the two result
    buffers at the last stage of the boundary fold and the argument arrays as launched. -/
theorem run_values : θ_run defs (onTc (τ := τ) (main (F := F))) ⟨m, fun _ => 0, ρ⟩ (fun r => ∀ c : Dev nD,
      r.2.mem ((c.tc : Thread nD τ).loc main_v110) = W17 m ρ c (Proc.devRef .tc main_v110)
      ∧ r.2.mem ((c.tc : Thread nD τ).loc main_v112) = W17 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v110 (by decide)),
       h c _ (mem_uc main_v112 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c)⟩)

end Cert.KernelIdeal.RunValue

end
-- ==== Proof.Fold.lean ====
/-
  The boundary fold of the kernel's program, one step at a time. The program alternates stretches of
  host operations with dense regions; the buffer contents at a boundary are those at the previous one
  with the stretch's results (or the region's output array) replaced. Every buffer is written once:
  a stretch leaves every buffer it does not write as it found it, which is stated here per stretch
  for ANY buffer outside the literal list of the stretch's result buffers. The five leading stretches
  (the index rows, the two degree vectors and their guarded reciprocals) are also read as one line.
-/
import proofs.«147182_j79147657330978_1_alg».proof.Proof.Gen.KernelIdeal.Frame
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- Two lines of host operations applied one after the other are their concatenation applied once. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- The buffers stretch `hostOps0` writes. -/
abbrev wr0 : List (Ref sig .tc) := [main_v0, main_v1, main_v2, main_v3, main_v4, main_v5, main_v6, main_v7, main_cst, main_v8, main_cst_0, main_v9, main_v10, main_v11, main_cst_1, main_v12, main_v13, main_v14, main_cst_2, main_v15, main_v16, main_cst_3, main_v17, main_v18, main_cst_4]
theorem wr0_sub : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep0 (b : Ref sig .tc) (h : b ∉ wr0) : W1 m ρ c (Proc.devRef .tc b) = W0 m ρ c (Proc.devRef .tc b) :=
  StableHlo.after_of_writes_sub hostOps0 _ wr0_sub h

/-- The buffers stretch `hostOps0_1` writes. -/
abbrev wr0_1 : List (Ref sig .tc) := [main_call0_v0, main_call0_v1, main_v19]
theorem wr0_1_sub : (hostOps0_1 : List (HloOp τ sig (Elt Ideal))).Forall fun op => op.writes ⊆ (wr0_1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep0_1 (b : Ref sig .tc) (h : b ∉ wr0_1) : W2 m ρ c (Proc.devRef .tc b) = W1 m ρ c (Proc.devRef .tc b) :=
  StableHlo.after_of_writes_sub hostOps0_1 _ wr0_1_sub h

/-- The buffers stretch `hostOps0_2` writes. -/
abbrev wr0_2 : List (Ref sig .tc) := [main_v20, main_cst_5, main_v21, main_v22, main_cst_6, main_v23, main_v24, main_cst_7]
theorem wr0_2_sub : (hostOps0_2 : List (HloOp τ sig (Elt Ideal))).Forall fun op => op.writes ⊆ (wr0_2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep0_2 (b : Ref sig .tc) (h : b ∉ wr0_2) : W3 m ρ c (Proc.devRef .tc b) = W2 m ρ c (Proc.devRef .tc b) :=
  StableHlo.after_of_writes_sub hostOps0_2 _ wr0_2_sub h

/-- The buffers stretch `hostOps0_3` writes. -/
abbrev wr0_3 : List (Ref sig .tc) := [main_call1_v0, main_call1_v1, main_v25]
theorem wr0_3_sub : (hostOps0_3 : List (HloOp τ sig (Elt Ideal))).Forall fun op => op.writes ⊆ (wr0_3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep0_3 (b : Ref sig .tc) (h : b ∉ wr0_3) : W4 m ρ c (Proc.devRef .tc b) = W3 m ρ c (Proc.devRef .tc b) :=
  StableHlo.after_of_writes_sub hostOps0_3 _ wr0_3_sub h

/-- The buffers stretch `hostOps0_4` writes. -/
abbrev wr0_4 : List (Ref sig .tc) := [main_v26]
theorem wr0_4_sub : (hostOps0_4 : List (HloOp τ sig (Elt Ideal))).Forall fun op => op.writes ⊆ (wr0_4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep0_4 (b : Ref sig .tc) (h : b ∉ wr0_4) : W5 m ρ c (Proc.devRef .tc b) = W4 m ρ c (Proc.devRef .tc b) :=
  StableHlo.after_of_writes_sub hostOps0_4 _ wr0_4_sub h

/-- The buffers stretch `hostOps1` writes. -/
abbrev wr1 : List (Ref sig .tc) := [main_c, main_v28, main_v29, main_c_8, main_v30, main_v31, main_v32, main_v33, main_v34, main_cst_9, main_v35, main_v36, main_v37, main_v38, main_v39, main_c_10, main_v40, main_v41, main_c_11, main_v42, main_v43, main_v44, main_v45, main_v46, main_cst_12, main_v47, main_v48, main_v49, main_v50, main_v51, main_v52, main_v53]
theorem wr1_sub : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep1 (b : Ref sig .tc) (h : b ∉ wr1) : W7 m ρ c (Proc.devRef .tc b) = W6 m ρ c (Proc.devRef .tc b) :=
  StableHlo.after_of_writes_sub hostOps1 _ wr1_sub h

/-- The buffers stretch `hostOps3` writes. -/
abbrev wr3 : List (Ref sig .tc) := [main_c_13, main_v56, main_v57, main_c_14, main_v58, main_v59, main_v60, main_v61, main_v62, main_cst_15, main_v63, main_v64, main_v65, main_v66, main_v67, main_c_16, main_v68, main_v69, main_c_17, main_v70, main_v71, main_v72, main_v73, main_v74, main_cst_18, main_v75, main_v76, main_v77, main_v78, main_v79, main_v80, main_v81]
theorem wr3_sub : (hostOps3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep3 (b : Ref sig .tc) (h : b ∉ wr3) : W10 m ρ c (Proc.devRef .tc b) = W9 m ρ c (Proc.devRef .tc b) :=
  StableHlo.after_of_writes_sub hostOps3 _ wr3_sub h

/-- The buffers stretch `hostOps4` writes. -/
abbrev wr4 : List (Ref sig .tc) := [main_c_19, main_v83, main_v84, main_c_20, main_v85, main_v86, main_v87, main_v88, main_v89, main_cst_21, main_v90, main_v91, main_v92, main_v93, main_v94, main_v95]
theorem wr4_sub : (hostOps4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep4 (b : Ref sig .tc) (h : b ∉ wr4) : W12 m ρ c (Proc.devRef .tc b) = W11 m ρ c (Proc.devRef .tc b) :=
  StableHlo.after_of_writes_sub hostOps4 _ wr4_sub h

/-- The buffers stretch `hostOps5` writes. -/
abbrev wr5 : List (Ref sig .tc) := [main_c_22, main_v97, main_v98, main_c_23, main_v99, main_v100, main_v101, main_v102, main_v103, main_cst_24, main_v104, main_v105, main_v106, main_v107, main_v108, main_v109]
theorem wr5_sub : (hostOps5 : List (HloOp τ sig (Elt Ideal))).Forall fun op => op.writes ⊆ (wr5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep5 (b : Ref sig .tc) (h : b ∉ wr5) : W14 m ρ c (Proc.devRef .tc b) = W13 m ρ c (Proc.devRef .tc b) :=
  StableHlo.after_of_writes_sub hostOps5 _ wr5_sub h

/-- The buffers stretch `hostOps6` writes. -/
abbrev wr6 : List (Ref sig .tc) := [main_v111]
theorem wr6_sub : (hostOps6 : List (HloOp τ sig (Elt Ideal))).Forall fun op => op.writes ⊆ (wr6.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the stretch does not write is unchanged across it. -/
theorem keep6 (b : Ref sig .tc) (h : b ∉ wr6) : W16 m ρ c (Proc.devRef .tc b) = W15 m ρ c (Proc.devRef .tc b) :=
  StableHlo.after_of_writes_sub hostOps6 _ wr6_sub h

/-- The five leading stretches as one line of host operations. -/
abbrev leadOps : List (HloOp τ sig (Elt Ideal)) := hostOps0 ++ hostOps0_1 ++ hostOps0_2 ++ hostOps0_3 ++ hostOps0_4

/-- The contents at the first region's entry are the leading line applied to the launch contents. -/
theorem W5_eq : W5 m ρ c = StableHlo.after leadOps (W0 m ρ c) := by
  simp only [leadOps, after_append]

/-- The launch contents of a buffer are the launch memory's. -/
theorem W0_eq (b : Ref sig .tc) : W0 m ρ c (Proc.devRef .tc b) = m ((c : Thread nD τ).loc b) := rfl

end Cert.KernelIdeal.Fold

end
-- ==== Proof.Lead.lean ====
/-
  The kernel's leading host operations against the reference's. Both programs begin by cutting the two
  rows out of each index array, counting each node's and each hyperedge's incidences by a scatter-add
  of ones, and taking the guarded reciprocal of each count (the reciprocal where the count is
  positive, zero elsewhere). The kernel does this once, before its first region; the reference does it
  inside each layer. Here the kernel's buffers at its first region's entry are identified with the
  reference's stages of the same operations, as functions of the launch contents of the arguments.
-/
import proofs.«147182_j79147657330978_1_alg».proof.Proof.Fold
import proofs.«147182_j79147657330978_1_alg».proof.Proof.RefRead

set_option maxRecDepth 16384

noncomputable section

namespace Cert.KernelIdeal.Stages

open Cert.KernelIdeal Cert.KernelIdeal.Gen Cert.KernelIdeal.Fold
open Cert.ReferenceIdeal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The launch contents of argument 0 on core `c`. -/
abbrev A0 : (⟨S50000x128, .f32⟩ : BufTy).Contents (Elt Ideal) := m ((c : Thread nD τ).loc main_arg0)
/-- The launch contents of argument 1 on core `c`. -/
abbrev A1 : (⟨S2x800000, .i32⟩ : BufTy).Contents (Elt Ideal) := m ((c : Thread nD τ).loc main_arg1)
/-- The launch contents of argument 2 on core `c`. -/
abbrev A2 : (⟨S2x800000, .i32⟩ : BufTy).Contents (Elt Ideal) := m ((c : Thread nD τ).loc main_arg2)
/-- The launch contents of argument 3 on core `c`. -/
abbrev A3 : (⟨S128x128, .f32⟩ : BufTy).Contents (Elt Ideal) := m ((c : Thread nD τ).loc main_arg3)
/-- The launch contents of argument 4 on core `c`. -/
abbrev A4 : (⟨S128, .f32⟩ : BufTy).Contents (Elt Ideal) := m ((c : Thread nD τ).loc main_arg4)
/-- The launch contents of argument 5 on core `c`. -/
abbrev A5 : (⟨S128x128, .f32⟩ : BufTy).Contents (Elt Ideal) := m ((c : Thread nD τ).loc main_arg5)
/-- The launch contents of argument 6 on core `c`. -/
abbrev A6 : (⟨S128, .f32⟩ : BufTy).Contents (Elt Ideal) := m ((c : Thread nD τ).loc main_arg6)
/-- The launch contents of argument 7 on core `c`. -/
abbrev A7 : (⟨S128x128, .f32⟩ : BufTy).Contents (Elt Ideal) := m ((c : Thread nD τ).loc main_arg7)
/-- The launch contents of argument 8 on core `c`. -/
abbrev A8 : (⟨S128, .f32⟩ : BufTy).Contents (Elt Ideal) := m ((c : Thread nD τ).loc main_arg8)
/-- The launch contents of argument 9 on core `c`. -/
abbrev A9 : (⟨S128x128, .f32⟩ : BufTy).Contents (Elt Ideal) := m ((c : Thread nD τ).loc main_arg9)
/-- The launch contents of argument 10 on core `c`. -/
abbrev A10 : (⟨S128, .f32⟩ : BufTy).Contents (Elt Ideal) := m ((c : Thread nD τ).loc main_arg10)
/-- The launch contents of argument 11 on core `c`. -/
abbrev A11 : (⟨S128x128, .f32⟩ : BufTy).Contents (Elt Ideal) := m ((c : Thread nD τ).loc main_arg11)
/-- The launch contents of argument 12 on core `c`. -/
abbrev A12 : (⟨S128, .f32⟩ : BufTy).Contents (Elt Ideal) := m ((c : Thread nD τ).loc main_arg12)
/-- The launch contents of argument 13 on core `c`. -/
abbrev A13 : (⟨S128x128, .f32⟩ : BufTy).Contents (Elt Ideal) := m ((c : Thread nD τ).loc main_arg13)
/-- The launch contents of argument 14 on core `c`. -/
abbrev A14 : (⟨S128x128, .f32⟩ : BufTy).Contents (Elt Ideal) := m ((c : Thread nD τ).loc main_arg14)
/-- The launch contents of argument 15 on core `c`. -/
abbrev A15 : (⟨S128, .f32⟩ : BufTy).Contents (Elt Ideal) := m ((c : Thread nD τ).loc main_arg15)
/-- The launch contents of argument 16 on core `c`. -/
abbrev A16 : (⟨S128x128, .f32⟩ : BufTy).Contents (Elt Ideal) := m ((c : Thread nD τ).loc main_arg16)
/-- The launch contents of argument 17 on core `c`. -/
abbrev A17 : (⟨S128, .f32⟩ : BufTy).Contents (Elt Ideal) := m ((c : Thread nD τ).loc main_arg17)
/-- The launch contents of argument 18 on core `c`. -/
abbrev A18 : (⟨S128x128, .f32⟩ : BufTy).Contents (Elt Ideal) := m ((c : Thread nD τ).loc main_arg18)
/-- The launch contents of argument 19 on core `c`. -/
abbrev A19 : (⟨S128x128, .f32⟩ : BufTy).Contents (Elt Ideal) := m ((c : Thread nD τ).loc main_arg19)
/-- The launch contents of argument 20 on core `c`. -/
abbrev A20 : (⟨S128, .f32⟩ : BufTy).Contents (Elt Ideal) := m ((c : Thread nD τ).loc main_arg20)
/-- The launch contents of argument 21 on core `c`. -/
abbrev A21 : (⟨S128x64, .f32⟩ : BufTy).Contents (Elt Ideal) := m ((c : Thread nD τ).loc main_arg21)
/-- The launch contents of argument 22 on core `c`. -/
abbrev A22 : (⟨S64, .f32⟩ : BufTy).Contents (Elt Ideal) := m ((c : Thread nD τ).loc main_arg22)

/-- Row 0 of the incidence array: the node of each incidence. -/
theorem w1_v1 : W1 m ρ c (Proc.devRef .tc main_v1) = val_main_v1 (F := Ideal) (A2 m c) := by
  have a2 : W0 m ρ c (Proc.devRef .tc main_arg2) = A2 m c := rfl
  show StableHlo.after hostOps0 (W0 m ρ c) (Proc.devRef .tc main_v1) = _
  generalize W0 m ρ c = V at a2 ⊢
  after_results_simp
  rw [a2]
  simp only [val_main_v1, val_main_v0] <;> rfl
/-- Row 1 of the incidence array: the hyperedge of each incidence. -/
theorem w1_v3 : W1 m ρ c (Proc.devRef .tc main_v3) = val_main_v3 (F := Ideal) (A2 m c) := by
  have a2 : W0 m ρ c (Proc.devRef .tc main_arg2) = A2 m c := rfl
  show StableHlo.after hostOps0 (W0 m ρ c) (Proc.devRef .tc main_v3) = _
  generalize W0 m ρ c = V at a2 ⊢
  after_results_simp
  rw [a2]
  simp only [val_main_v3, val_main_v2] <;> rfl
/-- Row 0 of the edge array: the source of each edge. -/
theorem w1_v5 : W1 m ρ c (Proc.devRef .tc main_v5) = val_main_v123 (F := Ideal) (A1 m c) := by
  have a1 : W0 m ρ c (Proc.devRef .tc main_arg1) = A1 m c := rfl
  show StableHlo.after hostOps0 (W0 m ρ c) (Proc.devRef .tc main_v5) = _
  generalize W0 m ρ c = V at a1 ⊢
  after_results_simp
  rw [a1]
  simp only [val_main_v123, val_main_v122] <;> rfl
/-- Row 1 of the edge array: the target of each edge. -/
theorem w1_v7 : W1 m ρ c (Proc.devRef .tc main_v7) = val_main_v125 (F := Ideal) (A1 m c) := by
  have a1 : W0 m ρ c (Proc.devRef .tc main_arg1) = A1 m c := rfl
  show StableHlo.after hostOps0 (W0 m ρ c) (Proc.devRef .tc main_v7) = _
  generalize W0 m ρ c = V at a1 ⊢
  after_results_simp
  rw [a1]
  simp only [val_main_v125, val_main_v124] <;> rfl
/-- Each node's incidence count: ones added at the incidences' nodes. -/
theorem w1_v11 : W1 m ρ c (Proc.devRef .tc main_v11) = val_main_v8 (F := Ideal) (A2 m c) := by
  have a2 : W0 m ρ c (Proc.devRef .tc main_arg2) = A2 m c := rfl
  show StableHlo.after hostOps0 (W0 m ρ c) (Proc.devRef .tc main_v11) = _
  generalize W0 m ρ c = V at a2 ⊢
  after_results_simp
  rw [a2]
  simp only [val_main_v8, val_main_v6, val_main_cst_0, val_main_v7, val_main_v1, val_main_v0, val_main_v5, val_main_cst] <;> rfl
/-- Each hyperedge's incidence count. -/
theorem w1_v14 : W1 m ρ c (Proc.devRef .tc main_v14) = val_main_v11 (F := Ideal) (A2 m c) := by
  have a2 : W0 m ρ c (Proc.devRef .tc main_arg2) = A2 m c := rfl
  show StableHlo.after hostOps0 (W0 m ρ c) (Proc.devRef .tc main_v14) = _
  generalize W0 m ρ c = V at a2 ⊢
  after_results_simp
  rw [a2]
  simp only [val_main_v11, val_main_v9, val_main_cst_1, val_main_v10, val_main_v3, val_main_v2, val_main_v5, val_main_cst] <;> rfl
/-- Where a node's count is positive. -/
theorem w1_v16 : W1 m ρ c (Proc.devRef .tc main_v16) = val_main_v13 (F := Ideal) (A2 m c) := by
  have a2 : W0 m ρ c (Proc.devRef .tc main_arg2) = A2 m c := rfl
  show StableHlo.after hostOps0 (W0 m ρ c) (Proc.devRef .tc main_v16) = _
  generalize W0 m ρ c = V at a2 ⊢
  after_results_simp
  rw [a2]
  simp only [val_main_v13, val_main_v8, val_main_v6, val_main_cst_0, val_main_v7, val_main_v1, val_main_v0, val_main_v5, val_main_cst, val_main_v12, val_main_cst_2] <;> rfl
/-- One over each node's count. -/
theorem w1_v18 : W1 m ρ c (Proc.devRef .tc main_v18) = val_main_v15 (F := Ideal) (A2 m c) := by
  have a2 : W0 m ρ c (Proc.devRef .tc main_arg2) = A2 m c := rfl
  show StableHlo.after hostOps0 (W0 m ρ c) (Proc.devRef .tc main_v18) = _
  generalize W0 m ρ c = V at a2 ⊢
  after_results_simp
  rw [a2]
  simp only [val_main_v15, val_main_v14, val_main_cst_3, val_main_v8, val_main_v6, val_main_cst_0, val_main_v7, val_main_v1, val_main_v0, val_main_v5, val_main_cst] <;> rfl
/-- The zero the guarded reciprocal falls back to. -/
theorem w1_cst_4 : W1 m ρ c (Proc.devRef .tc main_cst_4) = val_main_cst_4 (F := Ideal) := by
  show StableHlo.after hostOps0 (W0 m ρ c) (Proc.devRef .tc main_cst_4) = _
  generalize W0 m ρ c = V
  after_results_simp
  simp only [val_main_cst_4] <;> rfl
/-- The guarded reciprocal of each node's count: the reciprocal where the count is positive, zero elsewhere. -/
theorem w2_v19 : W2 m ρ c (Proc.devRef .tc main_v19) = val_main_v16 (F := Ideal) (A2 m c) := by
  have h0 := w1_v16 m ρ c
  have h1 := w1_v18 m ρ c
  have h2 := w1_cst_4 m ρ c
  show StableHlo.after hostOps0_1 (W1 m ρ c) (Proc.devRef .tc main_v19) = _
  generalize W1 m ρ c = V at h0 h1 h2 ⊢
  after_results_simp
  show select (V (Proc.devRef .tc main_v16)) (V (Proc.devRef .tc main_v18)) (broadcastInDim S50000 ![] bcast_S_S50000 (id (V (Proc.devRef .tc main_cst_4)))) = _
  rw [h0, h1, h2]
  simp only [val_main_v16, val_main_call0_v1, val_main_call0_v0] <;> rfl
/-- The hyperedge counts are untouched by the first guarded select. -/
theorem w2_v14 : W2 m ρ c (Proc.devRef .tc main_v14) = val_main_v11 (F := Ideal) (A2 m c) :=
  (keep0_1 m ρ c main_v14 (by decide)).trans (w1_v14 m ρ c)
/-- The nodes' guarded reciprocal counts as a column. -/
theorem w3_v20 : W3 m ρ c (Proc.devRef .tc main_v20) = val_main_v45 (F := Ideal) (A2 m c) := by
  have h0 := w2_v19 m ρ c
  show StableHlo.after hostOps0_2 (W2 m ρ c) (Proc.devRef .tc main_v20) = _
  generalize W2 m ρ c = V at h0 ⊢
  after_results_simp
  rw [h0]
  simp only [val_main_v45] <;> rfl
/-- Where a hyperedge's count is positive. -/
theorem w3_v22 : W3 m ρ c (Proc.devRef .tc main_v22) = val_main_v18 (F := Ideal) (A2 m c) := by
  have h0 := w2_v14 m ρ c
  show StableHlo.after hostOps0_2 (W2 m ρ c) (Proc.devRef .tc main_v22) = _
  generalize W2 m ρ c = V at h0 ⊢
  after_results_simp
  rw [h0]
  simp only [val_main_v18, val_main_v17, val_main_cst_5] <;> rfl
/-- One over each hyperedge's count. -/
theorem w3_v24 : W3 m ρ c (Proc.devRef .tc main_v24) = val_main_v20 (F := Ideal) (A2 m c) := by
  have h0 := w2_v14 m ρ c
  show StableHlo.after hostOps0_2 (W2 m ρ c) (Proc.devRef .tc main_v24) = _
  generalize W2 m ρ c = V at h0 ⊢
  after_results_simp
  rw [h0]
  simp only [val_main_v20, val_main_v19, val_main_cst_6] <;> rfl
/-- The zero the second guarded reciprocal falls back to. -/
theorem w3_cst_7 : W3 m ρ c (Proc.devRef .tc main_cst_7) = val_main_cst_7 (F := Ideal) := by
  show StableHlo.after hostOps0_2 (W2 m ρ c) (Proc.devRef .tc main_cst_7) = _
  generalize W2 m ρ c = V
  after_results_simp
  simp only [val_main_cst_7] <;> rfl
/-- The guarded reciprocal of each hyperedge's count. -/
theorem w4_v25 : W4 m ρ c (Proc.devRef .tc main_v25) = val_main_v21 (F := Ideal) (A2 m c) := by
  have h0 := w3_v22 m ρ c
  have h1 := w3_v24 m ρ c
  have h2 := w3_cst_7 m ρ c
  show StableHlo.after hostOps0_3 (W3 m ρ c) (Proc.devRef .tc main_v25) = _
  generalize W3 m ρ c = V at h0 h1 h2 ⊢
  after_results_simp
  show select (V (Proc.devRef .tc main_v22)) (V (Proc.devRef .tc main_v24)) (broadcastInDim S10000 ![] bcast_S_S10000 (id (V (Proc.devRef .tc main_cst_7)))) = _
  rw [h0, h1, h2]
  simp only [val_main_v21, val_main_call1_v1, val_main_call1_v0] <;> rfl
/-- At the first region's entry: the hyperedges' guarded reciprocal counts as a column. -/
theorem lead_v26 : W5 m ρ c (Proc.devRef .tc main_v26) = val_main_v32 (F := Ideal) (A2 m c) := by
  have h0 := w4_v25 m ρ c
  show StableHlo.after hostOps0_4 (W4 m ρ c) (Proc.devRef .tc main_v26) = _
  generalize W4 m ρ c = V at h0 ⊢
  after_results_simp
  rw [h0]
  simp only [val_main_v32] <;> rfl
/-- At the first region's entry: the nodes' guarded reciprocal counts as a column. -/
theorem lead_v20 : W5 m ρ c (Proc.devRef .tc main_v20) = val_main_v45 (F := Ideal) (A2 m c) :=
  (((keep0_4 m ρ c main_v20 (by decide)).trans (keep0_3 m ρ c main_v20 (by decide)))).trans (w3_v20 m ρ c)
/-- At the first region's entry: the node of each incidence. -/
theorem lead_v1 : W5 m ρ c (Proc.devRef .tc main_v1) = val_main_v1 (F := Ideal) (A2 m c) :=
  (((keep0_4 m ρ c main_v1 (by decide)).trans ((keep0_3 m ρ c main_v1 (by decide)).trans ((keep0_2 m ρ c main_v1 (by decide)).trans (keep0_1 m ρ c main_v1 (by decide)))))).trans (w1_v1 m ρ c)
/-- At the first region's entry: the hyperedge of each incidence. -/
theorem lead_v3 : W5 m ρ c (Proc.devRef .tc main_v3) = val_main_v3 (F := Ideal) (A2 m c) :=
  (((keep0_4 m ρ c main_v3 (by decide)).trans ((keep0_3 m ρ c main_v3 (by decide)).trans ((keep0_2 m ρ c main_v3 (by decide)).trans (keep0_1 m ρ c main_v3 (by decide)))))).trans (w1_v3 m ρ c)
/-- At the first region's entry: the source of each edge. -/
theorem lead_v5 : W5 m ρ c (Proc.devRef .tc main_v5) = val_main_v123 (F := Ideal) (A1 m c) :=
  (((keep0_4 m ρ c main_v5 (by decide)).trans ((keep0_3 m ρ c main_v5 (by decide)).trans ((keep0_2 m ρ c main_v5 (by decide)).trans (keep0_1 m ρ c main_v5 (by decide)))))).trans (w1_v5 m ρ c)
/-- At the first region's entry: the target of each edge. -/
theorem lead_v7 : W5 m ρ c (Proc.devRef .tc main_v7) = val_main_v125 (F := Ideal) (A1 m c) :=
  (((keep0_4 m ρ c main_v7 (by decide)).trans ((keep0_3 m ρ c main_v7 (by decide)).trans ((keep0_2 m ρ c main_v7 (by decide)).trans (keep0_1 m ρ c main_v7 (by decide)))))).trans (w1_v7 m ρ c)

end Cert.KernelIdeal.Stages

end
-- ==== Proof.RegionIdx.lean ====
/-
  Index maps shared by the statements about the dense layers. A dense layer's entry (p, q) is a
  contraction over k of entry (p, k) of a left array with 128 columns and entry (k, q) of a weight
  array with 128 rows, plus entry (0, q) of a one-row bias array. The maps below name those three
  positions, for results of 128 columns and of 64 columns.
-/
import proofs.«147182_j79147657330978_1_alg».proof.KernelIdeal

namespace Cert.KernelIdeal.RegionValue

open Cert.KernelIdeal Idealize.ShloMosaic

/-- Entry (row of `i`, column `k`) of a [50000, 128] array. -/
abbrev atRow (i : S50000x128.Idx) (k : Fin 128) : S50000x128.Idx := fun a => match a with
  | ⟨0, _⟩ => ⟨(i 0).val, (i 0).isLt⟩
  | ⟨1, _⟩ => ⟨k.val, k.isLt⟩

/-- Entry (row `k`, column of `i`) of a [128, 128] weight array. -/
abbrev atCol (i : S50000x128.Idx) (k : Fin 128) : S128x128.Idx := fun a => match a with
  | ⟨0, _⟩ => ⟨k.val, k.isLt⟩
  | ⟨1, _⟩ => ⟨(i 1).val, (i 1).isLt⟩

/-- Entry (0, column of `i`) of a [1, 128] bias array. -/
abbrev atBias (i : S50000x128.Idx) : S1x128.Idx := fun a => match a with
  | ⟨0, _⟩ => ⟨0, Nat.zero_lt_one⟩
  | ⟨1, _⟩ => ⟨(i 1).val, (i 1).isLt⟩

/-- Entry (row of `i`, column `k`) of a [50000, 128] array, for a result of 64 columns. -/
abbrev atRow64 (i : S50000x64.Idx) (k : Fin 128) : S50000x128.Idx := fun a => match a with
  | ⟨0, _⟩ => ⟨(i 0).val, (i 0).isLt⟩
  | ⟨1, _⟩ => ⟨k.val, k.isLt⟩

/-- Entry (row `k`, column of `i`) of a [128, 64] weight array. -/
abbrev atCol64 (i : S50000x64.Idx) (k : Fin 128) : S128x64.Idx := fun a => match a with
  | ⟨0, _⟩ => ⟨k.val, k.isLt⟩
  | ⟨1, _⟩ => ⟨(i 1).val, (i 1).isLt⟩

/-- Entry (0, column of `i`) of a [1, 64] bias array. -/
abbrev atBias64 (i : S50000x64.Idx) : S1x64.Idx := fun a => match a with
  | ⟨0, _⟩ => ⟨0, Nat.zero_lt_one⟩
  | ⟨1, _⟩ => ⟨(i 1).val, (i 1).isLt⟩

end Cert.KernelIdeal.RegionValue
-- ==== Proof.Region0.lean ====
/-
  The first dense product of the network: node features [50000, 128] times a weight matrix
  [128, 128], without bias. The grid has ten points; point t takes rows 5000·t … 5000·t + 4999 of
  the features and the whole weight matrix, multiplies them (the narrowing casts are the identity
  on extended reals and the accumulator starts at zero, so the product is the plain contraction
  over the 128 shared positions), and writes the block back to the same rows of the result. The
  ten row blocks tile the result, so after the last point the result array is the whole matrix
  product, entry by entry.
-/
import proofs.«147182_j79147657330978_1_alg».proof.Proof.Gen.KernelIdeal.Frame
import proofs.«147182_j79147657330978_1_alg».proof.Proof.RegionIdx
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-! ## One row block times the weight matrix, at an entry -/

/-- Entry (row of j, column k) of a [5000, 128] row block. -/
abbrev r0_blockRow (j : S5000x128.Idx) (k : Fin 128) : S5000x128.Idx := fun a => match a with
  | ⟨0, _⟩ => ⟨(j 0).val, (j 0).isLt⟩
  | ⟨1, _⟩ => ⟨k.val, k.isLt⟩

/-- Entry (row k, column of j) of the [128, 128] weight matrix. -/
abbrev r0_blockCol (j : S5000x128.Idx) (k : Fin 128) : S128x128.Idx := fun a => match a with
  | ⟨0, _⟩ => ⟨k.val, k.isLt⟩
  | ⟨1, _⟩ => ⟨(j 1).val, (j 1).isLt⟩

/-- The left factor of the contraction keeps the row of the output entry … -/
theorem r0_lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs over the shared position along its columns. -/
theorem r0_lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right factor runs over the shared position along its rows … -/
theorem r0_rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … and keeps the column of the output entry. -/
theorem r0_rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What one grid point computes from its two loaded blocks, at entry j of the block: the sum over
    the 128 shared positions of the products. -/
theorem r0_blockProduct_apply (x : Vec Ideal S5000x128 .f32) (w : Vec Ideal S128x128 .f32) (j : S5000x128.Idx) :
    Gen.k0_pay1 (F := Ideal) x w j = ∑ k : Fin 128, x (r0_blockRow j k) * w (r0_blockCol j k) := by
  unfold Gen.k0_pay1
  refine (Ideal.matmul_constant_zero_apply dot_S5000x128_S128x128_S5000x128_1_0_0_1_n_n none
    (truncf .bf16 x bitsLt_bf16_f32) (truncf .bf16 w bitsLt_bf16_f32) j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = r0_blockRow j k := funext fun a => Fin.ext (by
    match a with
    | ⟨0, _⟩ => exact r0_lhs_row _ _
    | ⟨1, _⟩ => exact (r0_lhs_col _ _).trans hk)
  have er : dot_S5000x128_S128x128_S5000x128_1_0_0_1_n_n.rhsIdx j ((ValueIdx.contrEquiv1 dot_S5000x128_S128x128_S5000x128_1_0_0_1_n_n 128 rfl rfl).symm k) = r0_blockCol j k := funext fun a => Fin.ext (by
    match a with
    | ⟨0, _⟩ => exact (r0_rhs_row _ _).trans hk
    | ⟨1, _⟩ => exact r0_rhs_col _ _)
  show x _ * w _ = _
  rw [el, er]

/-! ## From the ten row blocks to the whole array -/

variable (V : (c : Dev nD) → (b : Ref sig .tc) → Buf (Elt Ideal) ((c : Thread nD τ).loc b))

theorem r0_zeroOffsets : (![0, 0] : Fin 2 → Nat) = fun _ => 0 := funext fun a => by fin_cases a <;> rfl

/-- Where each window's block sits at grid point t: the feature rows and the result rows move with
    t, the weight matrix stays whole. -/
theorem r0_blockPositions : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The matrix product of two whole arrays, entry by entry. -/
abbrev r0_product (X : S50000x128.Idx → EReal) (W : S128x128.Idx → EReal) : S50000x128.Idx → EReal :=
  fun i => ∑ k : Fin 128, X (atRow i k) * W (atCol i k)

/-- A product of two entries read at equal positions. -/
theorem r0_entry_congr (X : S50000x128.Idx → EReal) (W : S128x128.Idx → EReal) {p p' : S50000x128.Idx} {q q' : S128x128.Idx}
    (hp : p = p') (hq : q = q') : X p * W q = X p' * W q' := by rw [hp, hq]

/-- What grid point t writes back is block t of the whole product. -/
theorem r0_pointWritesBlock (c : Dev nD) (t : Fin cfg0.N) :
    (dat0 (F := Ideal) V c).flushed 2 t
      = ((cfg0.win 2).blk t).view.read (Elt Ideal) (r0_product (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero r0_zeroOffsets]
  simp only [View.ld_unit_zero (S := S5000x128) r0_zeroOffsets, View.ld_unit_zero (S := S128x128) r0_zeroOffsets]
  obtain ⟨e00, e01, e10, e11, e20, e21⟩ := r0_blockPositions t
  funext j
  show k0_pay1 (F := Ideal) (iblk0 V c 0 t) (iblk0 V c 1 t) j = r0_product (V c (Pipeline.arrRef spec0 0)) (V c (Pipeline.arrRef spec0 1)) (((cfg0.win 2).blk t).view.emb j)
  refine (r0_blockProduct_apply (iblk0 V c 0 t) (iblk0 V c 1 t) j).trans ?_
  refine Finset.sum_congr rfl fun k _ => ?_
  have hx : ((cfg0.win 0).blk t).view.emb (r0_blockRow j k) = atRow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (r0_blockCol j k) = atCol (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact r0_entry_congr (V c (Pipeline.arrRef spec0 0)) (V c (Pipeline.arrRef spec0 1)) hx hw

/-- An entry of the result is in point t's block iff each coordinate is in the block's range. -/
theorem r0_inBlock_iff (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every entry of the result is in some point's block: row r is in block r / 5000. -/
theorem r0_rowsCovered (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by omega⟩
  obtain ⟨e00, e01, e10, e11, e20, e21⟩ := r0_blockPositions t
  have ht : t.val = (i 0).val / 5000 := rfl
  refine ⟨t, flush0_2 t, ?_⟩
  rw [r0_inBlock_iff]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the ten points: the product of the feature array and the weight array
    as the region found them, entry by entry. -/
theorem region0_value (c : Dev nD) :
    (dat0 (F := Ideal) V c).arrAt 2 cfg0.N = r0_product (V c (Pipeline.arrRef spec0 0)) (V c (Pipeline.arrRef spec0 1)) :=
  (dat0 (F := Ideal) V c).arrAt_eq_of_cover 2 (r0_product (V c (Pipeline.arrRef spec0 0)) (V c (Pipeline.arrRef spec0 1)))
    (fun t _ => r0_pointWritesBlock V c t) r0_rowsCovered

/-- The same with the two arrays named: whatever the feature array X and the weight array W are
    known to be when the region is entered, the result is their product. -/
theorem region0_value_of (c : Dev nD) (X : S50000x128.Idx → EReal) (W : S128x128.Idx → EReal)
    (hX : V c (Pipeline.arrRef spec0 0) = X) (hW : V c (Pipeline.arrRef spec0 1) = W) :
    (dat0 (F := Ideal) V c).arrAt 2 cfg0.N = fun i => ∑ k : Fin 128, X (atRow i k) * W (atCol i k) := by
  subst hX hW
  exact region0_value V c

end Cert.KernelIdeal.RegionValue

end
-- ==== Proof.DenseBlock.lean ====
/-
  The dense layers of the network, entry by entry, and the arithmetic of one row block.

  Every dense layer has a result of 50000 rows and 128 columns and is computed in row blocks of 5000
  rows. A fused hypergraph-convolution layer has entry (p, q)
      rect (A (p, q) + ∑ k, X (p, k) * W (k, q) + B (0, q)),
  a fused graph-convolution layer
      rect (∑ k, A (p, k) * W1 (k, q) + ∑ k, X (p, k) * W2 (k, q) + B (0, q)),
  where rect is the rectifier with slope: s where s is at least zero, the slope times s elsewhere.

  On the extended reals the narrowing to sixteen bits is the identity and a product into a zero
  accumulator is the plain contraction over the 128 shared positions, so what the body of a layer
  stores at an entry of its block is the layer's formula on the blocks it loaded. That is proved here
  for the four bodies, over arbitrary blocks.
-/
import proofs.«147182_j79147657330978_1_alg».proof.Proof.RegionIdx
import proofs.«147182_j79147657330978_1_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The layers as functions of their input arrays -/

/-- The rectifier with slope: s where s is at least zero, the slope times s elsewhere. -/
def r1_leaky (s : Ideal .f32) : Ideal .f32 :=
  Scalar.select (FloatOps.cmpf .oge s (Scalar.ofBits .f32 0x00000000#32)) s (Scalar.ofBits .f32 0x3C23D70A#32 * s)

/-- A fused hypergraph-convolution layer: the aggregate A, the features X, the weights W, the bias row B. -/
abbrev r1_hcLayer (A X : S50000x128.Idx → Ideal .f32) (W : S128x128.Idx → Ideal .f32) (B : S1x128.Idx → Ideal .f32) :
    S50000x128.Idx → Ideal .f32 :=
  fun i => r1_leaky ((A i + ∑ k : Fin 128, X (atRow i k) * W (atCol i k)) + B (atBias i))

/-- A fused graph-convolution layer: the aggregate A with its weights W1, the features X with their
    weights W2, the bias row B. -/
abbrev r4_gcLayer (A X : S50000x128.Idx → Ideal .f32) (W1 W2 : S128x128.Idx → Ideal .f32) (B : S1x128.Idx → Ideal .f32) :
    S50000x128.Idx → Ideal .f32 :=
  fun i => r1_leaky (((∑ k : Fin 128, A (atRow i k) * W1 (atCol i k)) + (∑ k : Fin 128, X (atRow i k) * W2 (atCol i k))) + B (atBias i))

/-! ## Positions inside one block of 5000 rows -/

/-- Entry (row of j, column k) of a block of 5000 rows and 128 columns. -/
abbrev r1_rowIn (j : S5000x128.Idx) (k : Fin 128) : S5000x128.Idx := fun a => match a with
  | ⟨0, _⟩ => ⟨(j 0).val, (j 0).isLt⟩
  | ⟨1, _⟩ => ⟨k.val, k.isLt⟩

/-- Entry (row k, column of j) of an array of weights. -/
abbrev r1_colIn (j : S5000x128.Idx) (k : Fin 128) : S128x128.Idx := fun a => match a with
  | ⟨0, _⟩ => ⟨k.val, k.isLt⟩
  | ⟨1, _⟩ => ⟨(j 1).val, (j 1).isLt⟩

/-- Entry (0, column of j) of a bias row. -/
abbrev r1_biasIn (j : S5000x128.Idx) : S1x128.Idx := fun a => match a with
  | ⟨0, _⟩ => ⟨0, Nat.zero_lt_one⟩
  | ⟨1, _⟩ => ⟨(j 1).val, (j 1).isLt⟩

/-- The zero offsets of a whole-block access, as a constant function. -/
theorem r1_hz : (![0, 0] : Fin 2 → Nat) = fun _ => 0 := funext fun a => by fin_cases a <;> rfl

/-! ## The contraction of a block with an array of weights, at an entry -/

theorem r1_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem r1_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem r1_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem r1_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block with the weights into a zero accumulator, at entry j, is the sum over the
    128 shared positions of the block's row times the weights' column. -/
theorem r1_contract_at (x : FVec Ideal S5000x128 .f32) (w : FVec Ideal S128x128 .f32) (j : S5000x128.Idx) :
    (matmul (F := Ideal) dot_S5000x128_S128x128_S5000x128_1_0_0_1_n_n none (truncf .bf16 x bitsLt_bf16_f32) (truncf .bf16 w bitsLt_bf16_f32) (constant (F := Ideal) S5000x128 .f32 0x00000000#32)) j
      = ∑ k : Fin 128, x (r1_rowIn j k) * w (r1_colIn j k) := by
  refine (Ideal.matmul_constant_zero_apply dot_S5000x128_S128x128_S5000x128_1_0_0_1_n_n none (truncf .bf16 x bitsLt_bf16_f32) (truncf .bf16 w bitsLt_bf16_f32) j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = r1_rowIn j k := funext fun a => Fin.ext (by
    match a with
    | ⟨0, _⟩ => exact r1_lhs0 _ _
    | ⟨1, _⟩ => exact (r1_lhs1 _ _).trans hk)
  have er : dot_S5000x128_S128x128_S5000x128_1_0_0_1_n_n.rhsIdx j ((ValueIdx.contrEquiv1 dot_S5000x128_S128x128_S5000x128_1_0_0_1_n_n 128 rfl rfl).symm k) = r1_colIn j k := funext fun a => Fin.ext (by
    match a with
    | ⟨0, _⟩ => exact (r1_rhs0 _ _).trans hk
    | ⟨1, _⟩ => exact r1_rhs1 _ _)
  rw [el, er]
  rfl

/-- A bias row spread over the 5000 rows reads, at entry j, the bias at j's column. -/
theorem r1_bias_at (b : FVec Ideal S1x128 .f32) (j : S5000x128.Idx) :
    broadcastTo S5000x128 b broadcasts_S1x128_S5000x128 j = b (r1_biasIn j) :=
  broadcastTo_apply b broadcasts_S1x128_S5000x128 j (r1_biasIn j) (fun a => by
    match a with
    | ⟨0, _⟩ => rfl
    | ⟨1, _⟩ => rfl)

/-! ## The bodies' arithmetic at an entry of a block -/

/-- What the body of the first hypergraph-convolution layer stores at entry j of its block: the
    rectifier of the aggregate's entry plus the contraction of the features' row with the weights'
    column plus the bias at the column. -/
theorem r1_pay_at (x : FVec Ideal S5000x128 .f32) (w : FVec Ideal S128x128 .f32) (a : FVec Ideal S5000x128 .f32) (b : FVec Ideal S1x128 .f32) (j : S5000x128.Idx) :
    k1_pay1 (F := Ideal) x w a b j
      = r1_leaky ((a j + ∑ k : Fin 128, x (r1_rowIn j k) * w (r1_colIn j k)) + b (r1_biasIn j)) := by
  have hm := r1_contract_at x w j
  have hb := r1_bias_at b j
  have e : k1_pay1 (F := Ideal) x w a b j
      = r1_leaky (((shapeCast S5000x128 a shapeCasts_S5000x128_S5000x128) j
          + (matmul (F := Ideal) dot_S5000x128_S128x128_S5000x128_1_0_0_1_n_n none (truncf .bf16 x bitsLt_bf16_f32) (truncf .bf16 w bitsLt_bf16_f32) (constant (F := Ideal) S5000x128 .f32 0x00000000#32)) j)
          + broadcastTo S5000x128 (shapeCast S1x128 b shapeCasts_S1x128_S1x128) broadcasts_S1x128_S5000x128 j) := rfl
  rw [e, shapeCast_self, shapeCast_self, hm, hb]

/-- The body of the second hypergraph-convolution layer stores the same formula of its blocks. -/
theorem r3_pay_at (x : FVec Ideal S5000x128 .f32) (w : FVec Ideal S128x128 .f32) (a : FVec Ideal S5000x128 .f32) (b : FVec Ideal S1x128 .f32) (j : S5000x128.Idx) :
    k3_pay1 (F := Ideal) x w a b j
      = r1_leaky ((a j + ∑ k : Fin 128, x (r1_rowIn j k) * w (r1_colIn j k)) + b (r1_biasIn j)) := by
  have hm := r1_contract_at x w j
  have hb := r1_bias_at b j
  have e : k3_pay1 (F := Ideal) x w a b j
      = r1_leaky (((shapeCast S5000x128 a shapeCasts_S5000x128_S5000x128) j
          + (matmul (F := Ideal) dot_S5000x128_S128x128_S5000x128_1_0_0_1_n_n none (truncf .bf16 (shapeCast S5000x128 x shapeCasts_S5000x128_S5000x128) bitsLt_bf16_f32) (truncf .bf16 w bitsLt_bf16_f32) (constant (F := Ideal) S5000x128 .f32 0x00000000#32)) j)
          + broadcastTo S5000x128 (shapeCast S1x128 b shapeCasts_S1x128_S1x128) broadcasts_S1x128_S5000x128 j) := rfl
  rw [e, shapeCast_self, shapeCast_self, shapeCast_self, hm, hb]

/-- What the body of the first graph-convolution layer stores at entry j of its block: the rectifier
    of the contraction of the aggregate's row with the first weights' column, plus that of the
    features' row with the second weights' column, plus the bias at the column. -/
theorem r4_pay_at (a x : FVec Ideal S5000x128 .f32) (w1 w2 : FVec Ideal S128x128 .f32) (b : FVec Ideal S1x128 .f32) (j : S5000x128.Idx) :
    k4_pay1 (F := Ideal) a x w1 w2 b j
      = r1_leaky (((∑ k : Fin 128, a (r1_rowIn j k) * w1 (r1_colIn j k)) + (∑ k : Fin 128, x (r1_rowIn j k) * w2 (r1_colIn j k))) + b (r1_biasIn j)) := by
  have hm1 := r1_contract_at a w1 j
  have hm2 := r1_contract_at x w2 j
  have hb := r1_bias_at b j
  have e : k4_pay1 (F := Ideal) a x w1 w2 b j
      = r1_leaky (((matmul (F := Ideal) dot_S5000x128_S128x128_S5000x128_1_0_0_1_n_n none (truncf .bf16 (shapeCast S5000x128 a shapeCasts_S5000x128_S5000x128) bitsLt_bf16_f32) (truncf .bf16 w1 bitsLt_bf16_f32) (constant (F := Ideal) S5000x128 .f32 0x00000000#32)) j
          + (matmul (F := Ideal) dot_S5000x128_S128x128_S5000x128_1_0_0_1_n_n none (truncf .bf16 (shapeCast S5000x128 x shapeCasts_S5000x128_S5000x128) bitsLt_bf16_f32) (truncf .bf16 (shapeCast S128x128 w2 shapeCasts_S128x128_S128x128) bitsLt_bf16_f32) (constant (F := Ideal) S5000x128 .f32 0x00000000#32)) j)
          + broadcastTo S5000x128 (shapeCast S1x128 b shapeCasts_S1x128_S1x128) broadcasts_S1x128_S5000x128 j) := rfl
  rw [e, shapeCast_self, shapeCast_self, shapeCast_self, shapeCast_self, hm1, hm2, hb]

/-- The body of the second graph-convolution layer stores the same formula of its blocks. -/
theorem r5_pay_at (a x : FVec Ideal S5000x128 .f32) (w1 w2 : FVec Ideal S128x128 .f32) (b : FVec Ideal S1x128 .f32) (j : S5000x128.Idx) :
    k5_pay1 (F := Ideal) a x w1 w2 b j
      = r1_leaky (((∑ k : Fin 128, a (r1_rowIn j k) * w1 (r1_colIn j k)) + (∑ k : Fin 128, x (r1_rowIn j k) * w2 (r1_colIn j k))) + b (r1_biasIn j)) := by
  have hm1 := r1_contract_at a w1 j
  have hm2 := r1_contract_at x w2 j
  have hb := r1_bias_at b j
  have e : k5_pay1 (F := Ideal) a x w1 w2 b j
      = r1_leaky (((matmul (F := Ideal) dot_S5000x128_S128x128_S5000x128_1_0_0_1_n_n none (truncf .bf16 (shapeCast S5000x128 a shapeCasts_S5000x128_S5000x128) bitsLt_bf16_f32) (truncf .bf16 w1 bitsLt_bf16_f32) (constant (F := Ideal) S5000x128 .f32 0x00000000#32)) j
          + (matmul (F := Ideal) dot_S5000x128_S128x128_S5000x128_1_0_0_1_n_n none (truncf .bf16 (shapeCast S5000x128 x shapeCasts_S5000x128_S5000x128) bitsLt_bf16_f32) (truncf .bf16 (shapeCast S128x128 w2 shapeCasts_S128x128_S128x128) bitsLt_bf16_f32) (constant (F := Ideal) S5000x128 .f32 0x00000000#32)) j)
          + broadcastTo S5000x128 (shapeCast S1x128 b shapeCasts_S1x128_S1x128) broadcasts_S1x128_S5000x128 j) := rfl
  rw [e, shapeCast_self, shapeCast_self, shapeCast_self, shapeCast_self, hm1, hm2, hb]

end Cert.KernelIdeal.RegionValue

end
-- ==== Proof.Region1.lean ====
/-
  The first fused hypergraph-convolution layer, read as one function of its input arrays.

  The layer is computed at ten grid points; point t handles rows 5000 t … 5000 t + 4999. At point t
  the body loads those rows of the aggregate and of the features, all of the weights and the whole
  bias row, and writes those rows of the result. An entry of the result in row r is therefore written
  exactly once, by point r / 5000, and what is written is the layer's formula at that entry of the
  arrays as the layer finds them: the ten blocks are restrictions of one function, and the result
  array ends holding it.
-/
import proofs.«147182_j79147657330978_1_alg».proof.Proof.DenseBlock
import proofs.«147182_j79147657330978_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block index maps over the grid: at point t the row-blocked arrays are at row block t, the
    weights and the bias at their one block. -/
theorem r1_idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The aggregate's block at point t holds rows 5000 t … 5000 t + 4999 of the aggregate. -/
theorem r1_read0 (c : Dev nD) (t : Fin cfg1.N) (y : S5000x128.Idx) (i : S50000x128.Idx)
    (h0 : (i 0).val = t.val * 5000 + (y 0).val) (h1 : (i 1).val = (y 1).val) :
    (iblk1 (F := Ideal) V c 0 t : FVec Ideal S5000x128 .f32) y = (V c (Pipeline.arrRef spec1 0) : S50000x128.Idx → Ideal .f32) i := by
  obtain ⟨e00, e01, e10, e11, e20, e21, e30, e31, e40, e41⟩ := r1_idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (y 0).val = (i 0).val; rw [e00, h0]; omega
  | ⟨1, _⟩ => show win1_0.index t (1 : Fin 2) * 128 + 1 * (y 1).val = (i 1).val; rw [e01, h1]; omega

/-- The features' block at point t holds the same rows of the features. -/
theorem r1_read1 (c : Dev nD) (t : Fin cfg1.N) (y : S5000x128.Idx) (i : S50000x128.Idx)
    (h0 : (i 0).val = t.val * 5000 + (y 0).val) (h1 : (i 1).val = (y 1).val) :
    (iblk1 (F := Ideal) V c 1 t : FVec Ideal S5000x128 .f32) y = (V c (Pipeline.arrRef spec1 1) : S50000x128.Idx → Ideal .f32) i := by
  obtain ⟨e00, e01, e10, e11, e20, e21, e30, e31, e40, e41⟩ := r1_idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * (y 0).val = (i 0).val; rw [e10, h0]; omega
  | ⟨1, _⟩ => show win1_1.index t (1 : Fin 2) * 128 + 1 * (y 1).val = (i 1).val; rw [e11, h1]; omega

/-- The weights' block at every point is the whole array of weights. -/
theorem r1_read2 (c : Dev nD) (t : Fin cfg1.N) (y : S128x128.Idx) (i : S128x128.Idx)
    (h0 : (i 0).val = (y 0).val) (h1 : (i 1).val = (y 1).val) :
    (iblk1 (F := Ideal) V c 2 t : FVec Ideal S128x128 .f32) y = (V c (Pipeline.arrRef spec1 2) : S128x128.Idx → Ideal .f32) i := by
  obtain ⟨e00, e01, e10, e11, e20, e21, e30, e31, e40, e41⟩ := r1_idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (y 0).val = (i 0).val; rw [e20, h0]; omega
  | ⟨1, _⟩ => show win1_2.index t (1 : Fin 2) * 128 + 1 * (y 1).val = (i 1).val; rw [e21, h1]; omega

/-- The bias' block at every point is the whole bias row. -/
theorem r1_read3 (c : Dev nD) (t : Fin cfg1.N) (y : S1x128.Idx) (i : S1x128.Idx)
    (h0 : (i 0).val = (y 0).val) (h1 : (i 1).val = (y 1).val) :
    (iblk1 (F := Ideal) V c 3 t : FVec Ideal S1x128 .f32) y = (V c (Pipeline.arrRef spec1 3) : S1x128.Idx → Ideal .f32) i := by
  obtain ⟨e00, e01, e10, e11, e20, e21, e30, e31, e40, e41⟩ := r1_idx_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (i 0).val; rw [e30, h0]; omega
  | ⟨1, _⟩ => show win1_3.index t (1 : Fin 2) * 128 + 1 * (y 1).val = (i 1).val; rw [e31, h1]; omega

/-- What point t writes back is block t of the layer's function of the arrays the layer finds. -/
theorem r1_flushed_eq (c : Dev nD) (t : Fin cfg1.N) :
    (dat1 (F := Ideal) V c).flushed 4 t = ((cfg1.win 4).blk t).view.read (Elt Ideal)
      (r1_hcLayer (V c (Pipeline.arrRef spec1 0)) (V c (Pipeline.arrRef spec1 1)) (V c (Pipeline.arrRef spec1 2)) (V c (Pipeline.arrRef spec1 3))) := by
  show (cfg1.win 4).cut (grid1.coords t) ((dat1 (F := Ideal) V c).after 4 t) = _
  rw [after1_4]
  unfold out1_4
  rw [View.canon_unit_zero r1_hz]
  simp only [View.ld_unit_zero (S := S5000x128) r1_hz, View.ld_unit_zero (S := S128x128) r1_hz, View.ld_unit_zero (S := S1x128) r1_hz]
  obtain ⟨e00, e01, e10, e11, e20, e21, e30, e31, e40, e41⟩ := r1_idx_facts t
  funext j
  have hi0 : ((((cfg1.win 4).blk t).view.emb j) 0).val = t.val * 5000 + (j 0).val := by
    show win1_4.index t (0 : Fin 2) * 5000 + 1 * (j 0).val = _
    rw [e40]; omega
  have hi1 : ((((cfg1.win 4).blk t).view.emb j) 1).val = (j 1).val := by
    show win1_4.index t (1 : Fin 2) * 128 + 1 * (j 1).val = _
    rw [e41]; omega
  show k1_pay1 (F := Ideal) (iblk1 V c 1 t) (iblk1 V c 2 t) (iblk1 V c 0 t) (iblk1 V c 3 t) j
      = r1_hcLayer (V c (Pipeline.arrRef spec1 0)) (V c (Pipeline.arrRef spec1 1)) (V c (Pipeline.arrRef spec1 2)) (V c (Pipeline.arrRef spec1 3)) (((cfg1.win 4).blk t).view.emb j)
  refine (r1_pay_at (iblk1 V c 1 t) (iblk1 V c 2 t) (iblk1 V c 0 t) (iblk1 V c 3 t) j).trans ?_
  refine congrArg r1_leaky ?_
  refine congrArg₂ (· + ·) (congrArg₂ (· + ·) (r1_read0 V c t j _ hi0 hi1) (Finset.sum_congr rfl fun k _ => ?_)) (r1_read3 V c t (r1_biasIn j) _ rfl hi1)
  exact congrArg₂ (· * ·) (r1_read1 V c t (r1_rowIn j k) _ hi0 rfl) (r1_read2 V c t (r1_colIn j k) _ rfl hi1)

/-- An entry of the result array is in point t's block iff its row is among the block's 5000 rows. -/
theorem r1_mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v54).slice (win1_4.rect t)).set ↔ _
  rw [View.set_slice_whole, Rect.mem_set_unit]
  exact Iff.rfl

/-- Every entry of the result array is written back by the point of its row block: row r by point r / 5000. -/
theorem r1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨e00, e01, e10, e11, e20, e21, e30, e31, e40, e41⟩ := r1_idx_facts ⟨(i 0).val / 5000, ht⟩
  refine ⟨⟨(i 0).val / 5000, ht⟩, flush1_4 _, ?_⟩
  rw [r1_mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e41]
    omega

/-- THE RESULT ARRAY of the first fused hypergraph-convolution layer: the layer's function of the arrays the layer finds. -/
theorem r1_value (c : Dev nD) :
    (dat1 (F := Ideal) V c).arrAt 4 cfg1.N
      = r1_hcLayer (V c (Pipeline.arrRef spec1 0)) (V c (Pipeline.arrRef spec1 1)) (V c (Pipeline.arrRef spec1 2)) (V c (Pipeline.arrRef spec1 3)) :=
  (dat1 (F := Ideal) V c).arrAt_eq_of_cover 4
    (r1_hcLayer (V c (Pipeline.arrRef spec1 0)) (V c (Pipeline.arrRef spec1 1)) (V c (Pipeline.arrRef spec1 2)) (V c (Pipeline.arrRef spec1 3)))
    (fun t _ => r1_flushed_eq V c t) r1_cover

end Cert.KernelIdeal.RegionValue

end
-- ==== Proof.FinDef.lean ====
/-
  An array over the extended reals is FINITE when every entry is a real number, neither infinity.
  On such arrays the extended-real sum and product are the real ones, so a product distributes
  over a sum; at an infinity it need not.
-/
import Idealize.ShloMosaic.PureOps.Ideal

namespace Cert.Hand

/-- Every entry of `v` is a real number. -/
def IsFin {ι : Type} (v : ι → EReal) : Prop := ∀ i, ∃ r : ℝ, v i = (r : EReal)

theorem IsFin.apply {ι : Type} {v : ι → EReal} (h : IsFin v) (i : ι) : ∃ r : ℝ, v i = (r : EReal) := h i

end Cert.Hand
-- ==== Proof.FinOps.lean ====
/-
  Finiteness and the scalar algebra of the extended reals.

  An array over the extended reals is finite when every entry is a real number. This module proves the scalar
  facts the value proof uses: sums and products of reals are real; sums of extended reals regroup freely; a
  product of reals distributes over a sum, also under the summation sign of a contraction. It then proves that
  each array operation of the two programs (contraction, accumulating scatter, gather, entrywise sum and product,
  selection, broadcast, reshape, constants, and the reciprocal guarded by a comparison with zero) sends finite
  arrays to finite arrays.
-/
import Idealize.ShloMosaic.PureOps.Ideal.Laws
import proofs.«147182_j79147657330978_1_alg».proof.Proof.FinDef

noncomputable section

namespace Cert.Hand

open Idealize.ShloMosaic
open scoped BigOperators

/-! ## Scalars: the real numbers inside the extended reals -/

/-- The extended real x is a real number. -/
abbrev IsRe (x : EReal) : Prop := ∃ r : ℝ, x = (r : EReal)

theorem isRe_coe (r : ℝ) : IsRe (r : EReal) := ⟨r, rfl⟩

theorem isRe_zero : IsRe (0 : EReal) := ⟨0, rfl⟩

theorem isRe_one : IsRe (1 : EReal) := ⟨1, rfl⟩

/-- The sum of two reals is real. -/
theorem isRe_add {x y : EReal} (hx : IsRe x) (hy : IsRe y) : IsRe (x + y) := by
  obtain ⟨a, rfl⟩ := hx
  obtain ⟨b, rfl⟩ := hy
  exact ⟨a + b, (EReal.coe_add a b).symm⟩

/-- The product of two reals is real. -/
theorem isRe_mul {x y : EReal} (hx : IsRe x) (hy : IsRe y) : IsRe (x * y) := by
  obtain ⟨a, rfl⟩ := hx
  obtain ⟨b, rfl⟩ := hy
  exact ⟨a * b, (EReal.coe_mul a b).symm⟩

/-- A finite sum of reals is real. -/
theorem isRe_sum {κ : Type} (s : Finset κ) (f : κ → EReal) (h : ∀ k ∈ s, IsRe (f k)) : IsRe (∑ k ∈ s, f k) := by
  classical
  induction s using Finset.induction_on with
  | empty => simpa using isRe_zero
  | insert a s ha ih =>
    rw [Finset.sum_insert ha]
    exact isRe_add (h a (Finset.mem_insert_self a s)) (ih fun k hk => h k (Finset.mem_insert_of_mem hk))

/-- A sum of reals over a whole finite type is real. -/
theorem isRe_sum_univ {κ : Type} [Fintype κ] (f : κ → EReal) (h : ∀ k, IsRe (f k)) : IsRe (∑ k, f k) :=
  isRe_sum Finset.univ f fun k _ => h k

/-- A sum of products of reals is real: one entry of a contraction. -/
theorem isRe_sum_mul {κ : Type} [Fintype κ] (f g : κ → EReal) (hf : ∀ k, IsRe (f k)) (hg : ∀ k, IsRe (g k)) :
    IsRe (∑ k, f k * g k) :=
  isRe_sum_univ _ fun k => isRe_mul (hf k) (hg k)

/-- The quotient of a real by a nonzero real is real. -/
theorem isRe_div {x y : EReal} (hx : IsRe x) (hy : IsRe y) (h0 : y ≠ 0) : IsRe (Ideal.div x y) := by
  obtain ⟨b, rfl⟩ := hy
  have hb : b ≠ 0 := fun h => h0 (by rw [h]; rfl)
  rw [Ideal.div_coe hb]
  exact isRe_mul hx (isRe_coe _)

/-- Regrouping four summands: (a + l) + (b₁ + b₂) = (a + b₁) + (l + b₂). Addition of extended reals is
    commutative and associative everywhere, so no entry needs to be finite. -/
theorem add_bias_regroup (a l b₁ b₂ : EReal) : (a + l) + (b₁ + b₂) = (a + b₁) + (l + b₂) :=
  add_add_add_comm a l b₁ b₂

/-- Regrouping five summands: with s = r + g, (t + s) + (c₁ + c₂) = ((t + c₁) + r) + (g + c₂). Again only
    commutativity and associativity. -/
theorem add_five_regroup (t s r g c₁ c₂ : EReal) (hs : s = r + g) :
    (t + s) + (c₁ + c₂) = ((t + c₁) + r) + (g + c₂) := by
  subst hs
  ac_rfl

/-- For reals, a product distributes over a sum. -/
theorem mul_add_of_isRe {x a b : EReal} (hx : IsRe x) (ha : IsRe a) (hb : IsRe b) : x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- The distributive law inside a contraction: for real entries,
    ∑ k, x k * (a k + b k) = ∑ k, x k * a k + ∑ k, x k * b k. -/
theorem sum_mul_add_of_isRe {κ : Type} [Fintype κ] (x a b : κ → EReal) (hx : ∀ k, IsRe (x k)) (ha : ∀ k, IsRe (a k))
    (hb : ∀ k, IsRe (b k)) : ∑ k, x k * (a k + b k) = ∑ k, x k * a k + ∑ k, x k * b k := by
  rw [← Finset.sum_add_distrib]
  exact Finset.sum_congr rfl fun k _ => mul_add_of_isRe (hx k) (ha k) (hb k)

/-! ## Bit patterns that denote real numbers -/

/-- A pattern whose exponent field is not all ones denotes a real number (a zero, a subnormal or a normal). -/
theorem ieee_isRe (e m : Nat) {w : Nat} (b : BitVec w) (h : (b.extractLsb' m e).toNat ≠ 2 ^ e - 1) :
    IsRe (Ideal.ieee e m b) := by
  unfold Ideal.ieee
  simp only []
  rw [if_neg h]
  split_ifs <;> exact ⟨_, rfl⟩

/-- An f32 pattern whose exponent field is not 255 denotes a real number. -/
theorem ofBits_f32_isRe (b : BitVec 32) (h : (b.extractLsb' 23 8).toNat ≠ 2 ^ 8 - 1) : IsRe (Ideal.ofBits .f32 b) :=
  ieee_isRe 8 23 b h

/-- The pattern of +0.0 denotes a real number (the real 0). -/
theorem ofBits_zero_isRe : IsRe (Ideal.ofBits .f32 0x00000000#32) := ofBits_f32_isRe _ (by decide)

/-- The pattern of 1.0 denotes a real number. -/
theorem ofBits_one_isRe : IsRe (Ideal.ofBits .f32 0x3F800000#32) := ofBits_f32_isRe _ (by decide)

/-- The slope 0x3C23D70A (the f32 nearest 0.01) denotes a real number. -/
theorem ofBits_slope_isRe : IsRe (Ideal.ofBits .f32 0x3C23D70A#32) := ofBits_f32_isRe _ (by decide)

/-! ## Arrays: finiteness is preserved by every operation of the programs -/

section Arrays

variable {φ φ₁ φ₂ : FTy}

/-- Reading a finite array through any re-indexing gives a finite array. -/
theorem isFin_comp {ι κ : Type} {v : ι → EReal} (h : IsFin v) (f : κ → ι) : IsFin fun j => v (f j) := fun j => h (f j)

/-- An array that is real at every entry is finite. -/
theorem isFin_of_forall {ι : Type} {v : ι → EReal} (h : ∀ i, IsRe (v i)) : IsFin v := h

/-- A constant array of a real value is finite. -/
theorem isFin_const {ι : Type} {c : EReal} (h : IsRe c) : IsFin fun _ : ι => c := fun _ => h

/-- The entrywise sum of finite arrays is finite. -/
theorem isFin_addf {s : Shape} {x y : FVec Ideal s φ} (hx : IsFin x) (hy : IsFin y) : IsFin (addf x y) :=
  fun i => isRe_add (hx i) (hy i)

/-- The entrywise product of finite arrays is finite. -/
theorem isFin_mulf {s : Shape} {x y : FVec Ideal s φ} (hx : IsFin x) (hy : IsFin y) : IsFin (mulf x y) :=
  fun i => isRe_mul (hx i) (hy i)

/-- A selection between two finite arrays is finite, whatever the condition. -/
theorem isFin_select {s : Shape} (c : IVec s 1) {a b : s.Idx → EReal} (ha : IsFin a) (hb : IsFin b) :
    IsFin (select c a b) := by
  intro i
  show IsRe (if c i = 1 then a i else b i)
  split_ifs
  · exact ha i
  · exact hb i

/-- A broadcast of a finite array is finite: every entry of the result is an entry of the operand. -/
theorem isFin_broadcastInDim {s : Shape} (t : Shape) (dims : Fin s.rank → Fin t.rank) (h : s.BroadcastsInDim t dims)
    {x : s.Idx → EReal} (hx : IsFin x) : IsFin (broadcastInDim t dims h x) :=
  fun _ => hx _

/-- A reshape of a finite array is finite: the same entries in another shape. -/
theorem isFin_shapeCast {s : Shape} (t : Shape) {x : s.Idx → EReal} (h : s.ShapeCasts t) (hx : IsFin x) :
    IsFin (shapeCast t x h) :=
  fun _ => hx _

/-- A gather from a finite array is finite, whatever the indices: every entry of the result is the operand's entry
    at the (clamped) index the dimension numbers compute; there is no fill value. -/
theorem isFin_gather {s si t : Shape} {w : Nat} (d : GatherDims s si t) {x : s.Idx → EReal} (idx : IVec si w)
    (hx : IsFin x) : IsFin (Host.gather d x idx) :=
  fun _ => hx _

/-- The host's contraction of two finite arrays is finite: each entry is a finite sum of products of reals. -/
theorem isFin_dotGeneral {sl sr so : Shape} (d : DotDims sl sr so) (prec : Option ContractPrecision)
    {l : FVec Ideal sl φ₁} {r : FVec Ideal sr φ₂} (hl : IsFin l) (hr : IsFin r) :
    IsFin (Host.dotGeneral d prec l r) := by
  intro j
  show IsRe (FloatOps.dotGeneral d prec .single l r j)
  rw [Ideal.dotGeneral_apply]
  exact isRe_sum_mul _ _ (fun k => hl _) (fun k => hr _)

/-- The accumulating scatter of finite updates into a finite array is finite, whatever the indices: each entry is
    the operand's plus a finite sum of update entries. -/
theorem isFin_scatterAdd {s si u : Shape} {w : Nat} (d : ScatterDims s si u) {x : FVec Ideal s φ} (idx : IVec si w)
    {upd : FVec Ideal u φ} (hx : IsFin x) (hu : IsFin upd) : IsFin (Host.scatterAdd d x idx upd) := by
  intro i
  show IsRe (x i + ∑ j ∈ Finset.univ.filter (fun j => d.resultIdx? j idx = some i), upd j)
  exact isRe_add (hx i) (isRe_sum _ _ fun j _ => hu j)

/-- A constant array of a pattern that denotes a real number is finite. -/
theorem isFin_constant (s : Shape) (φ : FTy) (b : BitVec φ.bits) (h : IsRe (Ideal.ofBits φ b)) :
    IsFin (constant (F := Ideal) s φ b) :=
  fun _ => h

theorem isFin_constant_zero (s : Shape) : IsFin (constant (F := Ideal) s .f32 0x00000000#32) :=
  isFin_constant s .f32 _ ofBits_zero_isRe

theorem isFin_constant_one (s : Shape) : IsFin (constant (F := Ideal) s .f32 0x3F800000#32) :=
  isFin_constant s .f32 _ ofBits_one_isRe

theorem isFin_constant_slope (s : Shape) : IsFin (constant (F := Ideal) s .f32 0x3C23D70A#32) :=
  isFin_constant s .f32 _ ofBits_slope_isRe

/-- Every entry of a broadcast constant is the value its pattern denotes. -/
theorem broadcastInDim_constant_apply {s : Shape} (t : Shape) (dims : Fin s.rank → Fin t.rank)
    (h : s.BroadcastsInDim t dims) (b : BitVec φ.bits) (j : t.Idx) :
    broadcastInDim t dims h (constant (F := Ideal) s φ b) j = Ideal.ofBits φ b := rfl

/-- Every entry of a broadcast +0.0 is 0. -/
theorem broadcastInDim_constant_zero_apply {s : Shape} (t : Shape) (dims : Fin s.rank → Fin t.rank)
    (h : s.BroadcastsInDim t dims) (j : t.Idx) :
    broadcastInDim t dims h (constant (F := Ideal) s .f32 0x00000000#32) j = 0 :=
  Ideal.ofBits_zero_f32

/-- The guarded reciprocal. Where D i > 0 the entry is O i / D i, a real over a nonzero real; elsewhere it is
    Z' i. So for finite D, O, Z' and Z the zero array the result is finite. -/
theorem isFin_guardedDiv {s : Shape} {D Z O Z' : FVec Ideal s φ} (hD : IsFin D) (hZ : ∀ i, Z i = 0) (hO : IsFin O)
    (hZ' : IsFin Z') : IsFin (select (cmpf .ogt D Z) (Host.divf O D) Z') := by
  intro i
  show IsRe (if Ideal.cmp .ogt (D i) (Z i) = 1 then Ideal.div (O i) (D i) else Z' i)
  split_ifs with hc
  · have hlt : Z i < D i := by
      by_contra hn
      have : Ideal.cmp .ogt (D i) (Z i) = 0 := by
        show BitVec.ofBool (decide (Z i < D i)) = 0
        rw [decide_eq_false hn]; rfl
      rw [this] at hc
      exact absurd hc (by decide)
    rw [hZ i] at hlt
    exact isRe_div (hO i) (hD i) (ne_of_gt hlt)
  · exact hZ' i

end Arrays

end Cert.Hand

end
-- ==== Proof.Bridge.lean ====
/-
  The algebra that joins the two programs' dense layers.

  One program computes a hypergraph layer in fused form: entry (p, q) is
      rect ((A (p, q) + ∑ k, X (p, k) * W (k, q)) + (b₁ + b₂) (q)),
  with the two bias vectors added beforehand. The other program computes the same layer from
  whole-array operations: a contraction, bias vectors laid along every row, entrywise sums, and the
  rectifier written as a selection between S and the slope times S on the comparison of S with zero:
      rect ((A + b₁) + (X·W + b₂)).
  Entry by entry the two forms differ by a regrouping of four summands, which holds for all extended
  reals. The final layer is a contraction plus a bias vector laid along every row, the same in both
  programs. Also here: the entrywise formula of a contraction is the whole-array contraction.
-/
import proofs.«147182_j79147657330978_1_alg».proof.Proof.RegionIdx
import proofs.«147182_j79147657330978_1_alg».proof.Proof.DenseBlock
import proofs.«147182_j79147657330978_1_alg».proof.Proof.FinOps
import proofs.«147182_j79147657330978_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Cert.KernelIdeal Idealize.ShloMosaic

/-! ## A whole-array contraction at an entry -/

theorem br_dot_lhs_row (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem br_dot_lhs_col (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem br_dot_rhs_row (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem br_dot_rhs_col (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- Entry i of the contraction of a [50000, 128] array with a [128, 128] array: the sum over the 128
    shared positions of row-of-i entries times column-of-i entries. -/
theorem br_dot_apply (l : S50000x128.Idx → Ideal .f32) (r : S128x128.Idx → Ideal .f32) (i : S50000x128.Idx) :
    (Host.dotGeneral (F := Ideal) Cert.ReferenceIdeal.dot_S50000x128_S128x128_S50000x128_1_0_0_1_n_n none l r) i = ∑ k : Fin 128, l (atRow i k) * r (atCol i k) := by
  show FloatOps.dotGeneral Cert.ReferenceIdeal.dot_S50000x128_S128x128_S50000x128_1_0_0_1_n_n none .single l r i = _
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = atRow i k := funext fun a => Fin.ext (by
    match a with
    | ⟨0, _⟩ => exact br_dot_lhs_row _ _
    | ⟨1, _⟩ => exact (br_dot_lhs_col _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = atCol i k := funext fun a => Fin.ext (by
    match a with
    | ⟨0, _⟩ => exact (br_dot_rhs_row _ _).trans hk
    | ⟨1, _⟩ => exact br_dot_rhs_col _ _)
  rw [el, er]

/-- The entrywise formula of a contraction is the whole-array contraction. -/
theorem br_dot (l : S50000x128.Idx → Ideal .f32) (r : S128x128.Idx → Ideal .f32) :
    (fun i => ∑ k : Fin 128, l (atRow i k) * r (atCol i k)) = (Host.dotGeneral (F := Ideal) Cert.ReferenceIdeal.dot_S50000x128_S128x128_S50000x128_1_0_0_1_n_n none l r) :=
  funext fun i => (br_dot_apply l r i).symm

theorem br_dot64_lhs_row (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin S50000x128.rank) ∈ Cert.ReferenceIdeal.dot_S50000x128_S128x64_S50000x64_1_0_0_1_n_n.lhsBatch by decide), dif_pos (show (0 : Fin S50000x128.rank) ∈ Cert.ReferenceIdeal.dot_S50000x128_S128x64_S50000x64_1_0_0_1_n_n.lhsNonContracting by decide)]
  rfl
theorem br_dot64_lhs_col (i : S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem br_dot64_rhs_row (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem br_dot64_rhs_col (i : S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin S128x64.rank) ∈ Cert.ReferenceIdeal.dot_S50000x128_S128x64_S50000x64_1_0_0_1_n_n.rhsBatch by decide), dif_pos (show (1 : Fin S128x64.rank) ∈ Cert.ReferenceIdeal.dot_S50000x128_S128x64_S50000x64_1_0_0_1_n_n.rhsNonContracting by decide)]
  rfl

/-- Entry i of the contraction of a [50000, 128] array with a [128, 64] array. -/
theorem br_dot64_apply (l : S50000x128.Idx → Ideal .f32) (r : S128x64.Idx → Ideal .f32) (i : S50000x64.Idx) :
    (Host.dotGeneral (F := Ideal) Cert.ReferenceIdeal.dot_S50000x128_S128x64_S50000x64_1_0_0_1_n_n none l r) i = ∑ k : Fin 128, l (atRow64 i k) * r (atCol64 i k) := by
  show FloatOps.dotGeneral Cert.ReferenceIdeal.dot_S50000x128_S128x64_S50000x64_1_0_0_1_n_n none .single l r i = _
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = atRow64 i k := funext fun a => Fin.ext (by
    match a with
    | ⟨0, _⟩ => exact br_dot64_lhs_row _ _
    | ⟨1, _⟩ => exact (br_dot64_lhs_col _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = atCol64 i k := funext fun a => Fin.ext (by
    match a with
    | ⟨0, _⟩ => exact (br_dot64_rhs_row _ _).trans hk
    | ⟨1, _⟩ => exact br_dot64_rhs_col _ _)
  rw [el, er]

/-- The entrywise formula of the final contraction is the whole-array contraction. -/
theorem br_dot64 (l : S50000x128.Idx → Ideal .f32) (r : S128x64.Idx → Ideal .f32) :
    (fun i => ∑ k : Fin 128, l (atRow64 i k) * r (atCol64 i k)) = (Host.dotGeneral (F := Ideal) Cert.ReferenceIdeal.dot_S50000x128_S128x64_S50000x64_1_0_0_1_n_n none l r) :=
  funext fun i => (br_dot64_apply l r i).symm

/-! ## A bias vector laid along every row, and the same vector as a one-row array -/

/-- The column of entry i, as a position in a vector of 128 numbers. -/
abbrev br_col (i : S50000x128.Idx) : S128.Idx := fun a => match a with
  | ⟨0, _⟩ => ⟨(i 1).val, (i 1).isLt⟩

/-- The column of entry i, as a position in a vector of 64 numbers. -/
abbrev br_col64 (i : S50000x64.Idx) : S64.Idx := fun a => match a with
  | ⟨0, _⟩ => ⟨(i 1).val, (i 1).isLt⟩

/-- A vector of 128 numbers made a one-row array and laid along the 50000 rows reads, at entry i,
    the vector at the column of i. -/
theorem br_rowBias_apply (v : S128.Idx → Ideal .f32) (i : S50000x128.Idx) :
    (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 v)) i = v (br_col i) := by
  refine (broadcastInDim_apply _ Cert.ReferenceIdeal.Facts₀.bcast_S1x128_S50000x128_0_1 (broadcastInDim Cert.ReferenceIdeal.S1x128 ![1] Cert.ReferenceIdeal.Facts₀.bcast_S128_S1x128_1 v) i (atBias i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ Cert.ReferenceIdeal.Facts₀.bcast_S128_S1x128_1 v (atBias i) (br_col i) (fun a => match a with
    | ⟨0, _⟩ => by show (i 1).val = if (128 : Nat) = 1 then 0 else (i 1).val; rw [if_neg (by decide)])

/-- The same for a vector of 64 numbers and a result of 64 columns. -/
theorem br_rowBias64_apply (v : S64.Idx → Ideal .f32) (i : S50000x64.Idx) :
    (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 v)) i = v (br_col64 i) := by
  refine (broadcastInDim_apply _ Cert.ReferenceIdeal.Facts₀.bcast_S1x64_S50000x64_0_1 (broadcastInDim Cert.ReferenceIdeal.S1x64 ![1] Cert.ReferenceIdeal.Facts₀.bcast_S64_S1x64_1 v) i (atBias64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])).trans ?_
  exact broadcastInDim_apply _ Cert.ReferenceIdeal.Facts₀.bcast_S64_S1x64_1 v (atBias64 i) (br_col64 i) (fun a => match a with
    | ⟨0, _⟩ => by show (i 1).val = if (64 : Nat) = 1 then 0 else (i 1).val; rw [if_neg (by decide)])

/-- A vector of 128 numbers reshaped to one row reads, at (0, column of i), the vector at the column of i. -/
theorem br_biasRow_apply (v : S128.Idx → Ideal .f32) (i : S50000x128.Idx) :
    (shapeCast Cert.KernelIdeal.S1x128 v Cert.KernelIdeal.Facts₀.shapeCasts_S128_S1x128) (atBias i) = v (br_col i) :=
  shapeCast_apply v Cert.KernelIdeal.Facts₀.shapeCasts_S128_S1x128 (atBias i) (br_col i)
    (by rewrite [Shape.rowMajor_val_two, Shape.rowMajor_val_one]; show (i 1).val = 0 * 128 + (i 1).val; omega)

/-- The same for a vector of 64 numbers. -/
theorem br_biasRow64_apply (v : S64.Idx → Ideal .f32) (i : S50000x64.Idx) :
    (shapeCast Cert.KernelIdeal.S1x64 v Cert.KernelIdeal.Facts₀.shapeCasts_S64_S1x64) (atBias64 i) = v (br_col64 i) :=
  shapeCast_apply v Cert.KernelIdeal.Facts₀.shapeCasts_S64_S1x64 (atBias64 i) (br_col64 i)
    (by rewrite [Shape.rowMajor_val_two, Shape.rowMajor_val_one]; show (i 1).val = 0 * 64 + (i 1).val; omega)

/-! ## The rectifier as a selection on whole arrays -/

/-- The selection between S and the slope times S on the comparison of S with zero, at entry i, is
    the rectifier of entry i of S. -/
theorem br_leaky_apply (S : S50000x128.Idx → Ideal .f32) (i : S50000x128.Idx) :
    (select (cmpf .oge S (broadcastInDim Cert.ReferenceIdeal.S50000x128 ![] Cert.ReferenceIdeal.Facts₀.bcast_S_S50000x128 (constant (F := Ideal) Cert.ReferenceIdeal.S_ .f32 0x00000000#32))) S (mulf (broadcastInDim Cert.ReferenceIdeal.S50000x128 ![] Cert.ReferenceIdeal.Facts₀.bcast_S_S50000x128 (constant (F := Ideal) Cert.ReferenceIdeal.S_ .f32 0x3C23D70A#32)) S)) i = r1_leaky (S i) := rfl

/-! ## The layers -/

/-- One entry of a hypergraph layer: four summands regrouped. -/
theorem br_hc_entry (a l z₁ z₂ : EReal) :
    r1_leaky ((a + l) + (z₁ + z₂)) = r1_leaky ((a + z₁) + (l + z₂)) := by
  rw [Cert.Hand.add_bias_regroup]

/-- The hypergraph layer: the fused form with the two bias vectors added beforehand is the
    whole-array form rect ((A + b₁) + (X·W + b₂)). No entry needs to be finite. -/
theorem br_hc (A X : S50000x128.Idx → Ideal .f32) (W : S128x128.Idx → Ideal .f32) (b₁ b₂ : S128.Idx → Ideal .f32) :
    r1_hcLayer A X W (shapeCast Cert.KernelIdeal.S1x128 (addf b₁ b₂) Cert.KernelIdeal.Facts₀.shapeCasts_S128_S1x128)
      = select (cmpf .oge (addf (addf A (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₁))) (addf (Host.dotGeneral (F := Ideal) Cert.ReferenceIdeal.dot_S50000x128_S128x128_S50000x128_1_0_0_1_n_n none X W) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₂)))) (broadcastInDim Cert.ReferenceIdeal.S50000x128 ![] Cert.ReferenceIdeal.Facts₀.bcast_S_S50000x128 (constant (F := Ideal) Cert.ReferenceIdeal.S_ .f32 0x00000000#32))) (addf (addf A (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₁))) (addf (Host.dotGeneral (F := Ideal) Cert.ReferenceIdeal.dot_S50000x128_S128x128_S50000x128_1_0_0_1_n_n none X W) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₂)))) (mulf (broadcastInDim Cert.ReferenceIdeal.S50000x128 ![] Cert.ReferenceIdeal.Facts₀.bcast_S_S50000x128 (constant (F := Ideal) Cert.ReferenceIdeal.S_ .f32 0x3C23D70A#32)) (addf (addf A (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₁))) (addf (Host.dotGeneral (F := Ideal) Cert.ReferenceIdeal.dot_S50000x128_S128x128_S50000x128_1_0_0_1_n_n none X W) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₂))))) := by
  funext i
  have e1 := br_biasRow_apply (addf b₁ b₂) i
  have e2 := br_rowBias_apply b₁ i
  have e3 := br_rowBias_apply b₂ i
  have e4 := br_dot_apply X W i
  rw [br_leaky_apply (addf (addf A (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₁))) (addf (Host.dotGeneral (F := Ideal) Cert.ReferenceIdeal.dot_S50000x128_S128x128_S50000x128_1_0_0_1_n_n none X W) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₂)))) i]
  show r1_leaky ((A i + (∑ k : Fin 128, X (atRow i k) * W (atCol i k))) + (shapeCast Cert.KernelIdeal.S1x128 (addf b₁ b₂) Cert.KernelIdeal.Facts₀.shapeCasts_S128_S1x128) (atBias i))
    = r1_leaky ((A i + (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₁)) i) + ((Host.dotGeneral (F := Ideal) Cert.ReferenceIdeal.dot_S50000x128_S128x128_S50000x128_1_0_0_1_n_n none X W) i + (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b₂)) i))
  rw [e1, e2, e3, e4]
  exact br_hc_entry (A i) (∑ k : Fin 128, X (atRow i k) * W (atCol i k)) (b₁ (br_col i)) (b₂ (br_col i))

/-- The final layer: the contraction plus the bias vector as a one-row array, entry by entry, is the
    whole-array contraction plus the bias vector laid along every row. -/
theorem br_final (X : S50000x128.Idx → Ideal .f32) (W : S128x64.Idx → Ideal .f32) (b : S64.Idx → Ideal .f32) :
    (fun i => (∑ k : Fin 128, X (atRow64 i k) * W (atCol64 i k)) + (shapeCast Cert.KernelIdeal.S1x64 b Cert.KernelIdeal.Facts₀.shapeCasts_S64_S1x64) (atBias64 i))
      = addf (Host.dotGeneral (F := Ideal) Cert.ReferenceIdeal.dot_S50000x128_S128x64_S50000x64_1_0_0_1_n_n none X W) (broadcastInDim Cert.ReferenceIdeal.S50000x64 ![0, 1] Cert.ReferenceIdeal.Facts₀.bcast_S1x64_S50000x64_0_1 (broadcastInDim Cert.ReferenceIdeal.S1x64 ![1] Cert.ReferenceIdeal.Facts₀.bcast_S64_S1x64_1 b)) :=
  funext fun i => congrArg₂ (· + ·) (br_dot64_apply X W i).symm ((br_biasRow64_apply b i).trans (br_rowBias64_apply b i).symm)

end Cert.KernelIdeal.RegionValue

end
-- ==== Proof.Layer1.lean ====
/-
  The first hypergraph layer. The kernel's first region multiplies the node features by the layer's
  projection; the host then gathers each incidence's node row, adds it into its hyperedge, scales by
  the hyperedge's reciprocal count, gathers back along the incidences, adds into each node and scales
  by the node's reciprocal count: the same operations the reference applies to the same product. The
  second region adds the second projection of the features and the two biases, pre-added, and applies
  the leaky rectifier; the reference adds each bias to its own term first. The two agree because
  addition on the extended reals is commutative and associative.
-/
import proofs.«147182_j79147657330978_1_alg».proof.Proof.Lead
import proofs.«147182_j79147657330978_1_alg».proof.Proof.Region0
import proofs.«147182_j79147657330978_1_alg».proof.Proof.Region1
import proofs.«147182_j79147657330978_1_alg».proof.Proof.Bridge

set_option maxRecDepth 16384

noncomputable section

namespace Cert.KernelIdeal.Stages

open Cert.KernelIdeal Cert.KernelIdeal.Gen Cert.KernelIdeal.Fold Cert.KernelIdeal.RegionValue
open Cert.ReferenceIdeal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- Two bias vectors added and laid out as one row. -/
abbrev biasRow (b₁ b₂ : (⟨S128, .f32⟩ : BufTy).Contents (Elt Ideal)) : (⟨S1x128, .f32⟩ : BufTy).Contents (Elt Ideal) :=
  shapeCast S1x128 (addf (F := Ideal) (s := S128) (φ := .f32) b₁ b₂) Facts₀.shapeCasts_S128_S1x128

/-- Two weight arrays added. -/
abbrev weightSum (w₁ w₂ : (⟨S128x128, .f32⟩ : BufTy).Contents (Elt Ideal)) : (⟨S128x128, .f32⟩ : BufTy).Contents (Elt Ideal) :=
  addf (F := Ideal) (s := S128x128) (φ := .f32) w₁ w₂

/-- A vector of 64 entries laid out as one row. -/
abbrev outRow (b : (⟨S64, .f32⟩ : BufTy).Contents (Elt Ideal)) : (⟨S1x64, .f32⟩ : BufTy).Contents (Elt Ideal) :=
  shapeCast S1x64 b Facts₀.shapeCasts_S64_S1x64

/-- Argument 0 is untouched up to boundary 5. -/
theorem arg0_at5 : W5 m ρ c (Proc.devRef .tc main_arg0) = A0 m c :=
  ((keep0_4 m ρ c main_arg0 (by decide)).trans ((keep0_3 m ρ c main_arg0 (by decide)).trans ((keep0_2 m ρ c main_arg0 (by decide)).trans ((keep0_1 m ρ c main_arg0 (by decide)).trans (keep0 m ρ c main_arg0 (by decide))))))
/-- Argument 3 is untouched up to boundary 5. -/
theorem arg3_at5 : W5 m ρ c (Proc.devRef .tc main_arg3) = A3 m c :=
  ((keep0_4 m ρ c main_arg3 (by decide)).trans ((keep0_3 m ρ c main_arg3 (by decide)).trans ((keep0_2 m ρ c main_arg3 (by decide)).trans ((keep0_1 m ρ c main_arg3 (by decide)).trans (keep0 m ρ c main_arg3 (by decide))))))
/-- After the first region `main_v27` is the features times the first projection: the reference's product stage. -/
theorem st_v27 : W6 m ρ c (Proc.devRef .tc main_v27) = val_main_v4 (F := Ideal) (A0 m c) (A3 m c) :=
  (W6_arr m ρ c 2).trans ((region0_value_of (V5 m ρ) c (A0 m c) (A3 m c) (arg0_at5 m ρ c) (arg3_at5 m ρ c)).trans (br_dot (A0 m c) (A3 m c)))
/-- `main_v1` is untouched from boundary 5 to boundary 6. -/
theorem v1_at6 : W6 m ρ c (Proc.devRef .tc main_v1) = val_main_v1 (F := Ideal) (A2 m c) :=
  ((W6_of_ne m ρ c main_v1 (by decide))).trans (lead_v1 m ρ c)
/-- `main_v3` is untouched from boundary 5 to boundary 6. -/
theorem v3_at6 : W6 m ρ c (Proc.devRef .tc main_v3) = val_main_v3 (F := Ideal) (A2 m c) :=
  ((W6_of_ne m ρ c main_v3 (by decide))).trans (lead_v3 m ρ c)
/-- `main_v20` is untouched from boundary 5 to boundary 6. -/
theorem v20_at6 : W6 m ρ c (Proc.devRef .tc main_v20) = val_main_v45 (F := Ideal) (A2 m c) :=
  ((W6_of_ne m ρ c main_v20 (by decide))).trans (lead_v20 m ρ c)
/-- `main_v26` is untouched from boundary 5 to boundary 6. -/
theorem v26_at6 : W6 m ρ c (Proc.devRef .tc main_v26) = val_main_v32 (F := Ideal) (A2 m c) :=
  ((W6_of_ne m ρ c main_v26 (by decide))).trans (lead_v26 m ρ c)
/-- Argument 4 is untouched up to boundary 6. -/
theorem arg4_at6 : W6 m ρ c (Proc.devRef .tc main_arg4) = A4 m c :=
  ((W6_of_ne m ρ c main_arg4 (by decide)).trans ((keep0_4 m ρ c main_arg4 (by decide)).trans ((keep0_3 m ρ c main_arg4 (by decide)).trans ((keep0_2 m ρ c main_arg4 (by decide)).trans ((keep0_1 m ρ c main_arg4 (by decide)).trans (keep0 m ρ c main_arg4 (by decide)))))))
/-- Argument 6 is untouched up to boundary 6. -/
theorem arg6_at6 : W6 m ρ c (Proc.devRef .tc main_arg6) = A6 m c :=
  ((W6_of_ne m ρ c main_arg6 (by decide)).trans ((keep0_4 m ρ c main_arg6 (by decide)).trans ((keep0_3 m ρ c main_arg6 (by decide)).trans ((keep0_2 m ρ c main_arg6 (by decide)).trans ((keep0_1 m ρ c main_arg6 (by decide)).trans (keep0 m ρ c main_arg6 (by decide)))))))
/-- The first layer's aggregate, as the reference computes it. -/
theorem st_v51 : W7 m ρ c (Proc.devRef .tc main_v51) = val_main_v47 (F := Ideal) (A0 m c) (A2 m c) (A3 m c) := by
  show StableHlo.after hostOps1 (W6 m ρ c) (Proc.devRef .tc main_v51) = _
  after_results_simp
  rw [st_v27 m ρ c, v1_at6 m ρ c, v3_at6 m ρ c, v20_at6 m ρ c, v26_at6 m ρ c]
  simp only [val_main_v47, val_main_v44, val_main_v42, val_main_cst_12, val_main_v43, val_main_v1, val_main_v0, val_main_v41, val_main_v34, val_main_v31, val_main_v29, val_main_cst_9, val_main_v30, val_main_v3, val_main_v2, val_main_v28, val_main_v27, val_main_v26, val_main_v23, val_main_v22, val_main_c, val_main_v25, val_main_v24, val_main_c_8, val_main_v33, val_main_v32, val_main_v21, val_main_v18, val_main_v11, val_main_v9, val_main_cst_1, val_main_v10, val_main_v5, val_main_cst, val_main_v17, val_main_cst_5, val_main_v20, val_main_v19, val_main_cst_6, val_main_call1_v1, val_main_call1_v0, val_main_cst_7, val_main_v40, val_main_v39, val_main_v36, val_main_v35, val_main_c_10, val_main_v38, val_main_v37, val_main_c_11, val_main_v46, val_main_v45, val_main_v16, val_main_v13, val_main_v8, val_main_v6, val_main_cst_0, val_main_v7, val_main_v12, val_main_cst_2, val_main_v15, val_main_v14, val_main_cst_3, val_main_call0_v1, val_main_call0_v0, val_main_cst_4, val_main_v123, val_main_v122, val_main_v125, val_main_v124] <;> rfl
/-- The two biases of the first layer, added and laid out as one row. -/
theorem st_v53 : W7 m ρ c (Proc.devRef .tc main_v53) = biasRow (A4 m c) (A6 m c) := by
  show StableHlo.after hostOps1 (W6 m ρ c) (Proc.devRef .tc main_v53) = _
  after_results_simp
  rw [arg4_at6 m ρ c, arg6_at6 m ρ c] <;> rfl
/-- Argument 0 is untouched up to boundary 7. -/
theorem arg0_at7 : W7 m ρ c (Proc.devRef .tc main_arg0) = A0 m c :=
  ((keep1 m ρ c main_arg0 (by decide)).trans (((W6_arr m ρ c 0).trans (((dat0 (V5 m ρ) c).arrAt_in 0 rfl _).trans (A_eq0 (V5 m ρ) c 0))).trans ((keep0_4 m ρ c main_arg0 (by decide)).trans ((keep0_3 m ρ c main_arg0 (by decide)).trans ((keep0_2 m ρ c main_arg0 (by decide)).trans ((keep0_1 m ρ c main_arg0 (by decide)).trans (keep0 m ρ c main_arg0 (by decide))))))))
/-- Argument 5 is untouched up to boundary 7. -/
theorem arg5_at7 : W7 m ρ c (Proc.devRef .tc main_arg5) = A5 m c :=
  ((keep1 m ρ c main_arg5 (by decide)).trans ((W6_of_ne m ρ c main_arg5 (by decide)).trans ((keep0_4 m ρ c main_arg5 (by decide)).trans ((keep0_3 m ρ c main_arg5 (by decide)).trans ((keep0_2 m ρ c main_arg5 (by decide)).trans ((keep0_1 m ρ c main_arg5 (by decide)).trans (keep0 m ρ c main_arg5 (by decide))))))))
/-- After the second region `main_v54` is the first layer's output, the reference's stage. -/
theorem st_v54 : W8 m ρ c (Proc.devRef .tc main_v54) = val_main_v60 (F := Ideal) (A0 m c) (A2 m c) (A3 m c) (A4 m c) (A5 m c) (A6 m c) := by
  refine (W8_arr m ρ c 4).trans ((r1_value (V7 m ρ) c).trans ?_)
  rw [show V7 m ρ c (Pipeline.arrRef spec1 0) = _ from st_v51 m ρ c, show V7 m ρ c (Pipeline.arrRef spec1 1) = _ from arg0_at7 m ρ c,
    show V7 m ρ c (Pipeline.arrRef spec1 2) = _ from arg5_at7 m ρ c, show V7 m ρ c (Pipeline.arrRef spec1 3) = _ from st_v53 m ρ c]
  refine (br_hc _ (A0 m c) (A5 m c) (A4 m c) (A6 m c)).trans ?_
  simp only [val_main_v60, val_main_v57, val_main_v55, val_main_v50, val_main_v49, val_main_v48, val_main_v54, val_main_v53, val_main_v52, val_main_v56, val_main_cst_13, val_main_v59, val_main_v58, val_main_cst_14, val_main_v51] <;> rfl
end Cert.KernelIdeal.Stages

end
-- ==== Proof.Region2.lean ====
/-
  The second dense product of the network: the features after the first layer [50000, 128] times
  the second layer's weight matrix [128, 128], without bias. As in the first product, grid point t
  takes rows 5000·t … 5000·t + 4999 of the features and the whole weight matrix, multiplies them
  (a reshape to the same shape and the narrowing casts are the identity, the accumulator starts at
  zero), and writes the block back to the same rows of the result; the ten row blocks tile the
  result, so the result array is the whole matrix product, entry by entry.
-/
import proofs.«147182_j79147657330978_1_alg».proof.Proof.Gen.KernelIdeal.Frame
import proofs.«147182_j79147657330978_1_alg».proof.Proof.RegionIdx
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-! ## One row block times the weight matrix, at an entry -/

/-- Entry (row of j, column k) of a [5000, 128] row block. -/
abbrev r2_blockRow (j : S5000x128.Idx) (k : Fin 128) : S5000x128.Idx := fun a => match a with
  | ⟨0, _⟩ => ⟨(j 0).val, (j 0).isLt⟩
  | ⟨1, _⟩ => ⟨k.val, k.isLt⟩

/-- Entry (row k, column of j) of the [128, 128] weight matrix. -/
abbrev r2_blockCol (j : S5000x128.Idx) (k : Fin 128) : S128x128.Idx := fun a => match a with
  | ⟨0, _⟩ => ⟨k.val, k.isLt⟩
  | ⟨1, _⟩ => ⟨(j 1).val, (j 1).isLt⟩

/-- The left factor of the contraction keeps the row of the output entry … -/
theorem r2_lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs over the shared position along its columns. -/
theorem r2_lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- The right factor runs over the shared position along its rows … -/
theorem r2_rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- … and keeps the column of the output entry. -/
theorem r2_rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What one grid point computes from its two loaded blocks, at entry j of the block: the sum over
    the 128 shared positions of the products. -/
theorem r2_blockProduct_apply (x : Vec Ideal S5000x128 .f32) (w : Vec Ideal S128x128 .f32) (j : S5000x128.Idx) :
    Gen.k2_pay1 (F := Ideal) x w j = ∑ k : Fin 128, x (r2_blockRow j k) * w (r2_blockCol j k) := by
  have hs : shapeCast S5000x128 x shapeCasts_S5000x128_S5000x128 = x := shapeCast_self x _
  unfold Gen.k2_pay1
  refine (Ideal.matmul_constant_zero_apply dot_S5000x128_S128x128_S5000x128_1_0_0_1_n_n none
    (truncf .bf16 (shapeCast S5000x128 x shapeCasts_S5000x128_S5000x128) bitsLt_bf16_f32) (truncf .bf16 w bitsLt_bf16_f32) j).trans ?_
  rw [hs]
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = r2_blockRow j k := funext fun a => Fin.ext (by
    match a with
    | ⟨0, _⟩ => exact r2_lhs_row _ _
    | ⟨1, _⟩ => exact (r2_lhs_col _ _).trans hk)
  have er : dot_S5000x128_S128x128_S5000x128_1_0_0_1_n_n.rhsIdx j ((ValueIdx.contrEquiv1 dot_S5000x128_S128x128_S5000x128_1_0_0_1_n_n 128 rfl rfl).symm k) = r2_blockCol j k := funext fun a => Fin.ext (by
    match a with
    | ⟨0, _⟩ => exact (r2_rhs_row _ _).trans hk
    | ⟨1, _⟩ => exact r2_rhs_col _ _)
  show x _ * w _ = _
  rw [el, er]

/-! ## From the ten row blocks to the whole array -/

variable (V : (c : Dev nD) → (b : Ref sig .tc) → Buf (Elt Ideal) ((c : Thread nD τ).loc b))

theorem r2_zeroOffsets : (![0, 0] : Fin 2 → Nat) = fun _ => 0 := funext fun a => by fin_cases a <;> rfl

/-- Where each window's block sits at grid point t: the feature rows and the result rows move with
    t, the weight matrix stays whole. -/
theorem r2_blockPositions : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The matrix product of two whole arrays, entry by entry. -/
abbrev r2_product (X : S50000x128.Idx → EReal) (W : S128x128.Idx → EReal) : S50000x128.Idx → EReal :=
  fun i => ∑ k : Fin 128, X (atRow i k) * W (atCol i k)

/-- A product of two entries read at equal positions. -/
theorem r2_entry_congr (X : S50000x128.Idx → EReal) (W : S128x128.Idx → EReal) {p p' : S50000x128.Idx} {q q' : S128x128.Idx}
    (hp : p = p') (hq : q = q') : X p * W q = X p' * W q' := by rw [hp, hq]

/-- What grid point t writes back is block t of the whole product. -/
theorem r2_pointWritesBlock (c : Dev nD) (t : Fin cfg2.N) :
    (dat2 (F := Ideal) V c).flushed 2 t
      = ((cfg2.win 2).blk t).view.read (Elt Ideal) (r2_product (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero r2_zeroOffsets]
  simp only [View.ld_unit_zero (S := S5000x128) r2_zeroOffsets, View.ld_unit_zero (S := S128x128) r2_zeroOffsets]
  obtain ⟨e00, e01, e10, e11, e20, e21⟩ := r2_blockPositions t
  funext j
  show k2_pay1 (F := Ideal) (iblk2 V c 0 t) (iblk2 V c 1 t) j = r2_product (V c (Pipeline.arrRef spec2 0)) (V c (Pipeline.arrRef spec2 1)) (((cfg2.win 2).blk t).view.emb j)
  refine (r2_blockProduct_apply (iblk2 V c 0 t) (iblk2 V c 1 t) j).trans ?_
  refine Finset.sum_congr rfl fun k _ => ?_
  have hx : ((cfg2.win 0).blk t).view.emb (r2_blockRow j k) = atRow (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (r2_blockCol j k) = atCol (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact r2_entry_congr (V c (Pipeline.arrRef spec2 0)) (V c (Pipeline.arrRef spec2 1)) hx hw

/-- An entry of the result is in point t's block iff each coordinate is in the block's range. -/
theorem r2_inBlock_iff (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v55).slice (win2_2.rect t)).set ↔ _
  rw [View.set_slice_whole, Rect.mem_set_unit]
  exact Iff.rfl

/-- Every entry of the result is in some point's block: row r is in block r / 5000. -/
theorem r2_rowsCovered (i : S50000x128.Idx) :
    ∃ t : Fin cfg2.N, (cfg2.win 2).flush t = true ∧ i ∈ ((cfg2.win 2).blk t).view.set := by
  have hN : cfg2.N = 10 := N_2
  have hi0 : (i 0).val < 50000 := (i 0).isLt
  have hi1 : (i 1).val < 128 := (i 1).isLt
  let t : Fin cfg2.N := ⟨(i 0).val / 5000, by omega⟩
  obtain ⟨e00, e01, e10, e11, e20, e21⟩ := r2_blockPositions t
  have ht : t.val = (i 0).val / 5000 := rfl
  refine ⟨t, flush2_2 t, ?_⟩
  rw [r2_inBlock_iff]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the ten points: the product of the feature array and the weight array
    as the region found them, entry by entry. -/
theorem region2_value (c : Dev nD) :
    (dat2 (F := Ideal) V c).arrAt 2 cfg2.N = r2_product (V c (Pipeline.arrRef spec2 0)) (V c (Pipeline.arrRef spec2 1)) :=
  (dat2 (F := Ideal) V c).arrAt_eq_of_cover 2 (r2_product (V c (Pipeline.arrRef spec2 0)) (V c (Pipeline.arrRef spec2 1)))
    (fun t _ => r2_pointWritesBlock V c t) r2_rowsCovered

/-- The same with the two arrays named: whatever the feature array X and the weight array W are
    known to be when the region is entered, the result is their product. -/
theorem region2_value_of (c : Dev nD) (X : S50000x128.Idx → EReal) (W : S128x128.Idx → EReal)
    (hX : V c (Pipeline.arrRef spec2 0) = X) (hW : V c (Pipeline.arrRef spec2 1) = W) :
    (dat2 (F := Ideal) V c).arrAt 2 cfg2.N = fun i => ∑ k : Fin 128, X (atRow i k) * W (atCol i k) := by
  subst hX hW
  exact region2_value V c

end Cert.KernelIdeal.RegionValue

end
-- ==== Proof.Region3.lean ====
/-
  The second fused hypergraph-convolution layer, read as one function of its input arrays.

  The layer is computed at ten grid points; point t handles rows 5000 t … 5000 t + 4999. At point t
  the body loads those rows of the aggregate and of the features, all of the weights and the whole
  bias row, and writes those rows of the result. An entry of the result in row r is therefore written
  exactly once, by point r / 5000, and what is written is the layer's formula at that entry of the
  arrays as the layer finds them: the ten blocks are restrictions of one function, and the result
  array ends holding it.
-/
import proofs.«147182_j79147657330978_1_alg».proof.Proof.DenseBlock
import proofs.«147182_j79147657330978_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block index maps over the grid: at point t the row-blocked arrays are at row block t, the
    weights and the bias at their one block. -/
theorem r3_idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- The aggregate's block at point t holds rows 5000 t … 5000 t + 4999 of the aggregate. -/
theorem r3_read0 (c : Dev nD) (t : Fin cfg3.N) (y : S5000x128.Idx) (i : S50000x128.Idx)
    (h0 : (i 0).val = t.val * 5000 + (y 0).val) (h1 : (i 1).val = (y 1).val) :
    (iblk3 (F := Ideal) V c 0 t : FVec Ideal S5000x128 .f32) y = (V c (Pipeline.arrRef spec3 0) : S50000x128.Idx → Ideal .f32) i := by
  obtain ⟨e00, e01, e10, e11, e20, e21, e30, e31, e40, e41⟩ := r3_idx_facts t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * (y 0).val = (i 0).val; rw [e00, h0]; omega
  | ⟨1, _⟩ => show win3_0.index t (1 : Fin 2) * 128 + 1 * (y 1).val = (i 1).val; rw [e01, h1]; omega

/-- The features' block at point t holds the same rows of the features. -/
theorem r3_read1 (c : Dev nD) (t : Fin cfg3.N) (y : S5000x128.Idx) (i : S50000x128.Idx)
    (h0 : (i 0).val = t.val * 5000 + (y 0).val) (h1 : (i 1).val = (y 1).val) :
    (iblk3 (F := Ideal) V c 1 t : FVec Ideal S5000x128 .f32) y = (V c (Pipeline.arrRef spec3 1) : S50000x128.Idx → Ideal .f32) i := by
  obtain ⟨e00, e01, e10, e11, e20, e21, e30, e31, e40, e41⟩ := r3_idx_facts t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * (y 0).val = (i 0).val; rw [e10, h0]; omega
  | ⟨1, _⟩ => show win3_1.index t (1 : Fin 2) * 128 + 1 * (y 1).val = (i 1).val; rw [e11, h1]; omega

/-- The weights' block at every point is the whole array of weights. -/
theorem r3_read2 (c : Dev nD) (t : Fin cfg3.N) (y : S128x128.Idx) (i : S128x128.Idx)
    (h0 : (i 0).val = (y 0).val) (h1 : (i 1).val = (y 1).val) :
    (iblk3 (F := Ideal) V c 2 t : FVec Ideal S128x128 .f32) y = (V c (Pipeline.arrRef spec3 2) : S128x128.Idx → Ideal .f32) i := by
  obtain ⟨e00, e01, e10, e11, e20, e21, e30, e31, e40, e41⟩ := r3_idx_facts t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * (y 0).val = (i 0).val; rw [e20, h0]; omega
  | ⟨1, _⟩ => show win3_2.index t (1 : Fin 2) * 128 + 1 * (y 1).val = (i 1).val; rw [e21, h1]; omega

/-- The bias' block at every point is the whole bias row. -/
theorem r3_read3 (c : Dev nD) (t : Fin cfg3.N) (y : S1x128.Idx) (i : S1x128.Idx)
    (h0 : (i 0).val = (y 0).val) (h1 : (i 1).val = (y 1).val) :
    (iblk3 (F := Ideal) V c 3 t : FVec Ideal S1x128 .f32) y = (V c (Pipeline.arrRef spec3 3) : S1x128.Idx → Ideal .f32) i := by
  obtain ⟨e00, e01, e10, e11, e20, e21, e30, e31, e40, e41⟩ := r3_idx_facts t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (y 0).val = (i 0).val; rw [e30, h0]; omega
  | ⟨1, _⟩ => show win3_3.index t (1 : Fin 2) * 128 + 1 * (y 1).val = (i 1).val; rw [e31, h1]; omega

/-- What point t writes back is block t of the layer's function of the arrays the layer finds. -/
theorem r3_flushed_eq (c : Dev nD) (t : Fin cfg3.N) :
    (dat3 (F := Ideal) V c).flushed 4 t = ((cfg3.win 4).blk t).view.read (Elt Ideal)
      (r1_hcLayer (V c (Pipeline.arrRef spec3 0)) (V c (Pipeline.arrRef spec3 1)) (V c (Pipeline.arrRef spec3 2)) (V c (Pipeline.arrRef spec3 3))) := by
  show (cfg3.win 4).cut (grid3.coords t) ((dat3 (F := Ideal) V c).after 4 t) = _
  rw [after3_4]
  unfold out3_4
  rw [View.canon_unit_zero r1_hz]
  simp only [View.ld_unit_zero (S := S5000x128) r1_hz, View.ld_unit_zero (S := S128x128) r1_hz, View.ld_unit_zero (S := S1x128) r1_hz]
  obtain ⟨e00, e01, e10, e11, e20, e21, e30, e31, e40, e41⟩ := r3_idx_facts t
  funext j
  have hi0 : ((((cfg3.win 4).blk t).view.emb j) 0).val = t.val * 5000 + (j 0).val := by
    show win3_4.index t (0 : Fin 2) * 5000 + 1 * (j 0).val = _
    rw [e40]; omega
  have hi1 : ((((cfg3.win 4).blk t).view.emb j) 1).val = (j 1).val := by
    show win3_4.index t (1 : Fin 2) * 128 + 1 * (j 1).val = _
    rw [e41]; omega
  show k3_pay1 (F := Ideal) (iblk3 V c 1 t) (iblk3 V c 2 t) (iblk3 V c 0 t) (iblk3 V c 3 t) j
      = r1_hcLayer (V c (Pipeline.arrRef spec3 0)) (V c (Pipeline.arrRef spec3 1)) (V c (Pipeline.arrRef spec3 2)) (V c (Pipeline.arrRef spec3 3)) (((cfg3.win 4).blk t).view.emb j)
  refine (r3_pay_at (iblk3 V c 1 t) (iblk3 V c 2 t) (iblk3 V c 0 t) (iblk3 V c 3 t) j).trans ?_
  refine congrArg r1_leaky ?_
  refine congrArg₂ (· + ·) (congrArg₂ (· + ·) (r3_read0 V c t j _ hi0 hi1) (Finset.sum_congr rfl fun k _ => ?_)) (r3_read3 V c t (r1_biasIn j) _ rfl hi1)
  exact congrArg₂ (· * ·) (r3_read1 V c t (r1_rowIn j k) _ hi0 rfl) (r3_read2 V c t (r1_colIn j k) _ rfl hi1)

/-- An entry of the result array is in point t's block iff its row is among the block's 5000 rows. -/
theorem r3_mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v82).slice (win3_4.rect t)).set ↔ _
  rw [View.set_slice_whole, Rect.mem_set_unit]
  exact Iff.rfl

/-- Every entry of the result array is written back by the point of its row block: row r by point r / 5000. -/
theorem r3_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  have ht : (i 0).val / 5000 < grid3.N := by rw [hN]; omega
  obtain ⟨e00, e01, e10, e11, e20, e21, e30, e31, e40, e41⟩ := r3_idx_facts ⟨(i 0).val / 5000, ht⟩
  refine ⟨⟨(i 0).val / 5000, ht⟩, flush3_4 _, ?_⟩
  rw [r3_mem_blk]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    rw [e41]
    omega

/-- THE RESULT ARRAY of the second fused hypergraph-convolution layer: the layer's function of the arrays the layer finds. -/
theorem r3_value (c : Dev nD) :
    (dat3 (F := Ideal) V c).arrAt 4 cfg3.N
      = r1_hcLayer (V c (Pipeline.arrRef spec3 0)) (V c (Pipeline.arrRef spec3 1)) (V c (Pipeline.arrRef spec3 2)) (V c (Pipeline.arrRef spec3 3)) :=
  (dat3 (F := Ideal) V c).arrAt_eq_of_cover 4
    (r1_hcLayer (V c (Pipeline.arrRef spec3 0)) (V c (Pipeline.arrRef spec3 1)) (V c (Pipeline.arrRef spec3 2)) (V c (Pipeline.arrRef spec3 3)))
    (fun t _ => r3_flushed_eq V c t) r3_cover

end Cert.KernelIdeal.RegionValue

end
-- ==== Proof.Layer2.lean ====
/-
  The second hypergraph layer: the first layer's reading repeated on the first layer's output. The
  reference cuts the index rows and counts the incidences afresh inside the layer; those stages are the
  same operations on the same index array as the ones the kernel computed once, so the two aggregates
  are one term.
-/
import proofs.«147182_j79147657330978_1_alg».proof.Proof.Layer1
import proofs.«147182_j79147657330978_1_alg».proof.Proof.Region2
import proofs.«147182_j79147657330978_1_alg».proof.Proof.Region3

set_option maxRecDepth 16384

noncomputable section

namespace Cert.KernelIdeal.Stages

open Cert.KernelIdeal Cert.KernelIdeal.Gen Cert.KernelIdeal.Fold Cert.KernelIdeal.RegionValue
open Cert.ReferenceIdeal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- Argument 7 is untouched up to boundary 8. -/
theorem arg7_at8 : W8 m ρ c (Proc.devRef .tc main_arg7) = A7 m c :=
  ((W8_of_ne m ρ c main_arg7 (by decide)).trans ((keep1 m ρ c main_arg7 (by decide)).trans ((W6_of_ne m ρ c main_arg7 (by decide)).trans ((keep0_4 m ρ c main_arg7 (by decide)).trans ((keep0_3 m ρ c main_arg7 (by decide)).trans ((keep0_2 m ρ c main_arg7 (by decide)).trans ((keep0_1 m ρ c main_arg7 (by decide)).trans (keep0 m ρ c main_arg7 (by decide)))))))))
/-- After the third region `main_v55` is the first layer's output times the second layer's projection. -/
theorem st_v55 : W9 m ρ c (Proc.devRef .tc main_v55) = val_main_v65 (F := Ideal) (A0 m c) (A2 m c) (A3 m c) (A4 m c) (A5 m c) (A6 m c) (A7 m c) :=
  (W9_arr m ρ c 2).trans ((region2_value_of (V8 m ρ) c _ (A7 m c) (st_v54 m ρ c) (arg7_at8 m ρ c)).trans (br_dot _ (A7 m c)))
/-- `main_v1` is untouched from boundary 5 to boundary 9. -/
theorem v1_at9 : W9 m ρ c (Proc.devRef .tc main_v1) = val_main_v1 (F := Ideal) (A2 m c) :=
  (((W9_of_ne m ρ c main_v1 (by decide)).trans ((W8_of_ne m ρ c main_v1 (by decide)).trans ((keep1 m ρ c main_v1 (by decide)).trans (W6_of_ne m ρ c main_v1 (by decide)))))).trans (lead_v1 m ρ c)
/-- `main_v3` is untouched from boundary 5 to boundary 9. -/
theorem v3_at9 : W9 m ρ c (Proc.devRef .tc main_v3) = val_main_v3 (F := Ideal) (A2 m c) :=
  (((W9_of_ne m ρ c main_v3 (by decide)).trans ((W8_of_ne m ρ c main_v3 (by decide)).trans ((keep1 m ρ c main_v3 (by decide)).trans (W6_of_ne m ρ c main_v3 (by decide)))))).trans (lead_v3 m ρ c)
/-- `main_v20` is untouched from boundary 5 to boundary 9. -/
theorem v20_at9 : W9 m ρ c (Proc.devRef .tc main_v20) = val_main_v45 (F := Ideal) (A2 m c) :=
  (((W9_of_ne m ρ c main_v20 (by decide)).trans ((W8_of_ne m ρ c main_v20 (by decide)).trans ((keep1 m ρ c main_v20 (by decide)).trans (W6_of_ne m ρ c main_v20 (by decide)))))).trans (lead_v20 m ρ c)
/-- `main_v26` is untouched from boundary 5 to boundary 9. -/
theorem v26_at9 : W9 m ρ c (Proc.devRef .tc main_v26) = val_main_v32 (F := Ideal) (A2 m c) :=
  (((W9_of_ne m ρ c main_v26 (by decide)).trans ((W8_of_ne m ρ c main_v26 (by decide)).trans ((keep1 m ρ c main_v26 (by decide)).trans (W6_of_ne m ρ c main_v26 (by decide)))))).trans (lead_v26 m ρ c)
/-- Argument 8 is untouched up to boundary 9. -/
theorem arg8_at9 : W9 m ρ c (Proc.devRef .tc main_arg8) = A8 m c :=
  ((W9_of_ne m ρ c main_arg8 (by decide)).trans ((W8_of_ne m ρ c main_arg8 (by decide)).trans ((keep1 m ρ c main_arg8 (by decide)).trans ((W6_of_ne m ρ c main_arg8 (by decide)).trans ((keep0_4 m ρ c main_arg8 (by decide)).trans ((keep0_3 m ρ c main_arg8 (by decide)).trans ((keep0_2 m ρ c main_arg8 (by decide)).trans ((keep0_1 m ρ c main_arg8 (by decide)).trans (keep0 m ρ c main_arg8 (by decide))))))))))
/-- Argument 10 is untouched up to boundary 9. -/
theorem arg10_at9 : W9 m ρ c (Proc.devRef .tc main_arg10) = A10 m c :=
  ((W9_of_ne m ρ c main_arg10 (by decide)).trans ((W8_of_ne m ρ c main_arg10 (by decide)).trans ((keep1 m ρ c main_arg10 (by decide)).trans ((W6_of_ne m ρ c main_arg10 (by decide)).trans ((keep0_4 m ρ c main_arg10 (by decide)).trans ((keep0_3 m ρ c main_arg10 (by decide)).trans ((keep0_2 m ρ c main_arg10 (by decide)).trans ((keep0_1 m ρ c main_arg10 (by decide)).trans (keep0 m ρ c main_arg10 (by decide))))))))))
/-- The second layer's aggregate, as the reference computes it. -/
theorem st_v79 : W10 m ρ c (Proc.devRef .tc main_v79) = val_main_v108 (F := Ideal) (A0 m c) (A2 m c) (A3 m c) (A4 m c) (A5 m c) (A6 m c) (A7 m c) := by
  show StableHlo.after hostOps3 (W9 m ρ c) (Proc.devRef .tc main_v79) = _
  after_results_simp
  rw [st_v55 m ρ c, v1_at9 m ρ c, v3_at9 m ρ c, v20_at9 m ρ c, v26_at9 m ρ c]
  simp only [val_main_v108, val_main_v105, val_main_v103, val_main_cst_29, val_main_v104, val_main_v62, val_main_v61, val_main_v102, val_main_v95, val_main_v92, val_main_v90, val_main_cst_26, val_main_v91, val_main_v64, val_main_v63, val_main_v89, val_main_v88, val_main_v87, val_main_v84, val_main_v83, val_main_c_24, val_main_v86, val_main_v85, val_main_c_25, val_main_v94, val_main_v93, val_main_v82, val_main_v79, val_main_v72, val_main_v70, val_main_cst_17, val_main_v71, val_main_v66, val_main_cst_15, val_main_v78, val_main_cst_21, val_main_v81, val_main_v80, val_main_cst_22, val_main_call4_v1, val_main_call4_v0, val_main_cst_23, val_main_v101, val_main_v100, val_main_v97, val_main_v96, val_main_c_27, val_main_v99, val_main_v98, val_main_c_28, val_main_v107, val_main_v106, val_main_v77, val_main_v74, val_main_v69, val_main_v67, val_main_cst_16, val_main_v68, val_main_v73, val_main_cst_18, val_main_v76, val_main_v75, val_main_cst_19, val_main_call3_v1, val_main_call3_v0, val_main_cst_20, val_main_v45, val_main_v16, val_main_v13, val_main_v8, val_main_v6, val_main_cst_0, val_main_v7, val_main_v1, val_main_v0, val_main_v5, val_main_cst, val_main_v12, val_main_cst_2, val_main_v15, val_main_v14, val_main_cst_3, val_main_call0_v1, val_main_call0_v0, val_main_cst_4, val_main_v32, val_main_v21, val_main_v18, val_main_v11, val_main_v9, val_main_cst_1, val_main_v10, val_main_v3, val_main_v2, val_main_v17, val_main_cst_5, val_main_v20, val_main_v19, val_main_cst_6, val_main_call1_v1, val_main_call1_v0, val_main_cst_7, val_main_v123, val_main_v122, val_main_v125, val_main_v124] <;> rfl
/-- The two biases of the second layer, added and laid out as one row. -/
theorem st_v81 : W10 m ρ c (Proc.devRef .tc main_v81) = biasRow (A8 m c) (A10 m c) := by
  show StableHlo.after hostOps3 (W9 m ρ c) (Proc.devRef .tc main_v81) = _
  after_results_simp
  rw [arg8_at9 m ρ c, arg10_at9 m ρ c] <;> rfl
/-- `main_v54` is untouched from boundary 8 to boundary 10. -/
theorem v54_at10 : W10 m ρ c (Proc.devRef .tc main_v54) = val_main_v60 (F := Ideal) (A0 m c) (A2 m c) (A3 m c) (A4 m c) (A5 m c) (A6 m c) :=
  (((keep3 m ρ c main_v54 (by decide)).trans ((W9_arr m ρ c 0).trans (((dat2 (V8 m ρ) c).arrAt_in 0 rfl _).trans (A_eq2 (V8 m ρ) c 0))))).trans (st_v54 m ρ c)
/-- Argument 9 is untouched up to boundary 10. -/
theorem arg9_at10 : W10 m ρ c (Proc.devRef .tc main_arg9) = A9 m c :=
  ((keep3 m ρ c main_arg9 (by decide)).trans ((W9_of_ne m ρ c main_arg9 (by decide)).trans ((W8_of_ne m ρ c main_arg9 (by decide)).trans ((keep1 m ρ c main_arg9 (by decide)).trans ((W6_of_ne m ρ c main_arg9 (by decide)).trans ((keep0_4 m ρ c main_arg9 (by decide)).trans ((keep0_3 m ρ c main_arg9 (by decide)).trans ((keep0_2 m ρ c main_arg9 (by decide)).trans ((keep0_1 m ρ c main_arg9 (by decide)).trans (keep0 m ρ c main_arg9 (by decide)))))))))))
/-- After the fourth region `main_v82` is the second layer's output, the reference's stage. -/
theorem st_v82 : W11 m ρ c (Proc.devRef .tc main_v82) = val_main_v121 (F := Ideal) (A0 m c) (A2 m c) (A3 m c) (A4 m c) (A5 m c) (A6 m c) (A7 m c) (A8 m c) (A9 m c) (A10 m c) := by
  refine (W11_arr m ρ c 4).trans ((r3_value (V10 m ρ) c).trans ?_)
  rw [show V10 m ρ c (Pipeline.arrRef spec3 0) = _ from st_v79 m ρ c, show V10 m ρ c (Pipeline.arrRef spec3 1) = _ from v54_at10 m ρ c,
    show V10 m ρ c (Pipeline.arrRef spec3 2) = _ from arg9_at10 m ρ c, show V10 m ρ c (Pipeline.arrRef spec3 3) = _ from st_v81 m ρ c]
  refine (br_hc _ _ (A9 m c) (A8 m c) (A10 m c)).trans ?_
  simp only [val_main_v121, val_main_v118, val_main_v116, val_main_v111, val_main_v110, val_main_v109, val_main_v115, val_main_v114, val_main_v113, val_main_v117, val_main_cst_30, val_main_v120, val_main_v119, val_main_cst_31, val_main_v112] <;> rfl
end Cert.KernelIdeal.Stages

end
-- ==== Proof.Region4.lean ====
/-
  The first fused graph-convolution layer, read as one function of its input arrays.

  The layer is computed at ten grid points; point t handles rows 5000 t … 5000 t + 4999. At point t
  the body loads those rows of the aggregate and of the features, all of both arrays of weights and the whole
  bias row, and writes those rows of the result. An entry of the result in row r is therefore written
  exactly once, by point r / 5000, and what is written is the layer's formula at that entry of the
  arrays as the layer finds them: the ten blocks are restrictions of one function, and the result
  array ends holding it.
-/
import proofs.«147182_j79147657330978_1_alg».proof.Proof.DenseBlock
import proofs.«147182_j79147657330978_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block index maps over the grid: at point t the row-blocked arrays are at row block t, the
    weights and the bias at their one block. -/
theorem r4_idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- The aggregate's block at point t holds rows 5000 t … 5000 t + 4999 of the aggregate. -/
theorem r4_read0 (c : Dev nD) (t : Fin cfg4.N) (y : S5000x128.Idx) (i : S50000x128.Idx)
    (h0 : (i 0).val = t.val * 5000 + (y 0).val) (h1 : (i 1).val = (y 1).val) :
    (iblk4 (F := Ideal) V c 0 t : FVec Ideal S5000x128 .f32) y = (V c (Pipeline.arrRef spec4 0) : S50000x128.Idx → Ideal .f32) i := by
  obtain ⟨e00, e01, e10, e11, e20, e21, e30, e31, e40, e41, e50, e51⟩ := r4_idx_facts t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * (y 0).val = (i 0).val; rw [e00, h0]; omega
  | ⟨1, _⟩ => show win4_0.index t (1 : Fin 2) * 128 + 1 * (y 1).val = (i 1).val; rw [e01, h1]; omega

/-- The features' block at point t holds the same rows of the features. -/
theorem r4_read1 (c : Dev nD) (t : Fin cfg4.N) (y : S5000x128.Idx) (i : S50000x128.Idx)
    (h0 : (i 0).val = t.val * 5000 + (y 0).val) (h1 : (i 1).val = (y 1).val) :
    (iblk4 (F := Ideal) V c 1 t : FVec Ideal S5000x128 .f32) y = (V c (Pipeline.arrRef spec4 1) : S50000x128.Idx → Ideal .f32) i := by
  obtain ⟨e00, e01, e10, e11, e20, e21, e30, e31, e40, e41, e50, e51⟩ := r4_idx_facts t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * (y 0).val = (i 0).val; rw [e10, h0]; omega
  | ⟨1, _⟩ => show win4_1.index t (1 : Fin 2) * 128 + 1 * (y 1).val = (i 1).val; rw [e11, h1]; omega

/-- The first weights' block at every point is the whole array. -/
theorem r4_read2 (c : Dev nD) (t : Fin cfg4.N) (y : S128x128.Idx) (i : S128x128.Idx)
    (h0 : (i 0).val = (y 0).val) (h1 : (i 1).val = (y 1).val) :
    (iblk4 (F := Ideal) V c 2 t : FVec Ideal S128x128 .f32) y = (V c (Pipeline.arrRef spec4 2) : S128x128.Idx → Ideal .f32) i := by
  obtain ⟨e00, e01, e10, e11, e20, e21, e30, e31, e40, e41, e50, e51⟩ := r4_idx_facts t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 128 + 1 * (y 0).val = (i 0).val; rw [e20, h0]; omega
  | ⟨1, _⟩ => show win4_2.index t (1 : Fin 2) * 128 + 1 * (y 1).val = (i 1).val; rw [e21, h1]; omega

/-- The second weights' block at every point is the whole array. -/
theorem r4_read3 (c : Dev nD) (t : Fin cfg4.N) (y : S128x128.Idx) (i : S128x128.Idx)
    (h0 : (i 0).val = (y 0).val) (h1 : (i 1).val = (y 1).val) :
    (iblk4 (F := Ideal) V c 3 t : FVec Ideal S128x128 .f32) y = (V c (Pipeline.arrRef spec4 3) : S128x128.Idx → Ideal .f32) i := by
  obtain ⟨e00, e01, e10, e11, e20, e21, e30, e31, e40, e41, e50, e51⟩ := r4_idx_facts t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 128 + 1 * (y 0).val = (i 0).val; rw [e30, h0]; omega
  | ⟨1, _⟩ => show win4_3.index t (1 : Fin 2) * 128 + 1 * (y 1).val = (i 1).val; rw [e31, h1]; omega

/-- The bias' block at every point is the whole bias row. -/
theorem r4_read4 (c : Dev nD) (t : Fin cfg4.N) (y : S1x128.Idx) (i : S1x128.Idx)
    (h0 : (i 0).val = (y 0).val) (h1 : (i 1).val = (y 1).val) :
    (iblk4 (F := Ideal) V c 4 t : FVec Ideal S1x128 .f32) y = (V c (Pipeline.arrRef spec4 4) : S1x128.Idx → Ideal .f32) i := by
  obtain ⟨e00, e01, e10, e11, e20, e21, e30, e31, e40, e41, e50, e51⟩ := r4_idx_facts t
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (y 0).val = (i 0).val; rw [e40, h0]; omega
  | ⟨1, _⟩ => show win4_4.index t (1 : Fin 2) * 128 + 1 * (y 1).val = (i 1).val; rw [e41, h1]; omega

/-- What point t writes back is block t of the layer's function of the arrays the layer finds. -/
theorem r4_flushed_eq (c : Dev nD) (t : Fin cfg4.N) :
    (dat4 (F := Ideal) V c).flushed 5 t = ((cfg4.win 5).blk t).view.read (Elt Ideal)
      (r4_gcLayer (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 (F := Ideal) V c).after 5 t) = _
  rw [after4_5]
  unfold out4_5
  rw [View.canon_unit_zero r1_hz]
  simp only [View.ld_unit_zero (S := S5000x128) r1_hz, View.ld_unit_zero (S := S128x128) r1_hz, View.ld_unit_zero (S := S1x128) r1_hz]
  obtain ⟨e00, e01, e10, e11, e20, e21, e30, e31, e40, e41, e50, e51⟩ := r4_idx_facts t
  funext j
  have hi0 : ((((cfg4.win 5).blk t).view.emb j) 0).val = t.val * 5000 + (j 0).val := by
    show win4_5.index t (0 : Fin 2) * 5000 + 1 * (j 0).val = _
    rw [e50]; omega
  have hi1 : ((((cfg4.win 5).blk t).view.emb j) 1).val = (j 1).val := by
    show win4_5.index t (1 : Fin 2) * 128 + 1 * (j 1).val = _
    rw [e51]; omega
  show k4_pay1 (F := Ideal) (iblk4 V c 0 t) (iblk4 V c 1 t) (iblk4 V c 2 t) (iblk4 V c 3 t) (iblk4 V c 4 t) j
      = r4_gcLayer (V c (Pipeline.arrRef spec4 0)) (V c (Pipeline.arrRef spec4 1)) (V c (Pipeline.arrRef spec4 2)) (V c (Pipeline.arrRef spec4 3)) (V c (Pipeline.arrRef spec4 4)) (((cfg4.win 5).blk t).view.emb j)
  refine (r4_pay_at (iblk4 V c 0 t) (iblk4 V c 1 t) (iblk4 V c 2 t) (iblk4 V c 3 t) (iblk4 V c 4 t) j).trans ?_
  refine congrArg r1_leaky ?_
  refine congrArg₂ (· + ·) (congrArg₂ (· + ·) (Finset.sum_congr rfl fun k _ => ?_) (Finset.sum_congr rfl fun k _ => ?_)) (r4_read4 V c t (r1_biasIn j) _ rfl hi1)
  · exact congrArg₂ (· * ·) (r4_read0 V c t (r1_rowIn j k) _ hi0 rfl) (r4_read2 V c t (r1_colIn j k) _ rfl hi1)
  · exact congrArg₂ (· * ·) (r4_read1 V c t (r1_rowIn j k) _ hi0 rfl) (r4_read3 V c t (r1_colIn j k) _ rfl hi1)

/-- An entry of the result array is in point t's block iff its row is among the block's 5000 rows. -/
theorem r4_mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v96).slice (win4_5.rect t)).set ↔ _
  rw [View.set_slice_whole, Rect.mem_set_unit]
  exact Iff.rfl

/-- Every entry of the result array is written back by the point of its row block: row r by point r / 5000. -/
theorem r4_cover (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : grid4.N = 10 := N_4
  have ht : (i 0).val / 5000 < grid4.N := by rw [hN]; omega
  obtain ⟨e00, e01, e10, e11, e20, e21, e30, e31, e40, e41, e50, e51⟩ := r4_idx_facts ⟨(i 0).val / 5000, ht⟩
  refine ⟨⟨(i 0).val / 5000, ht⟩, flush4_5 _, ?_⟩
  rw [r4_mem_blk]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win4_5.index ⟨(i 0).val / 5000, ht⟩ (1 : Fin 2) * 128 ≤ (i 1).val ∧ (i 1).val < win4_5.index ⟨(i 0).val / 5000, ht⟩ (1 : Fin 2) * 128 + 128
    rw [e51]
    omega

/-- THE RESULT ARRAY of the first fused graph-convolution layer: the layer's function of the arrays the layer finds. -/
theorem r4_value (c : Dev nD) :
    (dat4 (F := Ideal) V c).arrAt 5 cfg4.N
      = r4_gcLayer (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5
    (r4_gcLayer (V c (Pipeline.arrRef spec4 0)) (V c (Pipeline.arrRef spec4 1)) (V c (Pipeline.arrRef spec4 2)) (V c (Pipeline.arrRef spec4 3)) (V c (Pipeline.arrRef spec4 4)))
    (fun t _ => r4_flushed_eq V c t) r4_cover

end Cert.KernelIdeal.RegionValue

end
-- ==== Proof.PreFinite.lean ====
/-
  The precondition, read back. The predicate is the conjunction, over the float arrays x among the arguments,
  of "every entry of x satisfies |x| < +∞": an "and" over all the entries of an elementwise comparison of |x| with the
  constant whose bit pattern is that of +∞. Over the extended reals |x| = max x (-x), and max x (-x) < ⊤ excludes
  both x = ⊤ and x = ⊥ (whose negation is ⊤), so what is left is a real number. Hence: the predicate equal to "true"
  gives that every float argument array has only real entries. The two integer index arrays do not occur in the
  predicate and nothing is said of them.
-/
import proofs.«147182_j79147657330978_1_alg».proof.Defs
import proofs.«147182_j79147657330978_1_alg».proof.Proof.Gen.Pre_finite_inputs
import proofs.«147182_j79147657330978_1_alg».proof.Proof.FinDef
import Idealize.ShloMosaic.PureOps.Ideal
import Idealize.ShloMosaic.Lib.ReduceAll
import Idealize.ShloMosaic.Lib.ValueIdx

noncomputable section

namespace Cert.Hand.PreFinite

open Idealize.ShloMosaic Idealize.SL.Sem
open Cert.Pre_finite_inputs (S_ S50000x128 S2x800000 S128x128 S128 S128x64 S64)

/-- The scalar shape has exactly one index (there is no axis to give a coordinate on). -/
instance : Subsingleton S_.Idx := ⟨fun a b => funext fun d => d.elim0⟩

/-- One entry: if |x| < +∞ holds as a one-bit truth value, x is a real number. The pattern 0x7F800000 denotes ⊤;
    at x = ⊥ the absolute value max ⊥ ⊤ is ⊤ and at x = ⊤ it is ⊤ too, neither below ⊤. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- One array, any shape: if the "and" over all entries of (|x| < +∞) is true, every entry of x is real.
    An "and" over all entries that came out true met a true at every entry. -/
theorem isFin_of_all {s : Shape} {axes : List (Fin s.rank)} (x : FVec Ideal s .f32)
    (hb : S_.BroadcastsInDim s (![] : Fin 0 → Fin s.rank)) (hr : s.ReducesTo axes S_) (hS : 0 < S_.numel) (j : S_.Idx)
    (e : Host.reduce IntOp.andi
          (cmpf .olt (Host.absf x) (broadcastInDim s ![] hb (constant (F := Ideal) S_ .f32 0x7F800000#32)))
          (constantI S_ 1 1#1) hr hS j = 1#1) :
    IsFin x := fun i =>
  real_of_abs_lt_top (x i) (Host.reduce_andi_all _ _ hr hS j e i)

/-- The whole predicate over arbitrary arrays of the arguments' shapes: if it is true, each of the twenty-one float
    arrays is finite. The predicate is a left-nested "and" of the twenty-one per-array tests, in argument order;
    a one-bit "and" is true exactly when both sides are. -/
theorem fin_of_fn [Cert.Pre_finite_inputs.Facts]
    (a0 : FVec Ideal S50000x128 .f32) (a1 : IVec S2x800000 32) (a2 : IVec S2x800000 32)
    (a3 : FVec Ideal S128x128 .f32) (a4 : FVec Ideal S128 .f32) (a5 : FVec Ideal S128x128 .f32)
    (a6 : FVec Ideal S128 .f32) (a7 : FVec Ideal S128x128 .f32) (a8 : FVec Ideal S128 .f32)
    (a9 : FVec Ideal S128x128 .f32) (a10 : FVec Ideal S128 .f32) (a11 : FVec Ideal S128x128 .f32)
    (a12 : FVec Ideal S128 .f32) (a13 : FVec Ideal S128x128 .f32) (a14 : FVec Ideal S128x128 .f32)
    (a15 : FVec Ideal S128 .f32) (a16 : FVec Ideal S128x128 .f32) (a17 : FVec Ideal S128 .f32)
    (a18 : FVec Ideal S128x128 .f32) (a19 : FVec Ideal S128x128 .f32) (a20 : FVec Ideal S128 .f32)
    (a21 : FVec Ideal S128x64 .f32) (a22 : FVec Ideal S64 .f32)
    (h : Cert.Pre_finite_inputs.fn (F := Ideal) a0 a1 a2 a3 a4 a5 a6 a7 a8 a9 a10 a11
      a12 a13 a14 a15 a16 a17 a18 a19 a20 a21 a22 = (fun _ => 1#1)) :
    IsFin a0 ∧ IsFin a3 ∧ IsFin a4 ∧ IsFin a5 ∧ IsFin a6 ∧ IsFin a7 ∧ IsFin a8 ∧
    IsFin a9 ∧ IsFin a10 ∧ IsFin a11 ∧ IsFin a12 ∧ IsFin a13 ∧ IsFin a14 ∧ IsFin a15 ∧
    IsFin a16 ∧ IsFin a17 ∧ IsFin a18 ∧ IsFin a19 ∧ IsFin a20 ∧ IsFin a21 ∧ IsFin a22 := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, andi] at e
  simp only [IntOp.andi_eq_one] at e
  obtain ⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩ := e
  exact ⟨isFin_of_all _ _ _ _ _ h0, isFin_of_all _ _ _ _ _ h3, isFin_of_all _ _ _ _ _ h4,
    isFin_of_all _ _ _ _ _ h5, isFin_of_all _ _ _ _ _ h6, isFin_of_all _ _ _ _ _ h7,
    isFin_of_all _ _ _ _ _ h8, isFin_of_all _ _ _ _ _ h9, isFin_of_all _ _ _ _ _ h10,
    isFin_of_all _ _ _ _ _ h11, isFin_of_all _ _ _ _ _ h12, isFin_of_all _ _ _ _ _ h13,
    isFin_of_all _ _ _ _ _ h14, isFin_of_all _ _ _ _ _ h15, isFin_of_all _ _ _ _ _ h16,
    isFin_of_all _ _ _ _ _ h17, isFin_of_all _ _ _ _ _ h18, isFin_of_all _ _ _ _ _ h19,
    isFin_of_all _ _ _ _ _ h20, isFin_of_all _ _ _ _ _ h21, isFin_of_all _ _ _ _ _ h22⟩

/-- The idealized kernel's launch memory: under its precondition, on any device, every float argument array is finite
    (arguments 1 and 2 are the integer index arrays). -/
theorem fin_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsFin (m ((c.tc : Thread Cert.KernelIdeal.nD Cert.KernelIdeal.τ).loc Cert.KernelIdeal.main_arg0))
    ∧ IsFin (m ((c.tc : Thread Cert.KernelIdeal.nD Cert.KernelIdeal.τ).loc Cert.KernelIdeal.main_arg3))
    ∧ IsFin (m ((c.tc : Thread Cert.KernelIdeal.nD Cert.KernelIdeal.τ).loc Cert.KernelIdeal.main_arg4))
    ∧ IsFin (m ((c.tc : Thread Cert.KernelIdeal.nD Cert.KernelIdeal.τ).loc Cert.KernelIdeal.main_arg5))
    ∧ IsFin (m ((c.tc : Thread Cert.KernelIdeal.nD Cert.KernelIdeal.τ).loc Cert.KernelIdeal.main_arg6))
    ∧ IsFin (m ((c.tc : Thread Cert.KernelIdeal.nD Cert.KernelIdeal.τ).loc Cert.KernelIdeal.main_arg7))
    ∧ IsFin (m ((c.tc : Thread Cert.KernelIdeal.nD Cert.KernelIdeal.τ).loc Cert.KernelIdeal.main_arg8))
    ∧ IsFin (m ((c.tc : Thread Cert.KernelIdeal.nD Cert.KernelIdeal.τ).loc Cert.KernelIdeal.main_arg9))
    ∧ IsFin (m ((c.tc : Thread Cert.KernelIdeal.nD Cert.KernelIdeal.τ).loc Cert.KernelIdeal.main_arg10))
    ∧ IsFin (m ((c.tc : Thread Cert.KernelIdeal.nD Cert.KernelIdeal.τ).loc Cert.KernelIdeal.main_arg11))
    ∧ IsFin (m ((c.tc : Thread Cert.KernelIdeal.nD Cert.KernelIdeal.τ).loc Cert.KernelIdeal.main_arg12))
    ∧ IsFin (m ((c.tc : Thread Cert.KernelIdeal.nD Cert.KernelIdeal.τ).loc Cert.KernelIdeal.main_arg13))
    ∧ IsFin (m ((c.tc : Thread Cert.KernelIdeal.nD Cert.KernelIdeal.τ).loc Cert.KernelIdeal.main_arg14))
    ∧ IsFin (m ((c.tc : Thread Cert.KernelIdeal.nD Cert.KernelIdeal.τ).loc Cert.KernelIdeal.main_arg15))
    ∧ IsFin (m ((c.tc : Thread Cert.KernelIdeal.nD Cert.KernelIdeal.τ).loc Cert.KernelIdeal.main_arg16))
    ∧ IsFin (m ((c.tc : Thread Cert.KernelIdeal.nD Cert.KernelIdeal.τ).loc Cert.KernelIdeal.main_arg17))
    ∧ IsFin (m ((c.tc : Thread Cert.KernelIdeal.nD Cert.KernelIdeal.τ).loc Cert.KernelIdeal.main_arg18))
    ∧ IsFin (m ((c.tc : Thread Cert.KernelIdeal.nD Cert.KernelIdeal.τ).loc Cert.KernelIdeal.main_arg19))
    ∧ IsFin (m ((c.tc : Thread Cert.KernelIdeal.nD Cert.KernelIdeal.τ).loc Cert.KernelIdeal.main_arg20))
    ∧ IsFin (m ((c.tc : Thread Cert.KernelIdeal.nD Cert.KernelIdeal.τ).loc Cert.KernelIdeal.main_arg21))
    ∧ IsFin (m ((c.tc : Thread Cert.KernelIdeal.nD Cert.KernelIdeal.τ).loc Cert.KernelIdeal.main_arg22)) :=
  fin_of_fn _ _ _ _ _ _ _ _ _ _ _ _ _ _ _ _ _ _ _ _ _ _ _ (h c)

/-! The same, one argument at a time. -/

section PerArgument
variable [hPre_finite_inputs : Cert.Pre_finite_inputs.Facts]
  (m : (ℓ : Loc Cert.KernelIdeal.nD Cert.KernelIdeal.τ Cert.KernelIdeal.sig) → Buf (Elt Ideal) ℓ)
  (h : Cert.Pre_KernelIdeal m) (c : Dev Cert.KernelIdeal.nD)
include h

theorem fin_arg0 : IsFin (m ((c.tc : Thread Cert.KernelIdeal.nD Cert.KernelIdeal.τ).loc Cert.KernelIdeal.main_arg0)) := (fin_args m h c).1
theorem fin_arg3 : IsFin (m ((c.tc : Thread Cert.KernelIdeal.nD Cert.KernelIdeal.τ).loc Cert.KernelIdeal.main_arg3)) := (fin_args m h c).2.1
theorem fin_arg4 : IsFin (m ((c.tc : Thread Cert.KernelIdeal.nD Cert.KernelIdeal.τ).loc Cert.KernelIdeal.main_arg4)) := (fin_args m h c).2.2.1
theorem fin_arg5 : IsFin (m ((c.tc : Thread Cert.KernelIdeal.nD Cert.KernelIdeal.τ).loc Cert.KernelIdeal.main_arg5)) := (fin_args m h c).2.2.2.1
theorem fin_arg6 : IsFin (m ((c.tc : Thread Cert.KernelIdeal.nD Cert.KernelIdeal.τ).loc Cert.KernelIdeal.main_arg6)) := (fin_args m h c).2.2.2.2.1
theorem fin_arg7 : IsFin (m ((c.tc : Thread Cert.KernelIdeal.nD Cert.KernelIdeal.τ).loc Cert.KernelIdeal.main_arg7)) := (fin_args m h c).2.2.2.2.2.1
theorem fin_arg8 : IsFin (m ((c.tc : Thread Cert.KernelIdeal.nD Cert.KernelIdeal.τ).loc Cert.KernelIdeal.main_arg8)) := (fin_args m h c).2.2.2.2.2.2.1
theorem fin_arg9 : IsFin (m ((c.tc : Thread Cert.KernelIdeal.nD Cert.KernelIdeal.τ).loc Cert.KernelIdeal.main_arg9)) := (fin_args m h c).2.2.2.2.2.2.2.1
theorem fin_arg10 : IsFin (m ((c.tc : Thread Cert.KernelIdeal.nD Cert.KernelIdeal.τ).loc Cert.KernelIdeal.main_arg10)) := (fin_args m h c).2.2.2.2.2.2.2.2.1
theorem fin_arg11 : IsFin (m ((c.tc : Thread Cert.KernelIdeal.nD Cert.KernelIdeal.τ).loc Cert.KernelIdeal.main_arg11)) := (fin_args m h c).2.2.2.2.2.2.2.2.2.1
theorem fin_arg12 : IsFin (m ((c.tc : Thread Cert.KernelIdeal.nD Cert.KernelIdeal.τ).loc Cert.KernelIdeal.main_arg12)) := (fin_args m h c).2.2.2.2.2.2.2.2.2.2.1
theorem fin_arg13 : IsFin (m ((c.tc : Thread Cert.KernelIdeal.nD Cert.KernelIdeal.τ).loc Cert.KernelIdeal.main_arg13)) := (fin_args m h c).2.2.2.2.2.2.2.2.2.2.2.1
theorem fin_arg14 : IsFin (m ((c.tc : Thread Cert.KernelIdeal.nD Cert.KernelIdeal.τ).loc Cert.KernelIdeal.main_arg14)) := (fin_args m h c).2.2.2.2.2.2.2.2.2.2.2.2.1
theorem fin_arg15 : IsFin (m ((c.tc : Thread Cert.KernelIdeal.nD Cert.KernelIdeal.τ).loc Cert.KernelIdeal.main_arg15)) := (fin_args m h c).2.2.2.2.2.2.2.2.2.2.2.2.2.1
theorem fin_arg16 : IsFin (m ((c.tc : Thread Cert.KernelIdeal.nD Cert.KernelIdeal.τ).loc Cert.KernelIdeal.main_arg16)) := (fin_args m h c).2.2.2.2.2.2.2.2.2.2.2.2.2.2.1
theorem fin_arg17 : IsFin (m ((c.tc : Thread Cert.KernelIdeal.nD Cert.KernelIdeal.τ).loc Cert.KernelIdeal.main_arg17)) := (fin_args m h c).2.2.2.2.2.2.2.2.2.2.2.2.2.2.2.1
theorem fin_arg18 : IsFin (m ((c.tc : Thread Cert.KernelIdeal.nD Cert.KernelIdeal.τ).loc Cert.KernelIdeal.main_arg18)) := (fin_args m h c).2.2.2.2.2.2.2.2.2.2.2.2.2.2.2.2.1
theorem fin_arg19 : IsFin (m ((c.tc : Thread Cert.KernelIdeal.nD Cert.KernelIdeal.τ).loc Cert.KernelIdeal.main_arg19)) := (fin_args m h c).2.2.2.2.2.2.2.2.2.2.2.2.2.2.2.2.2.1
theorem fin_arg20 : IsFin (m ((c.tc : Thread Cert.KernelIdeal.nD Cert.KernelIdeal.τ).loc Cert.KernelIdeal.main_arg20)) := (fin_args m h c).2.2.2.2.2.2.2.2.2.2.2.2.2.2.2.2.2.2.1
theorem fin_arg21 : IsFin (m ((c.tc : Thread Cert.KernelIdeal.nD Cert.KernelIdeal.τ).loc Cert.KernelIdeal.main_arg21)) := (fin_args m h c).2.2.2.2.2.2.2.2.2.2.2.2.2.2.2.2.2.2.2.1
theorem fin_arg22 : IsFin (m ((c.tc : Thread Cert.KernelIdeal.nD Cert.KernelIdeal.τ).loc Cert.KernelIdeal.main_arg22)) := (fin_args m h c).2.2.2.2.2.2.2.2.2.2.2.2.2.2.2.2.2.2.2.2

end PerArgument

end Cert.Hand.PreFinite

end
-- ==== Proof.RefFinite.lean ====
/-
  Finiteness of the reference program, stage by stage.

  The reference is a chain of array operations on the arguments. When every float argument is finite (all entries
  real), every float stage is finite, by the preservation lemmas of the finiteness module applied in program
  order; the integer index arrays are arbitrary. The one stage that is not finite by itself is the plain
  reciprocal 1 / D of a degree array D (an entry of D may be 0); the program only uses it under a selection by the
  comparison D > 0, and that guarded reciprocal is finite.
-/
import proofs.«147182_j79147657330978_1_alg».proof.Proof.FinOps
import proofs.«147182_j79147657330978_1_alg».proof.Proof.RefRead

noncomputable section

namespace Cert.Hand

open Cert.ReferenceIdeal Cert.ReferenceIdeal.Gen Cert.ReferenceIdeal.Read Idealize.ShloMosaic

/-- A float argument or stage of the reference at the extended reals. -/
abbrev FArr (S : Shape) : Type := (⟨S, .f32⟩ : BufTy).Contents (Elt Ideal)
/-- An integer index argument of the reference. -/
abbrev IArr (S : Shape) : Type := (⟨S, .i32⟩ : BufTy).Contents (Elt Ideal)

variable (x1 x2 : IArr S2x800000)
variable {x0 : FArr S50000x128}
variable {x3 x5 x7 x9 x11 x13 x14 x16 x18 x19 : FArr S128x128}
variable {x4 x6 x8 x10 x12 x15 x17 x20 : FArr S128}

/-! ## Layer 1 (hypergraph convolution) -/

theorem fin_v4 (h0 : IsFin x0) (h3 : IsFin x3) : IsFin (val_main_v4 (F := Ideal) x0 x3) := by
  unfold val_main_v4; exact isFin_dotGeneral _ _ h0 h3

/-- The array of ones that the degree counts accumulate. -/
theorem fin_v5 : IsFin (val_main_v5 (F := Ideal)) := by
  unfold val_main_v5 val_main_cst; exact isFin_broadcastInDim _ _ _ (isFin_constant_one _)

theorem fin_v6 : IsFin (val_main_v6 (F := Ideal)) := by
  unfold val_main_v6 val_main_cst_0; exact isFin_broadcastInDim _ _ _ (isFin_constant_zero _)

/-- The node degrees: a count, so finite whatever the indices. -/
theorem fin_v8 : IsFin (val_main_v8 (F := Ideal) x2) := by
  unfold val_main_v8; exact isFin_scatterAdd _ _ fin_v6 fin_v5

theorem fin_v9 : IsFin (val_main_v9 (F := Ideal)) := by
  unfold val_main_v9 val_main_cst_1; exact isFin_broadcastInDim _ _ _ (isFin_constant_zero _)

/-- The hyperedge degrees. -/
theorem fin_v11 : IsFin (val_main_v11 (F := Ideal) x2) := by
  unfold val_main_v11; exact isFin_scatterAdd _ _ fin_v9 fin_v5

theorem zero_v12 (i : S50000.Idx) : val_main_v12 (F := Ideal) i = 0 := by
  unfold val_main_v12 val_main_cst_2; exact broadcastInDim_constant_zero_apply _ _ _ i

theorem fin_v14 : IsFin (val_main_v14 (F := Ideal)) := by
  unfold val_main_v14 val_main_cst_3; exact isFin_broadcastInDim _ _ _ (isFin_constant_one _)

theorem fin_call0_v1 : IsFin (val_main_call0_v1 (F := Ideal)) := by
  unfold val_main_call0_v1 val_main_call0_v0 val_main_cst_4
  exact isFin_broadcastInDim _ _ _ (isFin_constant_zero _)

/-- The reciprocal node degrees, 0 where the degree is 0. -/
theorem fin_v16 : IsFin (val_main_v16 (F := Ideal) x2) := by
  unfold val_main_v16 val_main_v13 val_main_v15
  exact isFin_guardedDiv (fin_v8 x2) zero_v12 fin_v14 fin_call0_v1

theorem zero_v17 (i : S10000.Idx) : val_main_v17 (F := Ideal) i = 0 := by
  unfold val_main_v17 val_main_cst_5; exact broadcastInDim_constant_zero_apply _ _ _ i

theorem fin_v19 : IsFin (val_main_v19 (F := Ideal)) := by
  unfold val_main_v19 val_main_cst_6; exact isFin_broadcastInDim _ _ _ (isFin_constant_one _)

theorem fin_call1_v1 : IsFin (val_main_call1_v1 (F := Ideal)) := by
  unfold val_main_call1_v1 val_main_call1_v0 val_main_cst_7
  exact isFin_broadcastInDim _ _ _ (isFin_constant_zero _)

/-- The reciprocal hyperedge degrees, 0 where the degree is 0. -/
theorem fin_v21 : IsFin (val_main_v21 (F := Ideal) x2) := by
  unfold val_main_v21 val_main_v18 val_main_v20
  exact isFin_guardedDiv (fin_v11 x2) zero_v17 fin_v19 fin_call1_v1

theorem fin_v28 (h0 : IsFin x0) (h3 : IsFin x3) : IsFin (val_main_v28 (F := Ideal) x0 x2 x3) := by
  unfold val_main_v28; exact isFin_gather _ _ (fin_v4 h0 h3)

theorem fin_v29 : IsFin (val_main_v29 (F := Ideal)) := by
  unfold val_main_v29 val_main_cst_9; exact isFin_broadcastInDim _ _ _ (isFin_constant_zero _)

theorem fin_v31 (h0 : IsFin x0) (h3 : IsFin x3) : IsFin (val_main_v31 (F := Ideal) x0 x2 x3) := by
  unfold val_main_v31; exact isFin_scatterAdd _ _ fin_v29 (fin_v28 x2 h0 h3)

theorem fin_v32 : IsFin (val_main_v32 (F := Ideal) x2) := by
  unfold val_main_v32; exact isFin_broadcastInDim _ _ _ (fin_v21 x2)

theorem fin_v33 : IsFin (val_main_v33 (F := Ideal) x2) := by
  unfold val_main_v33; exact isFin_broadcastInDim _ _ _ (fin_v32 x2)

theorem fin_v34 (h0 : IsFin x0) (h3 : IsFin x3) : IsFin (val_main_v34 (F := Ideal) x0 x2 x3) := by
  unfold val_main_v34; exact isFin_mulf (fin_v31 x2 h0 h3) (fin_v33 x2)

theorem fin_v41 (h0 : IsFin x0) (h3 : IsFin x3) : IsFin (val_main_v41 (F := Ideal) x0 x2 x3) := by
  unfold val_main_v41; exact isFin_gather _ _ (fin_v34 x2 h0 h3)

theorem fin_v42 : IsFin (val_main_v42 (F := Ideal)) := by
  unfold val_main_v42 val_main_cst_12; exact isFin_broadcastInDim _ _ _ (isFin_constant_zero _)

theorem fin_v44 (h0 : IsFin x0) (h3 : IsFin x3) : IsFin (val_main_v44 (F := Ideal) x0 x2 x3) := by
  unfold val_main_v44; exact isFin_scatterAdd _ _ fin_v42 (fin_v41 x2 h0 h3)

theorem fin_v45 : IsFin (val_main_v45 (F := Ideal) x2) := by
  unfold val_main_v45; exact isFin_broadcastInDim _ _ _ (fin_v16 x2)

theorem fin_v46 : IsFin (val_main_v46 (F := Ideal) x2) := by
  unfold val_main_v46; exact isFin_broadcastInDim _ _ _ (fin_v45 x2)

/-- Layer 1's aggregate is finite. -/
theorem fin_v47 (h0 : IsFin x0) (h3 : IsFin x3) : IsFin (val_main_v47 (F := Ideal) x0 x2 x3) := by
  unfold val_main_v47; exact isFin_mulf (fin_v44 x2 h0 h3) (fin_v46 x2)

theorem fin_v48 (h4 : IsFin x4) : IsFin (val_main_v48 (F := Ideal) x4) := by
  unfold val_main_v48; exact isFin_broadcastInDim _ _ _ h4

theorem fin_v49 (h4 : IsFin x4) : IsFin (val_main_v49 (F := Ideal) x4) := by
  unfold val_main_v49; exact isFin_broadcastInDim _ _ _ (fin_v48 h4)

theorem fin_v50 (h0 : IsFin x0) (h3 : IsFin x3) (h4 : IsFin x4) : IsFin (val_main_v50 (F := Ideal) x0 x2 x3 x4) := by
  unfold val_main_v50; exact isFin_addf (fin_v47 x2 h0 h3) (fin_v49 h4)

theorem fin_v51 (h0 : IsFin x0) (h5 : IsFin x5) : IsFin (val_main_v51 (F := Ideal) x0 x5) := by
  unfold val_main_v51; exact isFin_dotGeneral _ _ h0 h5

theorem fin_v52 (h6 : IsFin x6) : IsFin (val_main_v52 (F := Ideal) x6) := by
  unfold val_main_v52; exact isFin_broadcastInDim _ _ _ h6

theorem fin_v53 (h6 : IsFin x6) : IsFin (val_main_v53 (F := Ideal) x6) := by
  unfold val_main_v53; exact isFin_broadcastInDim _ _ _ (fin_v52 h6)

theorem fin_v54 (h0 : IsFin x0) (h5 : IsFin x5) (h6 : IsFin x6) : IsFin (val_main_v54 (F := Ideal) x0 x5 x6) := by
  unfold val_main_v54; exact isFin_addf (fin_v51 h0 h5) (fin_v53 h6)

theorem fin_v55 (h0 : IsFin x0) (h3 : IsFin x3) (h4 : IsFin x4) (h5 : IsFin x5) (h6 : IsFin x6) :
    IsFin (val_main_v55 (F := Ideal) x0 x2 x3 x4 x5 x6) := by
  unfold val_main_v55; exact isFin_addf (fin_v50 x2 h0 h3 h4) (fin_v54 h0 h5 h6)

theorem fin_v58 : IsFin (val_main_v58 (F := Ideal)) := by
  unfold val_main_v58 val_main_cst_14; exact isFin_broadcastInDim _ _ _ (isFin_constant_slope _)

theorem fin_v59 (h0 : IsFin x0) (h3 : IsFin x3) (h4 : IsFin x4) (h5 : IsFin x5) (h6 : IsFin x6) :
    IsFin (val_main_v59 (F := Ideal) x0 x2 x3 x4 x5 x6) := by
  unfold val_main_v59; exact isFin_mulf fin_v58 (fin_v55 x2 h0 h3 h4 h5 h6)

/-- Layer 1's output is finite. -/
theorem fin_v60 (h0 : IsFin x0) (h3 : IsFin x3) (h4 : IsFin x4) (h5 : IsFin x5) (h6 : IsFin x6) :
    IsFin (val_main_v60 (F := Ideal) x0 x2 x3 x4 x5 x6) := by
  unfold val_main_v60; exact isFin_select _ (fin_v55 x2 h0 h3 h4 h5 h6) (fin_v59 x2 h0 h3 h4 h5 h6)

/-! ## Layer 2 (hypergraph convolution) -/

theorem fin_v65 (h0 : IsFin x0) (h3 : IsFin x3) (h4 : IsFin x4) (h5 : IsFin x5) (h6 : IsFin x6) (h7 : IsFin x7) :
    IsFin (val_main_v65 (F := Ideal) x0 x2 x3 x4 x5 x6 x7) := by
  unfold val_main_v65; exact isFin_dotGeneral _ _ (fin_v60 x2 h0 h3 h4 h5 h6) h7

theorem fin_v66 : IsFin (val_main_v66 (F := Ideal)) := by
  unfold val_main_v66 val_main_cst_15; exact isFin_broadcastInDim _ _ _ (isFin_constant_one _)

theorem fin_v67 : IsFin (val_main_v67 (F := Ideal)) := by
  unfold val_main_v67 val_main_cst_16; exact isFin_broadcastInDim _ _ _ (isFin_constant_zero _)

theorem fin_v69 : IsFin (val_main_v69 (F := Ideal) x2) := by
  unfold val_main_v69; exact isFin_scatterAdd _ _ fin_v67 fin_v66

theorem fin_v70 : IsFin (val_main_v70 (F := Ideal)) := by
  unfold val_main_v70 val_main_cst_17; exact isFin_broadcastInDim _ _ _ (isFin_constant_zero _)

theorem fin_v72 : IsFin (val_main_v72 (F := Ideal) x2) := by
  unfold val_main_v72; exact isFin_scatterAdd _ _ fin_v70 fin_v66

theorem zero_v73 (i : S50000.Idx) : val_main_v73 (F := Ideal) i = 0 := by
  unfold val_main_v73 val_main_cst_18; exact broadcastInDim_constant_zero_apply _ _ _ i

theorem fin_v75 : IsFin (val_main_v75 (F := Ideal)) := by
  unfold val_main_v75 val_main_cst_19; exact isFin_broadcastInDim _ _ _ (isFin_constant_one _)

theorem fin_call3_v1 : IsFin (val_main_call3_v1 (F := Ideal)) := by
  unfold val_main_call3_v1 val_main_call3_v0 val_main_cst_20
  exact isFin_broadcastInDim _ _ _ (isFin_constant_zero _)

theorem fin_v77 : IsFin (val_main_v77 (F := Ideal) x2) := by
  unfold val_main_v77 val_main_v74 val_main_v76
  exact isFin_guardedDiv (fin_v69 x2) zero_v73 fin_v75 fin_call3_v1

theorem zero_v78 (i : S10000.Idx) : val_main_v78 (F := Ideal) i = 0 := by
  unfold val_main_v78 val_main_cst_21; exact broadcastInDim_constant_zero_apply _ _ _ i

theorem fin_v80 : IsFin (val_main_v80 (F := Ideal)) := by
  unfold val_main_v80 val_main_cst_22; exact isFin_broadcastInDim _ _ _ (isFin_constant_one _)

theorem fin_call4_v1 : IsFin (val_main_call4_v1 (F := Ideal)) := by
  unfold val_main_call4_v1 val_main_call4_v0 val_main_cst_23
  exact isFin_broadcastInDim _ _ _ (isFin_constant_zero _)

theorem fin_v82 : IsFin (val_main_v82 (F := Ideal) x2) := by
  unfold val_main_v82 val_main_v79 val_main_v81
  exact isFin_guardedDiv (fin_v72 x2) zero_v78 fin_v80 fin_call4_v1

theorem fin_v89 (h0 : IsFin x0) (h3 : IsFin x3) (h4 : IsFin x4) (h5 : IsFin x5) (h6 : IsFin x6) (h7 : IsFin x7) :
    IsFin (val_main_v89 (F := Ideal) x0 x2 x3 x4 x5 x6 x7) := by
  unfold val_main_v89; exact isFin_gather _ _ (fin_v65 x2 h0 h3 h4 h5 h6 h7)

theorem fin_v90 : IsFin (val_main_v90 (F := Ideal)) := by
  unfold val_main_v90 val_main_cst_26; exact isFin_broadcastInDim _ _ _ (isFin_constant_zero _)

theorem fin_v92 (h0 : IsFin x0) (h3 : IsFin x3) (h4 : IsFin x4) (h5 : IsFin x5) (h6 : IsFin x6) (h7 : IsFin x7) :
    IsFin (val_main_v92 (F := Ideal) x0 x2 x3 x4 x5 x6 x7) := by
  unfold val_main_v92; exact isFin_scatterAdd _ _ fin_v90 (fin_v89 x2 h0 h3 h4 h5 h6 h7)

theorem fin_v93 : IsFin (val_main_v93 (F := Ideal) x2) := by
  unfold val_main_v93; exact isFin_broadcastInDim _ _ _ (fin_v82 x2)

theorem fin_v94 : IsFin (val_main_v94 (F := Ideal) x2) := by
  unfold val_main_v94; exact isFin_broadcastInDim _ _ _ (fin_v93 x2)

theorem fin_v95 (h0 : IsFin x0) (h3 : IsFin x3) (h4 : IsFin x4) (h5 : IsFin x5) (h6 : IsFin x6) (h7 : IsFin x7) :
    IsFin (val_main_v95 (F := Ideal) x0 x2 x3 x4 x5 x6 x7) := by
  unfold val_main_v95; exact isFin_mulf (fin_v92 x2 h0 h3 h4 h5 h6 h7) (fin_v94 x2)

theorem fin_v102 (h0 : IsFin x0) (h3 : IsFin x3) (h4 : IsFin x4) (h5 : IsFin x5) (h6 : IsFin x6) (h7 : IsFin x7) :
    IsFin (val_main_v102 (F := Ideal) x0 x2 x3 x4 x5 x6 x7) := by
  unfold val_main_v102; exact isFin_gather _ _ (fin_v95 x2 h0 h3 h4 h5 h6 h7)

theorem fin_v103 : IsFin (val_main_v103 (F := Ideal)) := by
  unfold val_main_v103 val_main_cst_29; exact isFin_broadcastInDim _ _ _ (isFin_constant_zero _)

theorem fin_v105 (h0 : IsFin x0) (h3 : IsFin x3) (h4 : IsFin x4) (h5 : IsFin x5) (h6 : IsFin x6) (h7 : IsFin x7) :
    IsFin (val_main_v105 (F := Ideal) x0 x2 x3 x4 x5 x6 x7) := by
  unfold val_main_v105; exact isFin_scatterAdd _ _ fin_v103 (fin_v102 x2 h0 h3 h4 h5 h6 h7)

theorem fin_v106 : IsFin (val_main_v106 (F := Ideal) x2) := by
  unfold val_main_v106; exact isFin_broadcastInDim _ _ _ (fin_v77 x2)

theorem fin_v107 : IsFin (val_main_v107 (F := Ideal) x2) := by
  unfold val_main_v107; exact isFin_broadcastInDim _ _ _ (fin_v106 x2)

/-- Layer 2's aggregate is finite. -/
theorem fin_v108 (h0 : IsFin x0) (h3 : IsFin x3) (h4 : IsFin x4) (h5 : IsFin x5) (h6 : IsFin x6) (h7 : IsFin x7) :
    IsFin (val_main_v108 (F := Ideal) x0 x2 x3 x4 x5 x6 x7) := by
  unfold val_main_v108; exact isFin_mulf (fin_v105 x2 h0 h3 h4 h5 h6 h7) (fin_v107 x2)

theorem fin_v109 (h8 : IsFin x8) : IsFin (val_main_v109 (F := Ideal) x8) := by
  unfold val_main_v109; exact isFin_broadcastInDim _ _ _ h8

theorem fin_v110 (h8 : IsFin x8) : IsFin (val_main_v110 (F := Ideal) x8) := by
  unfold val_main_v110; exact isFin_broadcastInDim _ _ _ (fin_v109 h8)

theorem fin_v111 (h0 : IsFin x0) (h3 : IsFin x3) (h4 : IsFin x4) (h5 : IsFin x5) (h6 : IsFin x6) (h7 : IsFin x7)
    (h8 : IsFin x8) : IsFin (val_main_v111 (F := Ideal) x0 x2 x3 x4 x5 x6 x7 x8) := by
  unfold val_main_v111; exact isFin_addf (fin_v108 x2 h0 h3 h4 h5 h6 h7) (fin_v110 h8)

theorem fin_v112 (h0 : IsFin x0) (h3 : IsFin x3) (h4 : IsFin x4) (h5 : IsFin x5) (h6 : IsFin x6) (h9 : IsFin x9) :
    IsFin (val_main_v112 (F := Ideal) x0 x2 x3 x4 x5 x6 x9) := by
  unfold val_main_v112; exact isFin_dotGeneral _ _ (fin_v60 x2 h0 h3 h4 h5 h6) h9

theorem fin_v113 (h10 : IsFin x10) : IsFin (val_main_v113 (F := Ideal) x10) := by
  unfold val_main_v113; exact isFin_broadcastInDim _ _ _ h10

theorem fin_v114 (h10 : IsFin x10) : IsFin (val_main_v114 (F := Ideal) x10) := by
  unfold val_main_v114; exact isFin_broadcastInDim _ _ _ (fin_v113 h10)

theorem fin_v115 (h0 : IsFin x0) (h3 : IsFin x3) (h4 : IsFin x4) (h5 : IsFin x5) (h6 : IsFin x6) (h9 : IsFin x9)
    (h10 : IsFin x10) : IsFin (val_main_v115 (F := Ideal) x0 x2 x3 x4 x5 x6 x9 x10) := by
  unfold val_main_v115; exact isFin_addf (fin_v112 x2 h0 h3 h4 h5 h6 h9) (fin_v114 h10)

theorem fin_v116 (h0 : IsFin x0) (h3 : IsFin x3) (h4 : IsFin x4) (h5 : IsFin x5) (h6 : IsFin x6) (h7 : IsFin x7)
    (h8 : IsFin x8) (h9 : IsFin x9) (h10 : IsFin x10) :
    IsFin (val_main_v116 (F := Ideal) x0 x2 x3 x4 x5 x6 x7 x8 x9 x10) := by
  unfold val_main_v116
  exact isFin_addf (fin_v111 x2 h0 h3 h4 h5 h6 h7 h8) (fin_v115 x2 h0 h3 h4 h5 h6 h9 h10)

theorem fin_v119 : IsFin (val_main_v119 (F := Ideal)) := by
  unfold val_main_v119 val_main_cst_31; exact isFin_broadcastInDim _ _ _ (isFin_constant_slope _)

theorem fin_v120 (h0 : IsFin x0) (h3 : IsFin x3) (h4 : IsFin x4) (h5 : IsFin x5) (h6 : IsFin x6) (h7 : IsFin x7)
    (h8 : IsFin x8) (h9 : IsFin x9) (h10 : IsFin x10) :
    IsFin (val_main_v120 (F := Ideal) x0 x2 x3 x4 x5 x6 x7 x8 x9 x10) := by
  unfold val_main_v120; exact isFin_mulf fin_v119 (fin_v116 x2 h0 h3 h4 h5 h6 h7 h8 h9 h10)

/-- Layer 2's output is finite. -/
theorem fin_v121 (h0 : IsFin x0) (h3 : IsFin x3) (h4 : IsFin x4) (h5 : IsFin x5) (h6 : IsFin x6) (h7 : IsFin x7)
    (h8 : IsFin x8) (h9 : IsFin x9) (h10 : IsFin x10) :
    IsFin (val_main_v121 (F := Ideal) x0 x2 x3 x4 x5 x6 x7 x8 x9 x10) := by
  unfold val_main_v121
  exact isFin_select _ (fin_v116 x2 h0 h3 h4 h5 h6 h7 h8 h9 h10) (fin_v120 x2 h0 h3 h4 h5 h6 h7 h8 h9 h10)

/-! ## Layer 3 (graph convolution)

Stated from the finiteness of layer 2's output; the corollaries at the end start from the arguments. -/

theorem fin_v132 (hX : IsFin (val_main_v121 (F := Ideal) x0 x2 x3 x4 x5 x6 x7 x8 x9 x10)) :
    IsFin (val_main_v132 (F := Ideal) x0 x1 x2 x3 x4 x5 x6 x7 x8 x9 x10) := by
  unfold val_main_v132; exact isFin_gather _ _ hX

theorem fin_v133 : IsFin (val_main_v133 (F := Ideal)) := by
  unfold val_main_v133 val_main_cst_34; exact isFin_broadcastInDim _ _ _ (isFin_constant_zero _)

/-- Layer 3's aggregate is finite. -/
theorem fin_v135 (hX : IsFin (val_main_v121 (F := Ideal) x0 x2 x3 x4 x5 x6 x7 x8 x9 x10)) :
    IsFin (val_main_v135 (F := Ideal) x0 x1 x2 x3 x4 x5 x6 x7 x8 x9 x10) := by
  unfold val_main_v135; exact isFin_scatterAdd _ _ fin_v133 (fin_v132 x1 x2 hX)

theorem fin_v136 (hX : IsFin (val_main_v121 (F := Ideal) x0 x2 x3 x4 x5 x6 x7 x8 x9 x10)) (h11 : IsFin x11) :
    IsFin (val_main_v136 (F := Ideal) x0 x1 x2 x3 x4 x5 x6 x7 x8 x9 x10 x11) := by
  unfold val_main_v136; exact isFin_dotGeneral _ _ (fin_v135 x1 x2 hX) h11

theorem fin_v137 (h12 : IsFin x12) : IsFin (val_main_v137 (F := Ideal) x12) := by
  unfold val_main_v137; exact isFin_broadcastInDim _ _ _ h12

theorem fin_v138 (h12 : IsFin x12) : IsFin (val_main_v138 (F := Ideal) x12) := by
  unfold val_main_v138; exact isFin_broadcastInDim _ _ _ (fin_v137 h12)

theorem fin_v139 (hX : IsFin (val_main_v121 (F := Ideal) x0 x2 x3 x4 x5 x6 x7 x8 x9 x10)) (h11 : IsFin x11) (h12 : IsFin x12) :
    IsFin (val_main_v139 (F := Ideal) x0 x1 x2 x3 x4 x5 x6 x7 x8 x9 x10 x11 x12) := by
  unfold val_main_v139; exact isFin_addf (fin_v136 x1 x2 hX h11) (fin_v138 h12)

theorem fin_v140 (hX : IsFin (val_main_v121 (F := Ideal) x0 x2 x3 x4 x5 x6 x7 x8 x9 x10)) (h13 : IsFin x13) :
    IsFin (val_main_v140 (F := Ideal) x0 x2 x3 x4 x5 x6 x7 x8 x9 x10 x13) := by
  unfold val_main_v140; exact isFin_dotGeneral _ _ hX h13

theorem fin_v141 (hX : IsFin (val_main_v121 (F := Ideal) x0 x2 x3 x4 x5 x6 x7 x8 x9 x10)) (h11 : IsFin x11) (h12 : IsFin x12) (h13 : IsFin x13) :
    IsFin (val_main_v141 (F := Ideal) x0 x1 x2 x3 x4 x5 x6 x7 x8 x9 x10 x11 x12 x13) := by
  unfold val_main_v141; exact isFin_addf (fin_v139 x1 x2 hX h11 h12) (fin_v140 x2 hX h13)

theorem fin_v142 (hX : IsFin (val_main_v121 (F := Ideal) x0 x2 x3 x4 x5 x6 x7 x8 x9 x10)) (h14 : IsFin x14) :
    IsFin (val_main_v142 (F := Ideal) x0 x2 x3 x4 x5 x6 x7 x8 x9 x10 x14) := by
  unfold val_main_v142; exact isFin_dotGeneral _ _ hX h14

theorem fin_v143 (h15 : IsFin x15) : IsFin (val_main_v143 (F := Ideal) x15) := by
  unfold val_main_v143; exact isFin_broadcastInDim _ _ _ h15

theorem fin_v144 (h15 : IsFin x15) : IsFin (val_main_v144 (F := Ideal) x15) := by
  unfold val_main_v144; exact isFin_broadcastInDim _ _ _ (fin_v143 h15)

theorem fin_v145 (hX : IsFin (val_main_v121 (F := Ideal) x0 x2 x3 x4 x5 x6 x7 x8 x9 x10)) (h14 : IsFin x14) (h15 : IsFin x15) :
    IsFin (val_main_v145 (F := Ideal) x0 x2 x3 x4 x5 x6 x7 x8 x9 x10 x14 x15) := by
  unfold val_main_v145; exact isFin_addf (fin_v142 x2 hX h14) (fin_v144 h15)

theorem fin_v146 (hX : IsFin (val_main_v121 (F := Ideal) x0 x2 x3 x4 x5 x6 x7 x8 x9 x10)) (h11 : IsFin x11) (h12 : IsFin x12) (h13 : IsFin x13)
    (h14 : IsFin x14) (h15 : IsFin x15) : IsFin (val_main_v146 (F := Ideal) x0 x1 x2 x3 x4 x5 x6 x7 x8 x9 x10 x11 x12 x13 x14 x15) := by
  unfold val_main_v146; exact isFin_addf (fin_v141 x1 x2 hX h11 h12 h13) (fin_v145 x2 hX h14 h15)

theorem fin_v149 : IsFin (val_main_v149 (F := Ideal)) := by
  unfold val_main_v149 val_main_cst_36; exact isFin_broadcastInDim _ _ _ (isFin_constant_slope _)

theorem fin_v150 (hX : IsFin (val_main_v121 (F := Ideal) x0 x2 x3 x4 x5 x6 x7 x8 x9 x10)) (h11 : IsFin x11) (h12 : IsFin x12) (h13 : IsFin x13)
    (h14 : IsFin x14) (h15 : IsFin x15) : IsFin (val_main_v150 (F := Ideal) x0 x1 x2 x3 x4 x5 x6 x7 x8 x9 x10 x11 x12 x13 x14 x15) := by
  unfold val_main_v150; exact isFin_mulf fin_v149 (fin_v146 x1 x2 hX h11 h12 h13 h14 h15)

/-- Layer 3's output is finite. -/
theorem fin_v151 (hX : IsFin (val_main_v121 (F := Ideal) x0 x2 x3 x4 x5 x6 x7 x8 x9 x10)) (h11 : IsFin x11) (h12 : IsFin x12) (h13 : IsFin x13)
    (h14 : IsFin x14) (h15 : IsFin x15) : IsFin (val_main_v151 (F := Ideal) x0 x1 x2 x3 x4 x5 x6 x7 x8 x9 x10 x11 x12 x13 x14 x15) := by
  unfold val_main_v151
  exact isFin_select _ (fin_v146 x1 x2 hX h11 h12 h13 h14 h15) (fin_v150 x1 x2 hX h11 h12 h13 h14 h15)

/-! ## Layer 4's aggregate, from the finiteness of layer 3's output -/

theorem fin_v162 (hY : IsFin (val_main_v151 (F := Ideal) x0 x1 x2 x3 x4 x5 x6 x7 x8 x9 x10 x11 x12 x13 x14 x15)) : IsFin (val_main_v162 (F := Ideal) x0 x1 x2 x3 x4 x5 x6 x7 x8 x9 x10 x11 x12 x13 x14 x15) := by
  unfold val_main_v162; exact isFin_gather _ _ hY

theorem fin_v163 : IsFin (val_main_v163 (F := Ideal)) := by
  unfold val_main_v163 val_main_cst_39; exact isFin_broadcastInDim _ _ _ (isFin_constant_zero _)

/-- Layer 4's aggregate is finite. -/
theorem fin_v165 (hY : IsFin (val_main_v151 (F := Ideal) x0 x1 x2 x3 x4 x5 x6 x7 x8 x9 x10 x11 x12 x13 x14 x15)) : IsFin (val_main_v165 (F := Ideal) x0 x1 x2 x3 x4 x5 x6 x7 x8 x9 x10 x11 x12 x13 x14 x15) := by
  unfold val_main_v165; exact isFin_scatterAdd _ _ fin_v163 (fin_v162 x1 x2 hY)

/-! ## From the arguments -/

/-- Layer 3's aggregate is finite when the float arguments of layers 1 and 2 are. -/
theorem fin_v135_of_args (h0 : IsFin x0) (h3 : IsFin x3) (h4 : IsFin x4) (h5 : IsFin x5) (h6 : IsFin x6) (h7 : IsFin x7)
    (h8 : IsFin x8) (h9 : IsFin x9) (h10 : IsFin x10) :
    IsFin (val_main_v135 (F := Ideal) x0 x1 x2 x3 x4 x5 x6 x7 x8 x9 x10) :=
  fin_v135 x1 x2 (fin_v121 x2 h0 h3 h4 h5 h6 h7 h8 h9 h10)

/-- Layer 3's output is finite when the float arguments of layers 1 to 3 are. -/
theorem fin_v151_of_args (h0 : IsFin x0) (h3 : IsFin x3) (h4 : IsFin x4) (h5 : IsFin x5) (h6 : IsFin x6) (h7 : IsFin x7)
    (h8 : IsFin x8) (h9 : IsFin x9) (h10 : IsFin x10) (h11 : IsFin x11) (h12 : IsFin x12) (h13 : IsFin x13)
    (h14 : IsFin x14) (h15 : IsFin x15) : IsFin (val_main_v151 (F := Ideal) x0 x1 x2 x3 x4 x5 x6 x7 x8 x9 x10 x11 x12 x13 x14 x15) :=
  fin_v151 x1 x2 (fin_v121 x2 h0 h3 h4 h5 h6 h7 h8 h9 h10) h11 h12 h13 h14 h15

/-- Layer 4's aggregate is finite when the float arguments of layers 1 to 3 are. -/
theorem fin_v165_of_args (h0 : IsFin x0) (h3 : IsFin x3) (h4 : IsFin x4) (h5 : IsFin x5) (h6 : IsFin x6) (h7 : IsFin x7)
    (h8 : IsFin x8) (h9 : IsFin x9) (h10 : IsFin x10) (h11 : IsFin x11) (h12 : IsFin x12) (h13 : IsFin x13)
    (h14 : IsFin x14) (h15 : IsFin x15) : IsFin (val_main_v165 (F := Ideal) x0 x1 x2 x3 x4 x5 x6 x7 x8 x9 x10 x11 x12 x13 x14 x15) :=
  fin_v165 x1 x2 (fin_v151_of_args x1 x2 h0 h3 h4 h5 h6 h7 h8 h9 h10 h11 h12 h13 h14 h15)

end Cert.Hand

end
-- ==== Proof.BridgeGc.lean ====
/-
  A fused graph-convolution layer against the reference's arrangement of the same layer.

  The fused layer contracts the features X once, with the SUM of two arrays of weights, and adds
  the sum of two bias vectors:
      rect (∑ A·W1 + ∑ X·(Wr + Wg) + (c₁ + c₂)).
  The reference contracts X with each array of weights separately and adds each bias where it
  arises:
      rect (((∑ A·W1 + c₁) + ∑ X·Wr) + (∑ X·Wg + c₂)).
  Entry by entry the two agree: a product of real numbers distributes over a sum, also under the
  summation sign, so ∑ X·(Wr + Wg) = ∑ X·Wr + ∑ X·Wg when X, Wr and Wg are finite — at an infinite
  entry the law can fail, and this is the one place finiteness is used —, and the five summands
  then regroup by commutativity and associativity alone. The rectifier is the same function of the
  two equal sums.
-/
import proofs.«147182_j79147657330978_1_alg».proof.Proof.DenseBlock
import proofs.«147182_j79147657330978_1_alg».proof.Proof.FinOps
import proofs.«147182_j79147657330978_1_alg».proof.Proof.RefRead
import Idealize.ShloMosaic.Lib.Pipeline.Value
import Idealize.ShloMosaic.Lib.ValueIdx
import Idealize.ShloMosaic.Lib.ValueLayout

set_option maxRecDepth 16384

noncomputable section

open scoped BigOperators

namespace Cert.KernelIdeal.RegionValue

open Cert.KernelIdeal Idealize.ShloMosaic Idealize.SL.Sem
open Idealize.ShloMosaic.ValueIdx

/-- The one entry of a bias vector that column-of-i entries of a layer read. -/
abbrev brgc_col (i : S50000x128.Idx) : S128.Idx := fun a => match a with
  | ⟨0, _⟩ => ⟨(i 1).val, (i 1).isLt⟩

/-- The reference's contraction of a [50000, 128] array with a [128, 128] array, at entry i, is the
    sum over the 128 shared positions of the row of i times the column of i. -/
theorem brgc_dot_at (L : S50000x128.Idx → Ideal .f32) (R : S128x128.Idx → Ideal .f32) (i : S50000x128.Idx) :
    (Host.dotGeneral (F := Ideal) Cert.ReferenceIdeal.dot_S50000x128_S128x128_S50000x128_1_0_0_1_n_n none L R) i = ∑ k : Fin 128, L (atRow i k) * R (atCol i k) :=
  Cert.ReferenceIdeal.Read.val_main_v4_apply L R i

/-- A bias vector spread first to one row and then over the 50000 rows reads, at entry i, the
    vector at i's column. -/
theorem brgc_bias_ref (c : S128.Idx → Ideal .f32) (i : S50000x128.Idx) :
    (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c)) i = c (brgc_col i) :=
  (Cert.ReferenceIdeal.Read.val_main_v49_apply (F := Ideal) c i).trans (Cert.ReferenceIdeal.Read.val_main_v48_apply (F := Ideal) c (Cert.ReferenceIdeal.Read.idx_main_v49 i))

/-- A bias vector recast as one row reads, at (0, column of i), the vector at i's column. -/
theorem brgc_bias_row (b : S128.Idx → Ideal .f32) (i : S50000x128.Idx) :
    shapeCast S1x128 b Facts₀.shapeCasts_S128_S1x128 (atBias i) = b (brgc_col i) :=
  shapeCast_apply b Facts₀.shapeCasts_S128_S1x128 (atBias i) (brgc_col i) (by
    rw [Shape.rowMajor_val_two, Shape.rowMajor_val_one]
    show (i 1).val = 0 * 128 + (i 1).val
    omega)

/-- THE GRAPH-LAYER BRIDGE: the fused layer on the summed weights and the summed biases is the
    reference's nest of separate contractions and biases under the same rectifier, provided the
    features and the two arrays of weights that are summed are finite. -/
theorem br_gc (A X : S50000x128.Idx → Ideal .f32) (W1 Wr Wg : S128x128.Idx → Ideal .f32) (c₁ c₂ : S128.Idx → Ideal .f32)
    (hX : Cert.Hand.IsFin X) (hr : Cert.Hand.IsFin Wr) (hg : Cert.Hand.IsFin Wg) :
    r4_gcLayer A X W1 (addf Wr Wg) (shapeCast S1x128 (addf c₁ c₂) Facts₀.shapeCasts_S128_S1x128)
      = (select (cmpf .oge (addf (addf (addf (Host.dotGeneral (F := Ideal) Cert.ReferenceIdeal.dot_S50000x128_S128x128_S50000x128_1_0_0_1_n_n none A W1) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₁))) (Host.dotGeneral (F := Ideal) Cert.ReferenceIdeal.dot_S50000x128_S128x128_S50000x128_1_0_0_1_n_n none X Wr)) (addf (Host.dotGeneral (F := Ideal) Cert.ReferenceIdeal.dot_S50000x128_S128x128_S50000x128_1_0_0_1_n_n none X Wg) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₂)))) (broadcastInDim Cert.ReferenceIdeal.S50000x128 ![] Cert.ReferenceIdeal.Facts₀.bcast_S_S50000x128 (constant (F := Ideal) Cert.ReferenceIdeal.S_ .f32 0x00000000#32))) (addf (addf (addf (Host.dotGeneral (F := Ideal) Cert.ReferenceIdeal.dot_S50000x128_S128x128_S50000x128_1_0_0_1_n_n none A W1) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₁))) (Host.dotGeneral (F := Ideal) Cert.ReferenceIdeal.dot_S50000x128_S128x128_S50000x128_1_0_0_1_n_n none X Wr)) (addf (Host.dotGeneral (F := Ideal) Cert.ReferenceIdeal.dot_S50000x128_S128x128_S50000x128_1_0_0_1_n_n none X Wg) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₂)))) (mulf (broadcastInDim Cert.ReferenceIdeal.S50000x128 ![] Cert.ReferenceIdeal.Facts₀.bcast_S_S50000x128 (constant (F := Ideal) Cert.ReferenceIdeal.S_ .f32 0x3C23D70A#32)) (addf (addf (addf (Host.dotGeneral (F := Ideal) Cert.ReferenceIdeal.dot_S50000x128_S128x128_S50000x128_1_0_0_1_n_n none A W1) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₁))) (Host.dotGeneral (F := Ideal) Cert.ReferenceIdeal.dot_S50000x128_S128x128_S50000x128_1_0_0_1_n_n none X Wr)) (addf (Host.dotGeneral (F := Ideal) Cert.ReferenceIdeal.dot_S50000x128_S128x128_S50000x128_1_0_0_1_n_n none X Wg) (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₂)))))) := by
  funext i
  show r1_leaky (((∑ k : Fin 128, A (atRow i k) * W1 (atCol i k)) + (∑ k : Fin 128, X (atRow i k) * (Wr (atCol i k) + Wg (atCol i k))))
        + shapeCast S1x128 (addf c₁ c₂) Facts₀.shapeCasts_S128_S1x128 (atBias i))
      = r1_leaky ((((Host.dotGeneral (F := Ideal) Cert.ReferenceIdeal.dot_S50000x128_S128x128_S50000x128_1_0_0_1_n_n none A W1) i + (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₁)) i) + (Host.dotGeneral (F := Ideal) Cert.ReferenceIdeal.dot_S50000x128_S128x128_S50000x128_1_0_0_1_n_n none X Wr) i)
        + ((Host.dotGeneral (F := Ideal) Cert.ReferenceIdeal.dot_S50000x128_S128x128_S50000x128_1_0_0_1_n_n none X Wg) i + (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 c₂)) i))
  rw [brgc_dot_at A W1 i, brgc_dot_at X Wr i, brgc_dot_at X Wg i, brgc_bias_ref c₁ i, brgc_bias_ref c₂ i, brgc_bias_row (addf c₁ c₂) i]
  refine congrArg r1_leaky ?_
  exact Cert.Hand.add_five_regroup _ _ _ _ _ _
    (Cert.Hand.sum_mul_add_of_isRe (fun k : Fin 128 => X (atRow i k)) (fun k => Wr (atCol i k)) (fun k => Wg (atCol i k))
      (fun k => hX _) (fun k => hr _) (fun k => hg _))

end Cert.KernelIdeal.RegionValue

end
-- ==== Proof.Layer3.lean ====
/-
  The first graph layer. The host gathers each edge's source row and adds it into the edge's target;
  the region multiplies that aggregate by the relation weights, multiplies the layer's input by the SUM
  of the root and the residual weights, adds the two biases pre-added, and applies the leaky rectifier.
  The reference multiplies the input by the root weights and by the residual weights separately. A
  product distributes over a sum of REAL numbers, not over one of extended reals in general: this is
  where the finiteness of the inputs is used — the layer's input is finite because every stage before it
  maps finite arrays to finite arrays.
-/
import proofs.«147182_j79147657330978_1_alg».proof.Proof.Layer2
import proofs.«147182_j79147657330978_1_alg».proof.Proof.Region4
import proofs.«147182_j79147657330978_1_alg».proof.Proof.PreFinite
import proofs.«147182_j79147657330978_1_alg».proof.Proof.RefFinite
import proofs.«147182_j79147657330978_1_alg».proof.Proof.BridgeGc

set_option maxRecDepth 16384

noncomputable section

namespace Cert.KernelIdeal.Stages

open Cert.KernelIdeal Cert.KernelIdeal.Gen Cert.KernelIdeal.Fold Cert.KernelIdeal.RegionValue
open Cert.ReferenceIdeal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- `main_v5` is untouched from boundary 5 to boundary 11. -/
theorem v5_at11 : W11 m ρ c (Proc.devRef .tc main_v5) = val_main_v123 (F := Ideal) (A1 m c) :=
  (((W11_of_ne m ρ c main_v5 (by decide)).trans ((keep3 m ρ c main_v5 (by decide)).trans ((W9_of_ne m ρ c main_v5 (by decide)).trans ((W8_of_ne m ρ c main_v5 (by decide)).trans ((keep1 m ρ c main_v5 (by decide)).trans (W6_of_ne m ρ c main_v5 (by decide)))))))).trans (lead_v5 m ρ c)
/-- `main_v7` is untouched from boundary 5 to boundary 11. -/
theorem v7_at11 : W11 m ρ c (Proc.devRef .tc main_v7) = val_main_v125 (F := Ideal) (A1 m c) :=
  (((W11_of_ne m ρ c main_v7 (by decide)).trans ((keep3 m ρ c main_v7 (by decide)).trans ((W9_of_ne m ρ c main_v7 (by decide)).trans ((W8_of_ne m ρ c main_v7 (by decide)).trans ((keep1 m ρ c main_v7 (by decide)).trans (W6_of_ne m ρ c main_v7 (by decide)))))))).trans (lead_v7 m ρ c)
/-- Argument 12 is untouched up to boundary 11. -/
theorem arg12_at11 : W11 m ρ c (Proc.devRef .tc main_arg12) = A12 m c :=
  ((W11_of_ne m ρ c main_arg12 (by decide)).trans ((keep3 m ρ c main_arg12 (by decide)).trans ((W9_of_ne m ρ c main_arg12 (by decide)).trans ((W8_of_ne m ρ c main_arg12 (by decide)).trans ((keep1 m ρ c main_arg12 (by decide)).trans ((W6_of_ne m ρ c main_arg12 (by decide)).trans ((keep0_4 m ρ c main_arg12 (by decide)).trans ((keep0_3 m ρ c main_arg12 (by decide)).trans ((keep0_2 m ρ c main_arg12 (by decide)).trans ((keep0_1 m ρ c main_arg12 (by decide)).trans (keep0 m ρ c main_arg12 (by decide))))))))))))
/-- Argument 13 is untouched up to boundary 11. -/
theorem arg13_at11 : W11 m ρ c (Proc.devRef .tc main_arg13) = A13 m c :=
  ((W11_of_ne m ρ c main_arg13 (by decide)).trans ((keep3 m ρ c main_arg13 (by decide)).trans ((W9_of_ne m ρ c main_arg13 (by decide)).trans ((W8_of_ne m ρ c main_arg13 (by decide)).trans ((keep1 m ρ c main_arg13 (by decide)).trans ((W6_of_ne m ρ c main_arg13 (by decide)).trans ((keep0_4 m ρ c main_arg13 (by decide)).trans ((keep0_3 m ρ c main_arg13 (by decide)).trans ((keep0_2 m ρ c main_arg13 (by decide)).trans ((keep0_1 m ρ c main_arg13 (by decide)).trans (keep0 m ρ c main_arg13 (by decide))))))))))))
/-- Argument 14 is untouched up to boundary 11. -/
theorem arg14_at11 : W11 m ρ c (Proc.devRef .tc main_arg14) = A14 m c :=
  ((W11_of_ne m ρ c main_arg14 (by decide)).trans ((keep3 m ρ c main_arg14 (by decide)).trans ((W9_of_ne m ρ c main_arg14 (by decide)).trans ((W8_of_ne m ρ c main_arg14 (by decide)).trans ((keep1 m ρ c main_arg14 (by decide)).trans ((W6_of_ne m ρ c main_arg14 (by decide)).trans ((keep0_4 m ρ c main_arg14 (by decide)).trans ((keep0_3 m ρ c main_arg14 (by decide)).trans ((keep0_2 m ρ c main_arg14 (by decide)).trans ((keep0_1 m ρ c main_arg14 (by decide)).trans (keep0 m ρ c main_arg14 (by decide))))))))))))
/-- Argument 15 is untouched up to boundary 11. -/
theorem arg15_at11 : W11 m ρ c (Proc.devRef .tc main_arg15) = A15 m c :=
  ((W11_of_ne m ρ c main_arg15 (by decide)).trans ((keep3 m ρ c main_arg15 (by decide)).trans ((W9_of_ne m ρ c main_arg15 (by decide)).trans ((W8_of_ne m ρ c main_arg15 (by decide)).trans ((keep1 m ρ c main_arg15 (by decide)).trans ((W6_of_ne m ρ c main_arg15 (by decide)).trans ((keep0_4 m ρ c main_arg15 (by decide)).trans ((keep0_3 m ρ c main_arg15 (by decide)).trans ((keep0_2 m ρ c main_arg15 (by decide)).trans ((keep0_1 m ρ c main_arg15 (by decide)).trans (keep0 m ρ c main_arg15 (by decide))))))))))))
/-- The third layer's aggregate: each edge's source row of the second layer's output added into its target. -/
theorem st_v92 : W12 m ρ c (Proc.devRef .tc main_v92) = val_main_v135 (F := Ideal) (A0 m c) (A1 m c) (A2 m c) (A3 m c) (A4 m c) (A5 m c) (A6 m c) (A7 m c) (A8 m c) (A9 m c) (A10 m c) := by
  show StableHlo.after hostOps4 (W11 m ρ c) (Proc.devRef .tc main_v92) = _
  after_results_simp
  rw [st_v82 m ρ c, v5_at11 m ρ c, v7_at11 m ρ c]
  simp only [val_main_v135, val_main_v133, val_main_cst_34, val_main_v134, val_main_v125, val_main_v124, val_main_v132, val_main_v131, val_main_v130, val_main_v127, val_main_v123, val_main_v122, val_main_v126, val_main_c_32, val_main_v129, val_main_v128, val_main_c_33, val_main_v45, val_main_v16, val_main_v13, val_main_v8, val_main_v6, val_main_cst_0, val_main_v7, val_main_v1, val_main_v0, val_main_v5, val_main_cst, val_main_v12, val_main_cst_2, val_main_v15, val_main_v14, val_main_cst_3, val_main_call0_v1, val_main_call0_v0, val_main_cst_4, val_main_v32, val_main_v21, val_main_v18, val_main_v11, val_main_v9, val_main_cst_1, val_main_v10, val_main_v3, val_main_v2, val_main_v17, val_main_cst_5, val_main_v20, val_main_v19, val_main_cst_6, val_main_call1_v1, val_main_call1_v0, val_main_cst_7] <;> rfl
/-- The root and the residual weights of the third layer, added. -/
theorem st_v93 : W12 m ρ c (Proc.devRef .tc main_v93) = weightSum (A13 m c) (A14 m c) := by
  show StableHlo.after hostOps4 (W11 m ρ c) (Proc.devRef .tc main_v93) = _
  after_results_simp
  rw [arg13_at11 m ρ c, arg14_at11 m ρ c] <;> rfl
/-- The two biases of the third layer, added and laid out as one row. -/
theorem st_v95 : W12 m ρ c (Proc.devRef .tc main_v95) = biasRow (A12 m c) (A15 m c) := by
  show StableHlo.after hostOps4 (W11 m ρ c) (Proc.devRef .tc main_v95) = _
  after_results_simp
  rw [arg12_at11 m ρ c, arg15_at11 m ρ c] <;> rfl
/-- `main_v82` is untouched from boundary 11 to boundary 12. -/
theorem v82_at12 : W12 m ρ c (Proc.devRef .tc main_v82) = val_main_v121 (F := Ideal) (A0 m c) (A2 m c) (A3 m c) (A4 m c) (A5 m c) (A6 m c) (A7 m c) (A8 m c) (A9 m c) (A10 m c) :=
  ((keep4 m ρ c main_v82 (by decide))).trans (st_v82 m ρ c)
/-- Argument 11 is untouched up to boundary 12. -/
theorem arg11_at12 : W12 m ρ c (Proc.devRef .tc main_arg11) = A11 m c :=
  ((keep4 m ρ c main_arg11 (by decide)).trans ((W11_of_ne m ρ c main_arg11 (by decide)).trans ((keep3 m ρ c main_arg11 (by decide)).trans ((W9_of_ne m ρ c main_arg11 (by decide)).trans ((W8_of_ne m ρ c main_arg11 (by decide)).trans ((keep1 m ρ c main_arg11 (by decide)).trans ((W6_of_ne m ρ c main_arg11 (by decide)).trans ((keep0_4 m ρ c main_arg11 (by decide)).trans ((keep0_3 m ρ c main_arg11 (by decide)).trans ((keep0_2 m ρ c main_arg11 (by decide)).trans ((keep0_1 m ρ c main_arg11 (by decide)).trans (keep0 m ρ c main_arg11 (by decide)))))))))))))
/-- The second layer's output is finite. -/
theorem fin_layer2 [hPre_finite_inputs : Cert.Pre_finite_inputs.Facts] (hpre : Cert.Pre_KernelIdeal m) : Cert.Hand.IsFin (val_main_v121 (F := Ideal) (A0 m c) (A2 m c) (A3 m c) (A4 m c) (A5 m c) (A6 m c) (A7 m c) (A8 m c) (A9 m c) (A10 m c)) :=
  (Cert.Hand.fin_v121 (A2 m c) (Cert.Hand.PreFinite.fin_arg0 m hpre c) (Cert.Hand.PreFinite.fin_arg3 m hpre c) (Cert.Hand.PreFinite.fin_arg4 m hpre c) (Cert.Hand.PreFinite.fin_arg5 m hpre c) (Cert.Hand.PreFinite.fin_arg6 m hpre c) (Cert.Hand.PreFinite.fin_arg7 m hpre c) (Cert.Hand.PreFinite.fin_arg8 m hpre c) (Cert.Hand.PreFinite.fin_arg9 m hpre c) (Cert.Hand.PreFinite.fin_arg10 m hpre c))

/-- After the fifth region `main_v96` is the third layer's output, the reference's stage. -/
theorem st_v96 [hPre_finite_inputs : Cert.Pre_finite_inputs.Facts] (hpre : Cert.Pre_KernelIdeal m) : W13 m ρ c (Proc.devRef .tc main_v96) = val_main_v151 (F := Ideal) (A0 m c) (A1 m c) (A2 m c) (A3 m c) (A4 m c) (A5 m c) (A6 m c) (A7 m c) (A8 m c) (A9 m c) (A10 m c) (A11 m c) (A12 m c) (A13 m c) (A14 m c) (A15 m c) := by
  refine (W13_arr m ρ c 5).trans ((r4_value (V12 m ρ) c).trans ?_)
  rw [show V12 m ρ c (Pipeline.arrRef spec4 0) = _ from st_v92 m ρ c, show V12 m ρ c (Pipeline.arrRef spec4 1) = _ from v82_at12 m ρ c,
    show V12 m ρ c (Pipeline.arrRef spec4 2) = _ from arg11_at12 m ρ c, show V12 m ρ c (Pipeline.arrRef spec4 3) = _ from st_v93 m ρ c,
    show V12 m ρ c (Pipeline.arrRef spec4 4) = _ from st_v95 m ρ c]
  refine (br_gc _ _ (A11 m c) (A13 m c) (A14 m c) (A12 m c) (A15 m c) (fin_layer2 m c hpre) (Cert.Hand.PreFinite.fin_arg13 m hpre c) (Cert.Hand.PreFinite.fin_arg14 m hpre c)).trans ?_
  simp only [val_main_v151, val_main_v148, val_main_v146, val_main_v141, val_main_v139, val_main_v138, val_main_v137, val_main_v145, val_main_v144, val_main_v143, val_main_v147, val_main_cst_35, val_main_v150, val_main_v149, val_main_cst_36, val_main_v136, val_main_v140, val_main_v142] <;> rfl
end Cert.KernelIdeal.Stages

end
-- ==== Proof.Region5.lean ====
/-
  The second fused graph-convolution layer, read as one function of its input arrays.

  The layer is computed at ten grid points; point t handles rows 5000 t … 5000 t + 4999. At point t
  the body loads those rows of the aggregate and of the features, all of both arrays of weights and the whole
  bias row, and writes those rows of the result. An entry of the result in row r is therefore written
  exactly once, by point r / 5000, and what is written is the layer's formula at that entry of the
  arrays as the layer finds them: the ten blocks are restrictions of one function, and the result
  array ends holding it.
-/
import proofs.«147182_j79147657330978_1_alg».proof.Proof.DenseBlock
import proofs.«147182_j79147657330978_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The block index maps over the grid: at point t the row-blocked arrays are at row block t, the
    weights and the bias at their one block. -/
theorem r5_idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- The aggregate's block at point t holds rows 5000 t … 5000 t + 4999 of the aggregate. -/
theorem r5_read0 (c : Dev nD) (t : Fin cfg5.N) (y : S5000x128.Idx) (i : S50000x128.Idx)
    (h0 : (i 0).val = t.val * 5000 + (y 0).val) (h1 : (i 1).val = (y 1).val) :
    (iblk5 (F := Ideal) V c 0 t : FVec Ideal S5000x128 .f32) y = (V c (Pipeline.arrRef spec5 0) : S50000x128.Idx → Ideal .f32) i := by
  obtain ⟨e00, e01, e10, e11, e20, e21, e30, e31, e40, e41, e50, e51⟩ := r5_idx_facts t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * (y 0).val = (i 0).val; rw [e00, h0]; omega
  | ⟨1, _⟩ => show win5_0.index t (1 : Fin 2) * 128 + 1 * (y 1).val = (i 1).val; rw [e01, h1]; omega

/-- The features' block at point t holds the same rows of the features. -/
theorem r5_read1 (c : Dev nD) (t : Fin cfg5.N) (y : S5000x128.Idx) (i : S50000x128.Idx)
    (h0 : (i 0).val = t.val * 5000 + (y 0).val) (h1 : (i 1).val = (y 1).val) :
    (iblk5 (F := Ideal) V c 1 t : FVec Ideal S5000x128 .f32) y = (V c (Pipeline.arrRef spec5 1) : S50000x128.Idx → Ideal .f32) i := by
  obtain ⟨e00, e01, e10, e11, e20, e21, e30, e31, e40, e41, e50, e51⟩ := r5_idx_facts t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 5000 + 1 * (y 0).val = (i 0).val; rw [e10, h0]; omega
  | ⟨1, _⟩ => show win5_1.index t (1 : Fin 2) * 128 + 1 * (y 1).val = (i 1).val; rw [e11, h1]; omega

/-- The first weights' block at every point is the whole array. -/
theorem r5_read2 (c : Dev nD) (t : Fin cfg5.N) (y : S128x128.Idx) (i : S128x128.Idx)
    (h0 : (i 0).val = (y 0).val) (h1 : (i 1).val = (y 1).val) :
    (iblk5 (F := Ideal) V c 2 t : FVec Ideal S128x128 .f32) y = (V c (Pipeline.arrRef spec5 2) : S128x128.Idx → Ideal .f32) i := by
  obtain ⟨e00, e01, e10, e11, e20, e21, e30, e31, e40, e41, e50, e51⟩ := r5_idx_facts t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 128 + 1 * (y 0).val = (i 0).val; rw [e20, h0]; omega
  | ⟨1, _⟩ => show win5_2.index t (1 : Fin 2) * 128 + 1 * (y 1).val = (i 1).val; rw [e21, h1]; omega

/-- The second weights' block at every point is the whole array. -/
theorem r5_read3 (c : Dev nD) (t : Fin cfg5.N) (y : S128x128.Idx) (i : S128x128.Idx)
    (h0 : (i 0).val = (y 0).val) (h1 : (i 1).val = (y 1).val) :
    (iblk5 (F := Ideal) V c 3 t : FVec Ideal S128x128 .f32) y = (V c (Pipeline.arrRef spec5 3) : S128x128.Idx → Ideal .f32) i := by
  obtain ⟨e00, e01, e10, e11, e20, e21, e30, e31, e40, e41, e50, e51⟩ := r5_idx_facts t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 128 + 1 * (y 0).val = (i 0).val; rw [e30, h0]; omega
  | ⟨1, _⟩ => show win5_3.index t (1 : Fin 2) * 128 + 1 * (y 1).val = (i 1).val; rw [e31, h1]; omega

/-- The bias' block at every point is the whole bias row. -/
theorem r5_read4 (c : Dev nD) (t : Fin cfg5.N) (y : S1x128.Idx) (i : S1x128.Idx)
    (h0 : (i 0).val = (y 0).val) (h1 : (i 1).val = (y 1).val) :
    (iblk5 (F := Ideal) V c 4 t : FVec Ideal S1x128 .f32) y = (V c (Pipeline.arrRef spec5 4) : S1x128.Idx → Ideal .f32) i := by
  obtain ⟨e00, e01, e10, e11, e20, e21, e30, e31, e40, e41, e50, e51⟩ := r5_idx_facts t
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (y 0).val = (i 0).val; rw [e40, h0]; omega
  | ⟨1, _⟩ => show win5_4.index t (1 : Fin 2) * 128 + 1 * (y 1).val = (i 1).val; rw [e41, h1]; omega

/-- What point t writes back is block t of the layer's function of the arrays the layer finds. -/
theorem r5_flushed_eq (c : Dev nD) (t : Fin cfg5.N) :
    (dat5 (F := Ideal) V c).flushed 5 t = ((cfg5.win 5).blk t).view.read (Elt Ideal)
      (r4_gcLayer (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero r1_hz]
  simp only [View.ld_unit_zero (S := S5000x128) r1_hz, View.ld_unit_zero (S := S128x128) r1_hz, View.ld_unit_zero (S := S1x128) r1_hz]
  obtain ⟨e00, e01, e10, e11, e20, e21, e30, e31, e40, e41, e50, e51⟩ := r5_idx_facts t
  funext j
  have hi0 : ((((cfg5.win 5).blk t).view.emb j) 0).val = t.val * 5000 + (j 0).val := by
    show win5_5.index t (0 : Fin 2) * 5000 + 1 * (j 0).val = _
    rw [e50]; omega
  have hi1 : ((((cfg5.win 5).blk t).view.emb j) 1).val = (j 1).val := by
    show win5_5.index t (1 : Fin 2) * 128 + 1 * (j 1).val = _
    rw [e51]; omega
  show k5_pay1 (F := Ideal) (iblk5 V c 0 t) (iblk5 V c 1 t) (iblk5 V c 2 t) (iblk5 V c 3 t) (iblk5 V c 4 t) j
      = r4_gcLayer (V c (Pipeline.arrRef spec5 0)) (V c (Pipeline.arrRef spec5 1)) (V c (Pipeline.arrRef spec5 2)) (V c (Pipeline.arrRef spec5 3)) (V c (Pipeline.arrRef spec5 4)) (((cfg5.win 5).blk t).view.emb j)
  refine (r5_pay_at (iblk5 V c 0 t) (iblk5 V c 1 t) (iblk5 V c 2 t) (iblk5 V c 3 t) (iblk5 V c 4 t) j).trans ?_
  refine congrArg r1_leaky ?_
  refine congrArg₂ (· + ·) (congrArg₂ (· + ·) (Finset.sum_congr rfl fun k _ => ?_) (Finset.sum_congr rfl fun k _ => ?_)) (r5_read4 V c t (r1_biasIn j) _ rfl hi1)
  · exact congrArg₂ (· * ·) (r5_read0 V c t (r1_rowIn j k) _ hi0 rfl) (r5_read2 V c t (r1_colIn j k) _ rfl hi1)
  · exact congrArg₂ (· * ·) (r5_read1 V c t (r1_rowIn j k) _ hi0 rfl) (r5_read3 V c t (r1_colIn j k) _ rfl hi1)

/-- An entry of the result array is in point t's block iff its row is among the block's 5000 rows. -/
theorem r5_mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v110).slice (win5_5.rect t)).set ↔ _
  rw [View.set_slice_whole, Rect.mem_set_unit]
  exact Iff.rfl

/-- Every entry of the result array is written back by the point of its row block: row r by point r / 5000. -/
theorem r5_cover (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : grid5.N = 10 := N_5
  have ht : (i 0).val / 5000 < grid5.N := by rw [hN]; omega
  obtain ⟨e00, e01, e10, e11, e20, e21, e30, e31, e40, e41, e50, e51⟩ := r5_idx_facts ⟨(i 0).val / 5000, ht⟩
  refine ⟨⟨(i 0).val / 5000, ht⟩, flush5_5 _, ?_⟩
  rw [r5_mem_blk]
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e50]
    show (i 0).val / 5000 * 5000 ≤ (i 0).val ∧ (i 0).val < (i 0).val / 5000 * 5000 + 5000
    omega
  | ⟨1, _⟩ =>
    show win5_5.index ⟨(i 0).val / 5000, ht⟩ (1 : Fin 2) * 128 ≤ (i 1).val ∧ (i 1).val < win5_5.index ⟨(i 0).val / 5000, ht⟩ (1 : Fin 2) * 128 + 128
    rw [e51]
    omega

/-- THE RESULT ARRAY of the second fused graph-convolution layer: the layer's function of the arrays the layer finds. -/
theorem r5_value (c : Dev nD) :
    (dat5 (F := Ideal) V c).arrAt 5 cfg5.N
      = r4_gcLayer (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5
    (r4_gcLayer (V c (Pipeline.arrRef spec5 0)) (V c (Pipeline.arrRef spec5 1)) (V c (Pipeline.arrRef spec5 2)) (V c (Pipeline.arrRef spec5 3)) (V c (Pipeline.arrRef spec5 4)))
    (fun t _ => r5_flushed_eq V c t) r5_cover

end Cert.KernelIdeal.RegionValue

end
-- ==== Proof.Layer4.lean ====
/-
  The second graph layer: the first graph layer's reading repeated on the third layer's output, which
  is finite for the same reason as before.
-/
import proofs.«147182_j79147657330978_1_alg».proof.Proof.Layer3
import proofs.«147182_j79147657330978_1_alg».proof.Proof.Region5

set_option maxRecDepth 16384

noncomputable section

namespace Cert.KernelIdeal.Stages

open Cert.KernelIdeal Cert.KernelIdeal.Gen Cert.KernelIdeal.Fold Cert.KernelIdeal.RegionValue
open Cert.ReferenceIdeal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- `main_v5` is untouched from boundary 5 to boundary 13. -/
theorem v5_at13 : W13 m ρ c (Proc.devRef .tc main_v5) = val_main_v123 (F := Ideal) (A1 m c) :=
  (((W13_of_ne m ρ c main_v5 (by decide)).trans ((keep4 m ρ c main_v5 (by decide)).trans ((W11_of_ne m ρ c main_v5 (by decide)).trans ((keep3 m ρ c main_v5 (by decide)).trans ((W9_of_ne m ρ c main_v5 (by decide)).trans ((W8_of_ne m ρ c main_v5 (by decide)).trans ((keep1 m ρ c main_v5 (by decide)).trans (W6_of_ne m ρ c main_v5 (by decide)))))))))).trans (lead_v5 m ρ c)
/-- `main_v7` is untouched from boundary 5 to boundary 13. -/
theorem v7_at13 : W13 m ρ c (Proc.devRef .tc main_v7) = val_main_v125 (F := Ideal) (A1 m c) :=
  (((W13_of_ne m ρ c main_v7 (by decide)).trans ((keep4 m ρ c main_v7 (by decide)).trans ((W11_of_ne m ρ c main_v7 (by decide)).trans ((keep3 m ρ c main_v7 (by decide)).trans ((W9_of_ne m ρ c main_v7 (by decide)).trans ((W8_of_ne m ρ c main_v7 (by decide)).trans ((keep1 m ρ c main_v7 (by decide)).trans (W6_of_ne m ρ c main_v7 (by decide)))))))))).trans (lead_v7 m ρ c)
/-- Argument 17 is untouched up to boundary 13. -/
theorem arg17_at13 : W13 m ρ c (Proc.devRef .tc main_arg17) = A17 m c :=
  ((W13_of_ne m ρ c main_arg17 (by decide)).trans ((keep4 m ρ c main_arg17 (by decide)).trans ((W11_of_ne m ρ c main_arg17 (by decide)).trans ((keep3 m ρ c main_arg17 (by decide)).trans ((W9_of_ne m ρ c main_arg17 (by decide)).trans ((W8_of_ne m ρ c main_arg17 (by decide)).trans ((keep1 m ρ c main_arg17 (by decide)).trans ((W6_of_ne m ρ c main_arg17 (by decide)).trans ((keep0_4 m ρ c main_arg17 (by decide)).trans ((keep0_3 m ρ c main_arg17 (by decide)).trans ((keep0_2 m ρ c main_arg17 (by decide)).trans ((keep0_1 m ρ c main_arg17 (by decide)).trans (keep0 m ρ c main_arg17 (by decide))))))))))))))
/-- Argument 18 is untouched up to boundary 13. -/
theorem arg18_at13 : W13 m ρ c (Proc.devRef .tc main_arg18) = A18 m c :=
  ((W13_of_ne m ρ c main_arg18 (by decide)).trans ((keep4 m ρ c main_arg18 (by decide)).trans ((W11_of_ne m ρ c main_arg18 (by decide)).trans ((keep3 m ρ c main_arg18 (by decide)).trans ((W9_of_ne m ρ c main_arg18 (by decide)).trans ((W8_of_ne m ρ c main_arg18 (by decide)).trans ((keep1 m ρ c main_arg18 (by decide)).trans ((W6_of_ne m ρ c main_arg18 (by decide)).trans ((keep0_4 m ρ c main_arg18 (by decide)).trans ((keep0_3 m ρ c main_arg18 (by decide)).trans ((keep0_2 m ρ c main_arg18 (by decide)).trans ((keep0_1 m ρ c main_arg18 (by decide)).trans (keep0 m ρ c main_arg18 (by decide))))))))))))))
/-- Argument 19 is untouched up to boundary 13. -/
theorem arg19_at13 : W13 m ρ c (Proc.devRef .tc main_arg19) = A19 m c :=
  ((W13_of_ne m ρ c main_arg19 (by decide)).trans ((keep4 m ρ c main_arg19 (by decide)).trans ((W11_of_ne m ρ c main_arg19 (by decide)).trans ((keep3 m ρ c main_arg19 (by decide)).trans ((W9_of_ne m ρ c main_arg19 (by decide)).trans ((W8_of_ne m ρ c main_arg19 (by decide)).trans ((keep1 m ρ c main_arg19 (by decide)).trans ((W6_of_ne m ρ c main_arg19 (by decide)).trans ((keep0_4 m ρ c main_arg19 (by decide)).trans ((keep0_3 m ρ c main_arg19 (by decide)).trans ((keep0_2 m ρ c main_arg19 (by decide)).trans ((keep0_1 m ρ c main_arg19 (by decide)).trans (keep0 m ρ c main_arg19 (by decide))))))))))))))
/-- Argument 20 is untouched up to boundary 13. -/
theorem arg20_at13 : W13 m ρ c (Proc.devRef .tc main_arg20) = A20 m c :=
  ((W13_of_ne m ρ c main_arg20 (by decide)).trans ((keep4 m ρ c main_arg20 (by decide)).trans ((W11_of_ne m ρ c main_arg20 (by decide)).trans ((keep3 m ρ c main_arg20 (by decide)).trans ((W9_of_ne m ρ c main_arg20 (by decide)).trans ((W8_of_ne m ρ c main_arg20 (by decide)).trans ((keep1 m ρ c main_arg20 (by decide)).trans ((W6_of_ne m ρ c main_arg20 (by decide)).trans ((keep0_4 m ρ c main_arg20 (by decide)).trans ((keep0_3 m ρ c main_arg20 (by decide)).trans ((keep0_2 m ρ c main_arg20 (by decide)).trans ((keep0_1 m ρ c main_arg20 (by decide)).trans (keep0 m ρ c main_arg20 (by decide))))))))))))))
/-- The fourth layer's aggregate. -/
theorem st_v106 [hPre_finite_inputs : Cert.Pre_finite_inputs.Facts] (hpre : Cert.Pre_KernelIdeal m) : W14 m ρ c (Proc.devRef .tc main_v106) = val_main_v165 (F := Ideal) (A0 m c) (A1 m c) (A2 m c) (A3 m c) (A4 m c) (A5 m c) (A6 m c) (A7 m c) (A8 m c) (A9 m c) (A10 m c) (A11 m c) (A12 m c) (A13 m c) (A14 m c) (A15 m c) := by
  show StableHlo.after hostOps5 (W13 m ρ c) (Proc.devRef .tc main_v106) = _
  after_results_simp
  rw [st_v96 m ρ c hpre, v5_at13 m ρ c, v7_at13 m ρ c]
  simp only [val_main_v165, val_main_v163, val_main_cst_39, val_main_v164, val_main_v155, val_main_v154, val_main_v162, val_main_v161, val_main_v160, val_main_v157, val_main_v153, val_main_v152, val_main_v156, val_main_c_37, val_main_v159, val_main_v158, val_main_c_38, val_main_v45, val_main_v16, val_main_v13, val_main_v8, val_main_v6, val_main_cst_0, val_main_v7, val_main_v1, val_main_v0, val_main_v5, val_main_cst, val_main_v12, val_main_cst_2, val_main_v15, val_main_v14, val_main_cst_3, val_main_call0_v1, val_main_call0_v0, val_main_cst_4, val_main_v32, val_main_v21, val_main_v18, val_main_v11, val_main_v9, val_main_cst_1, val_main_v10, val_main_v3, val_main_v2, val_main_v17, val_main_cst_5, val_main_v20, val_main_v19, val_main_cst_6, val_main_call1_v1, val_main_call1_v0, val_main_cst_7, val_main_v123, val_main_v122, val_main_v125, val_main_v124] <;> rfl
/-- The root and the residual weights of the fourth layer, added. -/
theorem st_v107 : W14 m ρ c (Proc.devRef .tc main_v107) = weightSum (A18 m c) (A19 m c) := by
  show StableHlo.after hostOps5 (W13 m ρ c) (Proc.devRef .tc main_v107) = _
  after_results_simp
  rw [arg18_at13 m ρ c, arg19_at13 m ρ c] <;> rfl
/-- The two biases of the fourth layer, added and laid out as one row. -/
theorem st_v109 : W14 m ρ c (Proc.devRef .tc main_v109) = biasRow (A17 m c) (A20 m c) := by
  show StableHlo.after hostOps5 (W13 m ρ c) (Proc.devRef .tc main_v109) = _
  after_results_simp
  rw [arg17_at13 m ρ c, arg20_at13 m ρ c] <;> rfl
/-- `main_v96` is untouched across the stretch after its region. -/
theorem v96_at14 [hPre_finite_inputs : Cert.Pre_finite_inputs.Facts] (hpre : Cert.Pre_KernelIdeal m) : W14 m ρ c (Proc.devRef .tc main_v96) = val_main_v151 (F := Ideal) (A0 m c) (A1 m c) (A2 m c) (A3 m c) (A4 m c) (A5 m c) (A6 m c) (A7 m c) (A8 m c) (A9 m c) (A10 m c) (A11 m c) (A12 m c) (A13 m c) (A14 m c) (A15 m c) :=
  ((keep5 m ρ c main_v96 (by decide))).trans (st_v96 m ρ c hpre)
/-- Argument 16 is untouched up to boundary 14. -/
theorem arg16_at14 : W14 m ρ c (Proc.devRef .tc main_arg16) = A16 m c :=
  ((keep5 m ρ c main_arg16 (by decide)).trans ((W13_of_ne m ρ c main_arg16 (by decide)).trans ((keep4 m ρ c main_arg16 (by decide)).trans ((W11_of_ne m ρ c main_arg16 (by decide)).trans ((keep3 m ρ c main_arg16 (by decide)).trans ((W9_of_ne m ρ c main_arg16 (by decide)).trans ((W8_of_ne m ρ c main_arg16 (by decide)).trans ((keep1 m ρ c main_arg16 (by decide)).trans ((W6_of_ne m ρ c main_arg16 (by decide)).trans ((keep0_4 m ρ c main_arg16 (by decide)).trans ((keep0_3 m ρ c main_arg16 (by decide)).trans ((keep0_2 m ρ c main_arg16 (by decide)).trans ((keep0_1 m ρ c main_arg16 (by decide)).trans (keep0 m ρ c main_arg16 (by decide)))))))))))))))
/-- The third layer's output is finite. -/
theorem fin_layer3 [hPre_finite_inputs : Cert.Pre_finite_inputs.Facts] (hpre : Cert.Pre_KernelIdeal m) : Cert.Hand.IsFin (val_main_v151 (F := Ideal) (A0 m c) (A1 m c) (A2 m c) (A3 m c) (A4 m c) (A5 m c) (A6 m c) (A7 m c) (A8 m c) (A9 m c) (A10 m c) (A11 m c) (A12 m c) (A13 m c) (A14 m c) (A15 m c)) :=
  (Cert.Hand.fin_v151_of_args (A1 m c) (A2 m c) (Cert.Hand.PreFinite.fin_arg0 m hpre c) (Cert.Hand.PreFinite.fin_arg3 m hpre c) (Cert.Hand.PreFinite.fin_arg4 m hpre c) (Cert.Hand.PreFinite.fin_arg5 m hpre c) (Cert.Hand.PreFinite.fin_arg6 m hpre c) (Cert.Hand.PreFinite.fin_arg7 m hpre c) (Cert.Hand.PreFinite.fin_arg8 m hpre c) (Cert.Hand.PreFinite.fin_arg9 m hpre c) (Cert.Hand.PreFinite.fin_arg10 m hpre c) (Cert.Hand.PreFinite.fin_arg11 m hpre c) (Cert.Hand.PreFinite.fin_arg12 m hpre c) (Cert.Hand.PreFinite.fin_arg13 m hpre c) (Cert.Hand.PreFinite.fin_arg14 m hpre c) (Cert.Hand.PreFinite.fin_arg15 m hpre c))

/-- After the sixth region `main_v110` is the fourth layer's output: the program's first result. -/
theorem st_v110 [hPre_finite_inputs : Cert.Pre_finite_inputs.Facts] (hpre : Cert.Pre_KernelIdeal m) : W15 m ρ c (Proc.devRef .tc main_v110) = val_main_v181 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) := by
  refine (W15_arr m ρ c 5).trans ((r5_value (V14 m ρ) c).trans ?_)
  rw [show V14 m ρ c (Pipeline.arrRef spec5 0) = _ from st_v106 m ρ c hpre, show V14 m ρ c (Pipeline.arrRef spec5 1) = _ from v96_at14 m ρ c hpre,
    show V14 m ρ c (Pipeline.arrRef spec5 2) = _ from arg16_at14 m ρ c, show V14 m ρ c (Pipeline.arrRef spec5 3) = _ from st_v107 m ρ c,
    show V14 m ρ c (Pipeline.arrRef spec5 4) = _ from st_v109 m ρ c]
  refine (br_gc _ _ (A16 m c) (A18 m c) (A19 m c) (A17 m c) (A20 m c) (fin_layer3 m c hpre) (Cert.Hand.PreFinite.fin_arg18 m hpre c) (Cert.Hand.PreFinite.fin_arg19 m hpre c)).trans ?_
  simp only [val_main_v181, val_main_v178, val_main_v176, val_main_v171, val_main_v169, val_main_v168, val_main_v167, val_main_v175, val_main_v174, val_main_v173, val_main_v177, val_main_cst_40, val_main_v180, val_main_v179, val_main_cst_41, val_main_v166, val_main_v170, val_main_v172] <;> rfl
end Cert.KernelIdeal.Stages

end
-- ==== Proof.Region6.lean ====
/-
  The final layer of the network: the features after the last graph layer [50000, 128] times the
  output weight matrix [128, 64], plus the output bias, a row of 64 numbers laid along every row.
  Grid point t takes rows 5000·t … 5000·t + 4999 of the features, the whole weight matrix and the
  whole bias row, forms the product (a reshape to the same shape and the narrowing casts are the
  identity, the accumulator starts at zero) and adds the bias row to each of its rows, and writes
  the block back to the same rows of the result. The ten row blocks tile the result, so after the
  last point entry (p, q) of the result array is the contraction of row p of the features with
  column q of the weights, plus entry q of the bias.
-/
import proofs.«147182_j79147657330978_1_alg».proof.Proof.Gen.KernelIdeal.Frame
import proofs.«147182_j79147657330978_1_alg».proof.Proof.RegionIdx
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)

/-! ## One row block times the weight matrix, plus the bias row, at an entry -/

/-- Entry (row of j, column k) of a [5000, 128] row block. -/
abbrev r6_blockRow (j : S5000x64.Idx) (k : Fin 128) : S5000x128.Idx := fun a => match a with
  | ⟨0, _⟩ => ⟨(j 0).val, (j 0).isLt⟩
  | ⟨1, _⟩ => ⟨k.val, k.isLt⟩

/-- Entry (row k, column of j) of the [128, 64] weight matrix. -/
abbrev r6_blockCol (j : S5000x64.Idx) (k : Fin 128) : S128x64.Idx := fun a => match a with
  | ⟨0, _⟩ => ⟨k.val, k.isLt⟩
  | ⟨1, _⟩ => ⟨(j 1).val, (j 1).isLt⟩

/-- Entry (0, column of j) of the [1, 64] bias row. -/
abbrev r6_blockBias (j : S5000x64.Idx) : S1x64.Idx := fun a => match a with
  | ⟨0, _⟩ => ⟨0, Nat.zero_lt_one⟩
  | ⟨1, _⟩ => ⟨(j 1).val, (j 1).isLt⟩

/-- The left factor of the contraction keeps the row of the output entry … -/
theorem r6_lhs_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and runs over the shared position along its columns. -/
theorem r6_lhs_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- The right factor runs over the shared position along its rows … -/
theorem r6_rhs_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- … and keeps the column of the output entry. -/
theorem r6_rhs_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product part of one grid point's result, at entry j of the block: the sum over the 128
    shared positions of the products. -/
theorem r6_blockProduct_apply (x : Vec Ideal S5000x128 .f32) (w : Vec Ideal S128x64 .f32) (j : S5000x64.Idx) :
    (matmul dot_S5000x128_S128x64_S5000x64_1_0_0_1_n_n none (truncf .bf16 x bitsLt_bf16_f32) (truncf .bf16 w bitsLt_bf16_f32)
        (constant (F := Ideal) S5000x64 .f32 0x00000000#32) : FVec Ideal S5000x64 .f32) j
      = ∑ k : Fin 128, x (r6_blockRow j k) * w (r6_blockCol j k) := by
  refine (Ideal.matmul_constant_zero_apply dot_S5000x128_S128x64_S5000x64_1_0_0_1_n_n none
    (truncf .bf16 x bitsLt_bf16_f32) (truncf .bf16 w bitsLt_bf16_f32) j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = r6_blockRow j k := funext fun a => Fin.ext (by
    match a with
    | ⟨0, _⟩ => exact r6_lhs_row _ _
    | ⟨1, _⟩ => exact (r6_lhs_col _ _).trans hk)
  have er : dot_S5000x128_S128x64_S5000x64_1_0_0_1_n_n.rhsIdx j ((ValueIdx.contrEquiv1 dot_S5000x128_S128x64_S5000x64_1_0_0_1_n_n 128 rfl rfl).symm k) = r6_blockCol j k := funext fun a => Fin.ext (by
    match a with
    | ⟨0, _⟩ => exact (r6_rhs_row _ _).trans hk
    | ⟨1, _⟩ => exact r6_rhs_col _ _)
  show x _ * w _ = _
  rw [el, er]

/-- The bias row laid along every row of the block, at entry j: the bias at the column of j. -/
theorem r6_blockBias_apply (b : Vec Ideal S1x64 .f32) (j : S5000x64.Idx) :
    broadcastTo S5000x64 b broadcasts_S1x64_S5000x64 j = b (r6_blockBias j) :=
  broadcastTo_apply b broadcasts_S1x64_S5000x64 j (r6_blockBias j) (fun a => match a with
    | ⟨0, _⟩ => rfl
    | ⟨1, _⟩ => rfl)

/-- What one grid point computes from its three loaded blocks, at entry j of the block. -/
theorem r6_blockAffine_apply (x : Vec Ideal S5000x128 .f32) (w : Vec Ideal S128x64 .f32) (b : Vec Ideal S1x64 .f32) (j : S5000x64.Idx) :
    Gen.k6_pay1 (F := Ideal) x w b j = (∑ k : Fin 128, x (r6_blockRow j k) * w (r6_blockCol j k)) + b (r6_blockBias j) := by
  have hs : shapeCast S5000x128 x shapeCasts_S5000x128_S5000x128 = x := shapeCast_self x _
  have hb : shapeCast S1x64 b shapeCasts_S1x64_S1x64 = b := shapeCast_self b _
  unfold Gen.k6_pay1
  refine (ValueIdx.addf_apply
    (matmul dot_S5000x128_S128x64_S5000x64_1_0_0_1_n_n none (truncf .bf16 (shapeCast S5000x128 x shapeCasts_S5000x128_S5000x128) bitsLt_bf16_f32) (truncf .bf16 w bitsLt_bf16_f32) (constant (F := Ideal) S5000x64 .f32 0x00000000#32))
    (broadcastTo S5000x64 (shapeCast S1x64 b shapeCasts_S1x64_S1x64) broadcasts_S1x64_S5000x64) j).trans ?_
  rw [hs, hb]
  exact congrArg₂ (· + ·) (r6_blockProduct_apply x w j) (r6_blockBias_apply b j)

/-! ## From the ten row blocks to the whole array -/

variable (V : (c : Dev nD) → (b : Ref sig .tc) → Buf (Elt Ideal) ((c : Thread nD τ).loc b))

theorem r6_zeroOffsets : (![0, 0] : Fin 2 → Nat) = fun _ => 0 := funext fun a => by fin_cases a <;> rfl

/-- Where each window's block sits at grid point t: the feature rows and the result rows move with
    t, the weight matrix and the bias row stay whole. -/
theorem r6_blockPositions : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- The matrix product of two whole arrays plus a bias row, entry by entry. -/
abbrev r6_affine (X : S50000x128.Idx → EReal) (W : S128x64.Idx → EReal) (B : S1x64.Idx → EReal) : S50000x64.Idx → EReal :=
  fun i => (∑ k : Fin 128, X (atRow64 i k) * W (atCol64 i k)) + B (atBias64 i)

/-- A contraction term and a bias entry read at equal positions. -/
theorem r6_entry_congr (X : S50000x128.Idx → EReal) (W : S128x64.Idx → EReal) {p p' : S50000x128.Idx} {q q' : S128x64.Idx}
    (hp : p = p') (hq : q = q') : X p * W q = X p' * W q' := by rw [hp, hq]

/-- What grid point t writes back is block t of the whole result. -/
theorem r6_pointWritesBlock (c : Dev nD) (t : Fin cfg6.N) :
    (dat6 (F := Ideal) V c).flushed 3 t
      = ((cfg6.win 3).blk t).view.read (Elt Ideal) (r6_affine (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero r6_zeroOffsets]
  simp only [View.ld_unit_zero (S := S5000x128) r6_zeroOffsets, View.ld_unit_zero (S := S128x64) r6_zeroOffsets, View.ld_unit_zero (S := S1x64) r6_zeroOffsets]
  obtain ⟨e00, e01, e10, e11, e20, e21, e30, e31⟩ := r6_blockPositions t
  funext j
  show k6_pay1 (F := Ideal) (iblk6 V c 0 t) (iblk6 V c 1 t) (iblk6 V c 2 t) j = r6_affine (V c (Pipeline.arrRef spec6 0)) (V c (Pipeline.arrRef spec6 1)) (V c (Pipeline.arrRef spec6 2)) (((cfg6.win 3).blk t).view.emb j)
  refine (r6_blockAffine_apply (iblk6 V c 0 t) (iblk6 V c 1 t) (iblk6 V c 2 t) j).trans ?_
  have hb : ((cfg6.win 2).blk t).view.emb (r6_blockBias j) = atBias64 (((cfg6.win 3).blk t).view.emb j) := by
    funext a; apply Fin.ext
    match a with
    | ⟨0, _⟩ => show win6_2.index t (0 : Fin 2) * 1 + 1 * 0 = 0; omega
    | ⟨1, _⟩ => show win6_2.index t (1 : Fin 2) * 64 + 1 * (j 1).val = win6_3.index t (1 : Fin 2) * 64 + 1 * (j 1).val; omega
  refine congrArg₂ (· + ·) (Finset.sum_congr rfl fun k _ => ?_) (congrArg (V c (Pipeline.arrRef spec6 2) : S1x64.Idx → EReal) hb)
  have hx : ((cfg6.win 0).blk t).view.emb (r6_blockRow j k) = atRow64 (((cfg6.win 3).blk t).view.emb j) k := by
    funext a; apply Fin.ext
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  have hw : ((cfg6.win 1).blk t).view.emb (r6_blockCol j k) = atCol64 (((cfg6.win 3).blk t).view.emb j) k := by
    funext a; apply Fin.ext
    match a with
    | ⟨0, _⟩ => show win6_1.index t (0 : Fin 2) * 128 + 1 * k.val = k.val; omega
    | ⟨1, _⟩ => show win6_1.index t (1 : Fin 2) * 64 + 1 * (j 1).val = win6_3.index t (1 : Fin 2) * 64 + 1 * (j 1).val; omega
  exact r6_entry_congr (V c (Pipeline.arrRef spec6 0)) (V c (Pipeline.arrRef spec6 1)) hx hw

/-- An entry of the result is in point t's block iff each coordinate is in the block's range. -/
theorem r6_inBlock_iff (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v112).slice (win6_3.rect t)).set ↔ _
  rw [View.set_slice_whole, Rect.mem_set_unit]
  exact Iff.rfl

/-- Every entry of the result is in some point's block: row r is in block r / 5000. -/
theorem r6_rowsCovered (i : S50000x64.Idx) :
    ∃ t : Fin cfg6.N, (cfg6.win 3).flush t = true ∧ i ∈ ((cfg6.win 3).blk t).view.set := by
  have hN : cfg6.N = 10 := N_6
  have hi0 : (i 0).val < 50000 := (i 0).isLt
  have hi1 : (i 1).val < 64 := (i 1).isLt
  let t : Fin cfg6.N := ⟨(i 0).val / 5000, by omega⟩
  obtain ⟨e00, e01, e10, e11, e20, e21, e30, e31⟩ := r6_blockPositions t
  have ht : t.val = (i 0).val / 5000 := rfl
  refine ⟨t, flush6_3 t, ?_⟩
  rw [r6_inBlock_iff]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The result array after the ten points: the product of the feature array and the weight array
    plus the bias row, all as the region found them, entry by entry. -/
theorem region6_value (c : Dev nD) :
    (dat6 (F := Ideal) V c).arrAt 3 cfg6.N = r6_affine (V c (Pipeline.arrRef spec6 0)) (V c (Pipeline.arrRef spec6 1)) (V c (Pipeline.arrRef spec6 2)) :=
  (dat6 (F := Ideal) V c).arrAt_eq_of_cover 3 (r6_affine (V c (Pipeline.arrRef spec6 0)) (V c (Pipeline.arrRef spec6 1)) (V c (Pipeline.arrRef spec6 2)))
    (fun t _ => r6_pointWritesBlock V c t) r6_rowsCovered

/-- The same with the three arrays named: whatever the feature array X, the weight array W and the
    bias row B are known to be when the region is entered, the result is X·W plus B along every row. -/
theorem region6_value_of (c : Dev nD) (X : S50000x128.Idx → EReal) (W : S128x64.Idx → EReal) (B : S1x64.Idx → EReal)
    (hX : V c (Pipeline.arrRef spec6 0) = X) (hW : V c (Pipeline.arrRef spec6 1) = W) (hB : V c (Pipeline.arrRef spec6 2) = B) :
    (dat6 (F := Ideal) V c).arrAt 3 cfg6.N = fun i => (∑ k : Fin 128, X (atRow64 i k) * W (atCol64 i k)) + B (atBias64 i) := by
  subst hX hW hB
  exact region6_value V c

end Cert.KernelIdeal.RegionValue

end
-- ==== Proof.Final.lean ====
/-
  The output projection: the last region multiplies the fourth layer's output by the output weights and
  adds the output bias, laid out as one row; the reference broadcasts the bias the same way.
-/
import proofs.«147182_j79147657330978_1_alg».proof.Proof.Layer4
import proofs.«147182_j79147657330978_1_alg».proof.Proof.Region6

set_option maxRecDepth 16384

noncomputable section

namespace Cert.KernelIdeal.Stages

open Cert.KernelIdeal Cert.KernelIdeal.Gen Cert.KernelIdeal.Fold Cert.KernelIdeal.RegionValue
open Cert.ReferenceIdeal.Read
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- Argument 22 is untouched up to boundary 15. -/
theorem arg22_at15 : W15 m ρ c (Proc.devRef .tc main_arg22) = A22 m c :=
  ((W15_of_ne m ρ c main_arg22 (by decide)).trans ((keep5 m ρ c main_arg22 (by decide)).trans ((W13_of_ne m ρ c main_arg22 (by decide)).trans ((keep4 m ρ c main_arg22 (by decide)).trans ((W11_of_ne m ρ c main_arg22 (by decide)).trans ((keep3 m ρ c main_arg22 (by decide)).trans ((W9_of_ne m ρ c main_arg22 (by decide)).trans ((W8_of_ne m ρ c main_arg22 (by decide)).trans ((keep1 m ρ c main_arg22 (by decide)).trans ((W6_of_ne m ρ c main_arg22 (by decide)).trans ((keep0_4 m ρ c main_arg22 (by decide)).trans ((keep0_3 m ρ c main_arg22 (by decide)).trans ((keep0_2 m ρ c main_arg22 (by decide)).trans ((keep0_1 m ρ c main_arg22 (by decide)).trans (keep0 m ρ c main_arg22 (by decide))))))))))))))))
/-- The output bias laid out as one row. -/
theorem st_v111 : W16 m ρ c (Proc.devRef .tc main_v111) = outRow (A22 m c) := by
  show StableHlo.after hostOps6 (W15 m ρ c) (Proc.devRef .tc main_v111) = _
  after_results_simp
  rw [arg22_at15 m ρ c] <;> rfl
/-- `main_v110` is untouched across the last stretch. -/
theorem v110_at16 [hPre_finite_inputs : Cert.Pre_finite_inputs.Facts] (hpre : Cert.Pre_KernelIdeal m) : W16 m ρ c (Proc.devRef .tc main_v110) = val_main_v181 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) :=
  ((keep6 m ρ c main_v110 (by decide))).trans (st_v110 m ρ c hpre)
/-- Argument 21 is untouched up to boundary 16. -/
theorem arg21_at16 : W16 m ρ c (Proc.devRef .tc main_arg21) = A21 m c :=
  ((keep6 m ρ c main_arg21 (by decide)).trans ((W15_of_ne m ρ c main_arg21 (by decide)).trans ((keep5 m ρ c main_arg21 (by decide)).trans ((W13_of_ne m ρ c main_arg21 (by decide)).trans ((keep4 m ρ c main_arg21 (by decide)).trans ((W11_of_ne m ρ c main_arg21 (by decide)).trans ((keep3 m ρ c main_arg21 (by decide)).trans ((W9_of_ne m ρ c main_arg21 (by decide)).trans ((W8_of_ne m ρ c main_arg21 (by decide)).trans ((keep1 m ρ c main_arg21 (by decide)).trans ((W6_of_ne m ρ c main_arg21 (by decide)).trans ((keep0_4 m ρ c main_arg21 (by decide)).trans ((keep0_3 m ρ c main_arg21 (by decide)).trans ((keep0_2 m ρ c main_arg21 (by decide)).trans ((keep0_1 m ρ c main_arg21 (by decide)).trans (keep0 m ρ c main_arg21 (by decide)))))))))))))))))
/-- After the last region `main_v112` is the program's second result, the reference's last stage. -/
theorem st_v112 [hPre_finite_inputs : Cert.Pre_finite_inputs.Facts] (hpre : Cert.Pre_KernelIdeal m) : W17 m ρ c (Proc.devRef .tc main_v112) = val_main_v185 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) := by
  refine (W17_arr m ρ c 3).trans ((region6_value_of (V16 m ρ) c _ (A21 m c) _ (v110_at16 m ρ c hpre) (arg21_at16 m ρ c) (st_v111 m ρ c)).trans ?_)
  refine (br_final _ (A21 m c) (A22 m c)).trans ?_
  simp only [val_main_v185, val_main_v184, val_main_v183, val_main_v182] <;> rfl

/-- The first result is untouched by the last stretch and the last region, which only reads it. -/
theorem res_v110 [hPre_finite_inputs : Cert.Pre_finite_inputs.Facts] (hpre : Cert.Pre_KernelIdeal m) : W17 m ρ c (Proc.devRef .tc main_v110) = val_main_v181 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) :=
  ((((W17_arr m ρ c 0).trans (((dat6 (V16 m ρ) c).arrAt_in 0 rfl _).trans (A_eq6 (V16 m ρ) c 0))).trans (keep6 m ρ c main_v110 (by decide)))).trans (st_v110 m ρ c hpre)
end Cert.KernelIdeal.Stages

end
-- ==== Proof.lean ====
/-
  A four-layer network on a hypergraph and a graph over the same 50000 nodes, with 128 features a node:
  two hypergraph layers X ← leaky(D⁻¹ H B⁻¹ Hᵀ (X Θ) + X L + b), two graph layers
  X ← leaky((Σ_{j→i} X_j) R + X (W₁ + W₂) + c), and an output projection y = X F + f, the results being the
  last X and y. The kernel computes every dense piece in a region of row blocks and the sums over
  incidences and edges by host gathers and scatter-adds; the reference is plain array code that adds each
  bias to its own term and multiplies by W₁ and by W₂ separately.
  At the ideal reading (floats are extended reals, every operation exact, a change of format the identity):
  * the reference runs, and its results are its stages' composed terms (its generated run);
  * the kernel runs, and its two result buffers end at the last stage of its boundary fold, which is
    identified with the reference's stages one boundary at a time: a host stretch is the same operations
    applied to equal arrays; a region's output array is one index-by-index formula of its input arrays;
    the layers' formulas agree by commutativity and associativity of the extended-real sum and, in the two
    graph layers, by x·(a + b) = x·a + x·b in each contraction, which holds because the layer's input and
    the weights are FINITE — the precondition makes every float argument finite and every stage maps
    finite arrays to finite arrays;
  * nothing was rewritten by the idealization, so it preserves the program as printed.
-/
import proofs.«147182_j79147657330978_1_alg».proof.Defs
import proofs.«147182_j79147657330978_1_alg».proof.Proof.Gen.Kernel
import proofs.«147182_j79147657330978_1_alg».proof.Proof.Gen.Kernel.Skeleton
import proofs.«147182_j79147657330978_1_alg».proof.Proof.Gen.Kernel.Launch
import proofs.«147182_j79147657330978_1_alg».proof.Proof.Gen.Kernel.Points
import proofs.«147182_j79147657330978_1_alg».proof.Proof.Gen.Kernel.Frame
import proofs.«147182_j79147657330978_1_alg».proof.Proof.Gen.KernelIdeal
import proofs.«147182_j79147657330978_1_alg».proof.Proof.Gen.KernelIdeal.Skeleton
import proofs.«147182_j79147657330978_1_alg».proof.Proof.Gen.KernelIdeal.Launch
import proofs.«147182_j79147657330978_1_alg».proof.Proof.Gen.KernelIdeal.Points
import proofs.«147182_j79147657330978_1_alg».proof.Proof.Gen.KernelIdeal.Frame
import proofs.«147182_j79147657330978_1_alg».proof.Proof.Gen.ReferenceIdeal
import proofs.«147182_j79147657330978_1_alg».proof.Proof.Gen.Pre_finite_inputs
import proofs.«147182_j79147657330978_1_alg».proof.Proof.RefRun
import proofs.«147182_j79147657330978_1_alg».proof.Proof.RunValues
import proofs.«147182_j79147657330978_1_alg».proof.Proof.Final
import Idealize.ShloMosaic.Adequacy
import Idealize.ShloMosaic.Init

set_option maxRecDepth 16384

noncomputable section

namespace Cert.Proof

open Idealize.ShloMosaic Idealize.SL.Sem

/-- The kernel as printed runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, finite on the kernel's side, both idealized programs run and end with
    the reference's two last stages of the kernel's launch arrays as results. -/
theorem algebraic : Cert.algebraic_KernelIdeal_ReferenceIdeal := by
  intro m ρ m' ρ' hpre hagree
  refine ⟨fun c => Cert.ReferenceIdeal.Read.val_main_v181 (F := Ideal) (Cert.KernelIdeal.Stages.A0 m c) (Cert.KernelIdeal.Stages.A1 m c) (Cert.KernelIdeal.Stages.A2 m c) (Cert.KernelIdeal.Stages.A3 m c) (Cert.KernelIdeal.Stages.A4 m c) (Cert.KernelIdeal.Stages.A5 m c) (Cert.KernelIdeal.Stages.A6 m c) (Cert.KernelIdeal.Stages.A7 m c) (Cert.KernelIdeal.Stages.A8 m c) (Cert.KernelIdeal.Stages.A9 m c) (Cert.KernelIdeal.Stages.A10 m c) (Cert.KernelIdeal.Stages.A11 m c) (Cert.KernelIdeal.Stages.A12 m c) (Cert.KernelIdeal.Stages.A13 m c) (Cert.KernelIdeal.Stages.A14 m c) (Cert.KernelIdeal.Stages.A15 m c) (Cert.KernelIdeal.Stages.A16 m c) (Cert.KernelIdeal.Stages.A17 m c) (Cert.KernelIdeal.Stages.A18 m c) (Cert.KernelIdeal.Stages.A19 m c) (Cert.KernelIdeal.Stages.A20 m c),
    fun c => Cert.ReferenceIdeal.Read.val_main_v185 (F := Ideal) (Cert.KernelIdeal.Stages.A0 m c) (Cert.KernelIdeal.Stages.A1 m c) (Cert.KernelIdeal.Stages.A2 m c) (Cert.KernelIdeal.Stages.A3 m c) (Cert.KernelIdeal.Stages.A4 m c) (Cert.KernelIdeal.Stages.A5 m c) (Cert.KernelIdeal.Stages.A6 m c) (Cert.KernelIdeal.Stages.A7 m c) (Cert.KernelIdeal.Stages.A8 m c) (Cert.KernelIdeal.Stages.A9 m c) (Cert.KernelIdeal.Stages.A10 m c) (Cert.KernelIdeal.Stages.A11 m c) (Cert.KernelIdeal.Stages.A12 m c) (Cert.KernelIdeal.Stages.A13 m c) (Cert.KernelIdeal.Stages.A14 m c) (Cert.KernelIdeal.Stages.A15 m c) (Cert.KernelIdeal.Stages.A16 m c) (Cert.KernelIdeal.Stages.A17 m c) (Cert.KernelIdeal.Stages.A18 m c) (Cert.KernelIdeal.Stages.A19 m c) (Cert.KernelIdeal.Stages.A20 m c) (Cert.KernelIdeal.Stages.A21 m c) (Cert.KernelIdeal.Stages.A22 m c), ?_, ?_⟩
  · exact (θ_run Cert.KernelIdeal.defs _ _).mono
      (fun r h c => ⟨(h c).1.trans (Cert.KernelIdeal.Stages.res_v110 m ρ c hpre),
        (h c).2.1.trans (Cert.KernelIdeal.Stages.st_v112 m ρ c hpre), (h c).2.2⟩)
      (Cert.KernelIdeal.RunValue.run_values m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16, h17, h18, h19, h20, h21, h22⟩ := hagree c
    refine ⟨(h c).1.trans ?_, (h c).2.1.trans ?_, (h c).2.2⟩
    · unfold Cert.ReferenceIdeal.Value.res_main_v181
      rw [h0, h1, h2, h3, h4, h5, h6, h7, h8, h9, h10, h11, h12, h13, h14, h15, h16, h17, h18, h19, h20]
    · unfold Cert.ReferenceIdeal.Value.res_main_v185
      rw [h0, h1, h2, h3, h4, h5, h6, h7, h8, h9, h10, h11, h12, h13, h14, h15, h16, h17, h18, h19, h20, h21, h22]

/-- The certificate's claim. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
